-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_cst_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64x128 : Shape := ⟨2, ![64, 128]⟩
abbrev S64 : Shape := ⟨1, ![64]⟩
abbrev S1x64 : Shape := ⟨2, ![1, 64]⟩
abbrev S1048576 : Shape := ⟨1, ![1048576]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S64x128 .f32) (main_arg5 : FVec F S64 .f32) (main_arg6 : FVec F S1x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S16384x64 .f32) (main_arg1 : FVec F S16384x16384 .f32) (main_arg2 : FVec F S64x64 .f32) (main_arg3 : FVec F S64x64 .f32) (main_arg4 : FVec F S64x128 .f32) (main_arg5 : FVec F S64 .f32) (main_arg6 : FVec F S1x64 .f32) (main_arg7 : IVec S1048576 32) (main_arg8 : IVec S1048576 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64x128 : Shape := ⟨2, ![64, 128]⟩
abbrev S64 : Shape := ⟨1, ![64]⟩
abbrev S1x64 : Shape := ⟨2, ![1, 64]⟩
abbrev S1048576 : Shape := ⟨1, ![1048576]⟩
abbrev S2048x1024 : Shape := ⟨2, ![2048, 1024]⟩
abbrev S1024x64 : Shape := ⟨2, ![1024, 64]⟩
abbrev S2048x64 : Shape := ⟨2, ![2048, 64]⟩
abbrev S_ : Shape := ⟨0, ![]⟩
abbrev S1048576x1 : Shape := ⟨2, ![1048576, 1]⟩
abbrev S1048576x64 : Shape := ⟨2, ![1048576, 64]⟩
abbrev S64x1 : Shape := ⟨2, ![64, 1]⟩
abbrev S8192x64 : Shape := ⟨2, ![8192, 64]⟩
abbrev S8192x1 : Shape := ⟨2, ![8192, 1]⟩

abbrev nBuf : Space → Nat
  | .hbm => 39
  | .vmem => 26
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64x64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S1048576, .i32⟩
  | .hbm, ⟨8, _⟩ => ⟨S1048576, .i32⟩
  | .hbm, ⟨9, _⟩ => ⟨S64x64, .f32⟩
  | .hbm, ⟨10, _⟩ => ⟨S16384x64, .f32⟩
  | .hbm, ⟨11, _⟩ => ⟨S64x64, .f32⟩
  | .hbm, ⟨12, _⟩ => ⟨S16384x64, .f32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576x64, .f32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S1048576x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S1x64, .f32⟩
  | .hbm, ⟨36, _⟩ => ⟨S64x1, .f32⟩
  | .hbm, ⟨37, _⟩ => ⟨S1048576x1, .f32⟩
  | .hbm, ⟨38, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S64x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x1024, .f32⟩
  | .local _ .vmem, ⟨9, _⟩ => ⟨S2048x1024, .f32⟩
  | .local _ .vmem, ⟨10, _⟩ => ⟨S1024x64, .f32⟩
  | .local _ .vmem, ⟨11, _⟩ => ⟨S1024x64, .f32⟩
  | .local _ .vmem, ⟨12, _⟩ => ⟨S64x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S8192x64, .f32⟩
  | .local _ .vmem, ⟨17, _⟩ => ⟨S8192x64, .f32⟩
  | .local _ .vmem, ⟨18, _⟩ => ⟨S8192x64, .f32⟩
  | .local _ .vmem, ⟨19, _⟩ => ⟨S8192x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S64x1, .f32⟩
  | .local _ .vmem, ⟨24, _⟩ => ⟨S8192x1, .f32⟩
  | .local _ .vmem, ⟨25, _⟩ => ⟨S8192x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8192x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S64x64_S64x64_1_0 : S64x64.Transposes [1, 0] S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S1024x64_S1024x64 : S1024x64.ShapeCasts S1024x64
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S64x128_S64x64_0_0 : S64x128.Slices ![0, 0] S64x64
  slices_S64x128_S64x64_0_64 : S64x128.Slices ![0, 64] S64x64
  shapeCasts_S64_S1x64 : S64.ShapeCasts S1x64
  transposes_S1x64_S64x1_1_0 : S1x64.Transposes [1, 0] S64x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S8192x1_S8192x1_0_0 : ∀ a, (![0, 0] : Fin 2 → Nat) a + S8192x1.size a ≤ S8192x1.size a
  h_S8192x1 : 0 < S8192x1.numel
  dot_S2048x1024_S1024x64_S2048x64_1_0_0_1_n_n_wf : DotDims.WF S2048x1024 S1024x64 S2048x64 [1] [0] [0] [1] [] []
  dot_S2048x64_S64x64_S2048x64_1_0_0_1_n_n_wf : DotDims.WF S2048x64 S64x64 S2048x64 [1] [0] [0] [1] [] []
  gather_S16384x64_S1048576x1_S1048576x64_1_0_n_n_0_1_164_wf : GatherDims.WF S16384x64 S1048576x1 S1048576x64 [1] [0] [] [0] [] 1 ![1, 64]
  dot_S8192x64_S64x64_S8192x64_1_0_0_1_n_n_wf : DotDims.WF S8192x64 S64x64 S8192x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .f32 = 32 ∨ (Rect.block (s := S16384x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1048576x64.size a
  hwx2_0 : ∀ i : grid2.Coords, EltTy.bits .f32 = 32 ∨ (Rect.block (s := S1048576x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1048576x64.size a
  hwx2_1 : ∀ i : grid2.Coords, EltTy.bits .f32 = 32 ∨ (Rect.block (s := S1048576x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8192x1.size a ≤ S1048576x1.size a
  hwx2_6 : ∀ i : grid2.Coords, EltTy.bits .f32 = 32 ∨ (Rect.block (s := S1048576x1) S8192x1.size (cc2_transform_6 i) (hinb2_6 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def gather_S16384x64_S1048576x1_S1048576x64_1_0_n_n_0_1_164 : GatherDims S16384x64 S1048576x1 S1048576x64 where
  offsetDims := [1]
  collapsedSliceDims := [0]
  operandBatchingDims := []
  startIndicesBatchingDims := []
  startIndexMap := [0]
  indexVectorDim := 1
  sliceSizes := ![1, 64]
  wf := gather_S16384x64_S1048576x1_S1048576x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S8192x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64x128 : Shape := ⟨2, ![64, 128]⟩
abbrev S64 : Shape := ⟨1, ![64]⟩
abbrev S1x64 : Shape := ⟨2, ![1, 64]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S1048576x128 : Shape := ⟨2, ![1048576, 128]⟩
abbrev S128x64 : Shape := ⟨2, ![128, 64]⟩
abbrev S64x1 : Shape := ⟨2, ![64, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64x64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S1048576, .i32⟩
  | .hbm, ⟨8, _⟩ => ⟨S1048576, .i32⟩
  | .hbm, ⟨9, _⟩ => ⟨S16384x64, .f32⟩
  | .hbm, ⟨10, _⟩ => ⟨S64x64, .f32⟩
  | .hbm, ⟨11, _⟩ => ⟨S16384x64, .f32⟩
  | .hbm, ⟨12, _⟩ => ⟨S_, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S64x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x64, .f32⟩
  | .hbm, ⟨30, _⟩ => ⟨S_, .i32⟩
  | .hbm, ⟨31, _⟩ => ⟨S1048576, .i32⟩
  | .hbm, ⟨32, _⟩ => ⟨S1048576, .i1⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576x1, .i32⟩
  | .hbm, ⟨38, _⟩ => ⟨S1048576x64, .f32⟩
  | .hbm, ⟨39, _⟩ => ⟨S1048576x128, .f32⟩
  | .hbm, ⟨40, _⟩ => ⟨S128x64, .f32⟩
  | .hbm, ⟨41, _⟩ => ⟨S1048576x64, .f32⟩
  | .hbm, ⟨42, _⟩ => ⟨S1x64, .f32⟩
  | .hbm, ⟨43, _⟩ => ⟨S1048576x64, .f32⟩
  | .hbm, ⟨44, _⟩ => ⟨S1048576x64, .f32⟩
  | .hbm, ⟨45, _⟩ => ⟨S1048576x64, .f32⟩
  | .hbm, ⟨46, _⟩ => ⟨S1048576x64, .f32⟩
  | .hbm, ⟨47, _⟩ => ⟨S_, .f32⟩
  | .hbm, ⟨48, _⟩ => ⟨S1048576x64, .f32⟩
  | .hbm, ⟨49, _⟩ => ⟨S1048576x64, .f32⟩
  | .hbm, ⟨50, _⟩ => ⟨S_, .f32⟩
  | .hbm, ⟨51, _⟩ => ⟨S1048576x64, .f32⟩
  | .hbm, ⟨52, _⟩ => ⟨S1048576x64, .f32⟩
  | .hbm, ⟨53, _⟩ => ⟨S64x1, .f32⟩
  | .hbm, ⟨54, _⟩ => ⟨S1048576x1, .f32⟩
  | .hbm, ⟨55, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_cst : Ref sig .tc := ⟨.hbm, 18, rfl⟩
abbrev main_call1_v0 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩

abbrev nD : Nat := 1
abbrev τ : Topo := Topo.v7x

variable {F : FTy → Type} [FloatOps F]

class Facts₀ : Prop where
  transposes_S64x64_S64x64_1_0 : S64x64.Transposes [1, 0] S64x64
  bcast_S_S16384x64 : S_.BroadcastsInDim S16384x64 (![] : Fin 0 → Fin S16384x64.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x64_S1048576x64_S1048576x128_d1 : Shape.Concatenates [S1048576x64, S1048576x64] S1048576x128 1
  transposes_S64x128_S128x64_1_0 : S64x128.Transposes [1, 0] S128x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  transposes_S1x64_S64x1_1_0 : S1x64.Transposes [1, 0] S64x1
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  gather_S16384x64_S1048576x1_S1048576x64_1_0_n_n_0_1_164_wf : GatherDims.WF S16384x64 S1048576x1 S1048576x64 [1] [0] [] [0] [] 1 ![1, 64]
  dot_S1048576x128_S128x64_S1048576x64_1_0_0_1_n_n_wf : DotDims.WF S1048576x128 S128x64 S1048576x64 [1] [0] [0] [1] [] []
  dot_S1048576x64_S64x1_S1048576x1_1_0_0_1_n_n_wf : DotDims.WF S1048576x64 S64x1 S1048576x1 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S1048576x1_S1048576x64_1_0_n_n_0_1_164 : GatherDims S16384x64 S1048576x1 S1048576x64 where
  offsetDims := [1]
  collapsedSliceDims := [0]
  operandBatchingDims := []
  startIndicesBatchingDims := []
  startIndexMap := [0]
  indexVectorDim := 1
  sliceSizes := ![1, 64]
  wf := gather_S16384x64_S1048576x1_S1048576x64_1_0_n_n_0_1_164_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.Bits.Layer0Runs.lean ====
/-
  One message-passing layer's kernel body, run case by case. The body keeps a running sum in a scratch
  buffer across the sixteen column blocks of a row block: at the first column block (k = 0) it clears the
  sum, at every column block it adds the product of the adjacency block with the feature block, and at the
  last column block (k = 15) it multiplies the finished sum by the weight matrix, clips at zero and stores the
  row block of the layer's output. Three cases meet the grid: first (clear and add), middle (add), last (add
  and finish). Each case's run names the pieces its stores leave in the scratch and in the output's buffer.
-/
import proofs.«142809_j11622181503541_2_alg».proof.Proof.Gen.Kernel.Launch
import proofs.«142809_j11622181503541_2_alg».proof.Proof.Gen.Kernel.Skeleton
import proofs.«142809_j11622181503541_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, from the column-block coordinate -/

/-- "This is the first column block" (k = 0): the body clears the running sum. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last column block" (k = 15): the body finishes the row block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column block the output's buffer is neither stored into nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the pipeline calls the body with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
/-- The running sum's scratch buffer. -/
abbrev scM0 : Memref sig .tc .vmem S2048x64 .f32 := Memref.whole cc0_scratch0
abbrev VS0 : View sig .tc .vmem S2048x64 .f32 := (scM0).view
abbrev VO0 : View sig .tc .vmem S2048x64 .f32 := (Memref.whole cc0_stg3_0 : Memref sig .tc .vmem S2048x64 .f32).view

/-- The class invariant is the scratch at some contents beside the core's other scoped buffers and its generator register. -/
theorem PhiA0_split (c : Dev nD) : ∃ R : sProp 𝕄,
    (Pipeline.ΦA spec0 c : sProp 𝕄) = iprop(iprop((∃ d, owns (c : Thread nD τ) scM0 fullShare d) ∗ R) ∗ (∃ r, prngReg c r)) := by
  refine ⟨?_, ?_⟩
  swap
  · unfold Pipeline.ΦA; rw [scopedRest0_eq]; simp only [scM0, owns_whole]; rfl
/-- The core's other scoped buffers, each at some contents: what the body never touches. -/
def rest0 (c : Dev nD) : sProp 𝕄 := (PhiA0_split (F := F) c).choose

theorem PhiA0_eq (c : Dev nD) :
    (Pipeline.ΦA spec0 c : sProp 𝕄)
      = iprop(iprop((∃ d, owns (c : Thread nD τ) scM0 fullShare d) ∗ rest0 c) ∗ (∃ r, prngReg c r)) := by
  exact (PhiA0_split (F := F) c).choose_spec

/-! ## The body's run, case by case -/

set_option maxHeartbeats 4000000 in
/-- FIRST column block: the sum is cleared, then the block's product added. The scratch is handed at anything. -/
noncomputable def kernelRun0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc0__propagate_kernel i arg2 harg2 arg3 harg3 arg4 harg4 arg5 harg5 arg6 harg6) K } := by
  refine ⟨?_, fun E K => ?run⟩
  case run =>
    simp only [cc0__propagate_kernel_eq_skeleton]; unfold cc0__propagate_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- A MIDDLE column block: the block's product is added to the sum the point before left (`xs0`). -/
noncomputable def kernelRun0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc0__propagate_kernel i arg2 harg2 arg3 harg3 arg4 harg4 arg5 harg5 arg6 harg6) K } := by
  refine ⟨?_, fun E K => ?run⟩
  case run =>
    simp only [cc0__propagate_kernel_eq_skeleton]; unfold cc0__propagate_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- The LAST column block: the block's product is added, and the finished sum times the weights, clipped at zero,
    is stored into the output's buffer (handed at anything). -/
noncomputable def kernelRun0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__propagate_kernel i arg2 harg2 arg3 harg3 arg4 harg4 arg5 harg5 arg6 harg6) K } := by
  refine ⟨?_, ?_, fun E K => ?run⟩
  case run =>
    simp only [cc0__propagate_kernel_eq_skeleton]; unfold cc0__propagate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.Layer0.lean ====
/-
  One message-passing layer as a pipeline region: what the running sum and the output's buffer hold after each
  grid point (by recursion on the point: cleared at a row block's first column block, grown by one block product at
  every column block, turned into the output row block at the last), the region's invariant that carries the running
  sum from point to point, the proof data and the body obligation — all at a parameter V, the buffers' contents when
  the region is entered.
-/
import proofs.«142809_j11622181503541_2_alg».proof.Proof.Bits.Layer0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its pieces read back -/

theorem scover0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) (y : S2048x64.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S2048x64.size (by sl_kernel_rfl) y
/-- The running sum after a first column block. -/
def sout0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) : Vec F S2048x64 .f32 :=
  VS0.read (Elt F) (VS0.writes (Elt F) VS0.junk (kernelRun0_A c i arg2 harg2 arg3 harg3 arg4 harg4 arg5 harg5 arg6 harg6 hc0 hc1 x0 x1).1)

theorem scover0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) (y : S2048x64.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S2048x64.size (by sl_kernel_rfl) y
/-- The running sum after a middle column block, over what the point before left. -/
def sout0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) : Vec F S2048x64 .f32 :=
  VS0.read (Elt F) (VS0.writes (Elt F) VS0.junk (kernelRun0_B c i arg2 harg2 arg3 harg3 arg4 harg4 arg5 harg5 arg6 harg6 hc0 hc1 x0 x1 xs0).1)

theorem cover0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) (y : S2048x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x64.size (by sl_kernel_rfl) y
/-- The output row block a last column block stores. -/
def out0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) : Vec F S2048x64 .f32 :=
  VO0.read (Elt F) (VO0.writes (Elt F) VO0.junk (kernelRun0_C c i arg2 harg2 arg3 harg3 arg4 harg4 arg5 harg5 arg6 harg6 hc0 hc1 x0 x1 x2 xs0).1)
theorem scover0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) (y : S2048x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x64.size (by sl_kernel_rfl) y
/-- The running sum after a last column block. -/
def sout0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) : Vec F S2048x64 .f32 :=
  VS0.read (Elt F) (VS0.writes (Elt F) VS0.junk (kernelRun0_C c i arg2 harg2 arg3 harg3 arg4 harg4 arg5 harg5 arg6 harg6 hc0 hc1 x0 x1 x2 xs0).2.1)

/-- What stands for the output's buffer where the body stores nothing into it (never consulted). -/
def idleOut0 : Vec F S2048x64 .f32 := VO0.read (Elt F) VO0.junk

/-! ## The three steps at a point, and the accumulation -/

theorem notLast0_of_first (t : Fin cfg0.N) (h0 : t.val % 16 = 0) : ¬cond0_1 (grid0.coords t) :=
  fun h => by have := (hcond0_1 t).mp h; omega
theorem notFirst0_of_last (t : Fin cfg0.N) (h1 : t.val % 16 = 15) : ¬cond0_0 (grid0.coords t) :=
  fun h => by have := (hcond0_0 t).mp h; omega

/-- (output buffer, running sum) after a first column block. -/
def stepA0 (c : Dev nD) (t : Fin cfg0.N) (h0 : t.val % 16 = 0) : Vec F S2048x64 .f32 × Vec F S2048x64 .f32 :=
  (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (notLast0_of_first t h0) (iblk0 V c 0 t) (iblk0 V c 1 t))
/-- … after a middle column block, over the running sum `xs` the point before left. -/
def stepB0 (c : Dev nD) (t : Fin cfg0.N) (h0 : ¬t.val % 16 = 0) (h1 : ¬t.val % 16 = 15) (xs : Vec F S2048x64 .f32) : Vec F S2048x64 .f32 × Vec F S2048x64 .f32 :=
  (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) xs)
/-- … after a last column block. -/
def stepC0 (c : Dev nD) (t : Fin cfg0.N) (h1 : t.val % 16 = 15) (xs : Vec F S2048x64 .f32) : Vec F S2048x64 .f32 × Vec F S2048x64 .f32 :=
  (out0_C c (grid0.coords t) (ms0_0 t) (hs0_0 t) (ms0_1 t) (hs0_1 t) (ms0_2 t) (hs0_2 t) (ms0_3 t) (hs0_3 t) scM0 (Memref.isWhole_whole _) (notFirst0_of_last t h1) ((hcond0_1 t).mpr h1) (iblk0 V c 0 t) (iblk0 V c 1 t) (iblk0 V c 2 t) xs,
   sout0_C c (grid0.coords t) (ms0_0 t) (hs0_0 t) (ms0_1 t) (hs0_1 t) (ms0_2 t) (hs0_2 t) (ms0_3 t) (hs0_3 t) scM0 (Memref.isWhole_whole _) (notFirst0_of_last t h1) ((hcond0_1 t).mpr h1) (iblk0 V c 0 t) (iblk0 V c 1 t) (iblk0 V c 2 t) xs)

/-- THE ACCUMULATION: (output buffer, running sum) after the body at position `n`. -/
def outsAt0 (c : Dev nD) : (n : ℕ) → n < cfg0.N → Vec F S2048x64 .f32 × Vec F S2048x64 .f32
  | 0, hn => stepA0 V c ⟨0, hn⟩ (Nat.zero_mod _)
  | n + 1, hn =>
    if h0 : (n + 1) % 16 = 0 then stepA0 V c ⟨n + 1, hn⟩ h0
    else if h1 : (n + 1) % 16 = 15 then stepC0 V c ⟨n + 1, hn⟩ h1 (outsAt0 c n (Nat.lt_of_succ_lt hn)).2
    else stepB0 V c ⟨n + 1, hn⟩ h0 h1 (outsAt0 c n (Nat.lt_of_succ_lt hn)).2

theorem outsAt0_A (c : Dev nD) (t : Fin cfg0.N) (h0 : t.val % 16 = 0) :
    outsAt0 V c t.val t.isLt = stepA0 V c t h0 := by
  obtain ⟨n, hn⟩ := t
  cases n with
  | zero => rfl
  | succ n => exact dif_pos h0
theorem outsAt0_B (c : Dev nD) (t : Fin cfg0.N) (h0 : ¬t.val % 16 = 0) (h1 : ¬t.val % 16 = 15) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h1 : t.val % 16 = 15) :
    outsAt0 V c t.val t.isLt = stepC0 V c t h1 (outsAt0 V c (t.val - 1) (Nat.lt_of_le_of_lt (Nat.sub_le _ _) t.isLt)).2 := by
  obtain ⟨n, hn⟩ := t
  cases n with
  | zero => exact absurd ((Nat.zero_mod 16).symm.trans h1) (by decide)
  | succ n =>
    have h1' : (n + 1) % 16 = 15 := h1
    exact (dif_neg (by omega)).trans ((dif_pos h1').trans rfl)

/-! ## The region's invariant: the running sum carried from point to point -/

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any point: the inputs' buffers hold their blocks; the column-block coordinate says which case the
    point is in; the invariant hands the body the running sum the point before left (anything at the very first point)
    and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 16 = 0
  · have hc1 : ¬cond0_1 (grid0.coords t) := notLast0_of_first t h0
    rw [Dat.leavesExact_idle (dat0 V c) 3 t (idleAt0_3 t hc1) (noFlush0_3 t hc1)]
    rw [outsAt0_A V c t h0]
    unfold stepA0 sout0_A; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) hc1 (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) hc1 (iblk0 V c 0 t) (iblk0 V c 1 t)).2 Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [outsAt0_C V c t h1]
      unfold stepC0 out0_C sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (notFirst0_of_last t h1) hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1)]
      rw [outsAt0_B V c t h0 h1]
      unfold stepB0 sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) hc1 (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running sum's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HR⟩, Hg⟩
  isplitl [HS0 HR]
  · isplitl [HS0]
    · iexists _; iexact HS0
    iexact HR
  iexact Hg

end Cert.Kernel.Hand

end
-- ==== Proof.Bits.Layer1Runs.lean ====
/-
  One message-passing layer's kernel body, run case by case. The body keeps a running sum in a scratch
  buffer across the sixteen column blocks of a row block: at the first column block (k = 0) it clears the
  sum, at every column block it adds the product of the adjacency block with the feature block, and at the
  last column block (k = 15) it multiplies the finished sum by the weight matrix, clips at zero and stores the
  row block of the layer's output. Three cases meet the grid: first (clear and add), middle (add), last (add
  and finish). Each case's run names the pieces its stores leave in the scratch and in the output's buffer.
-/
import proofs.«142809_j11622181503541_2_alg».proof.Proof.Gen.Kernel.Launch
import proofs.«142809_j11622181503541_2_alg».proof.Proof.Gen.Kernel.Skeleton
import proofs.«142809_j11622181503541_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, from the column-block coordinate -/

/-- "This is the first column block" (k = 0): the body clears the running sum. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column block" (k = 15): the body finishes the row block. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column block the output's buffer is neither stored into nor written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the pipeline calls the body with -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The running sum's scratch buffer. -/
abbrev scM1 : Memref sig .tc .vmem S2048x64 .f32 := Memref.whole cc1_scratch0
abbrev VS1 : View sig .tc .vmem S2048x64 .f32 := (scM1).view
abbrev VO1 : View sig .tc .vmem S2048x64 .f32 := (Memref.whole cc1_stg3_0 : Memref sig .tc .vmem S2048x64 .f32).view

/-- The core's other scoped buffers, each at some contents: what the body never touches. -/
def rest1 (c : Dev nD) : sProp 𝕄 :=
  Pipeline.scopedRestBut (Ix := Unit) (Name := ℕ) (U := UR sig nD τ) (Lvl := ℕ) (Val := Elt F) spec1 c [cc1_scratch0]
/-- The class invariant is the scratch at some contents beside the core's other scoped buffers and its generator register. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA rest1
  rw [Pipeline.scopedRest_split_of_list (win := spec1) (c := c) [cc1_scratch0] (by decide) (by decide)]
  simp only [scM1, owns_whole]; rfl

/-! ## The body's run, case by case -/

set_option maxHeartbeats 4000000 in
/-- FIRST column block: the sum is cleared, then the block's product added. The scratch is handed at anything. -/
noncomputable def kernelRun1_A (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x1024 .f32) (x1 : Vec F S1024x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc1__propagate_kernel i arg2 harg2 arg3 harg3 arg4 harg4 arg5 harg5 arg6 harg6) K } := by
  refine ⟨?_, fun E K => ?run⟩
  case run =>
    simp only [cc1__propagate_kernel_eq_skeleton]; unfold cc1__propagate_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- A MIDDLE column block: the block's product is added to the sum the point before left (`xs0`). -/
noncomputable def kernelRun1_B (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x1024 .f32) (x1 : Vec F S1024x64 .f32) (xs0 : Vec F S2048x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc1__propagate_kernel i arg2 harg2 arg3 harg3 arg4 harg4 arg5 harg5 arg6 harg6) K } := by
  refine ⟨?_, fun E K => ?run⟩
  case run =>
    simp only [cc1__propagate_kernel_eq_skeleton]; unfold cc1__propagate_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- The LAST column block: the block's product is added, and the finished sum times the weights, clipped at zero,
    is stored into the output's buffer (handed at anything). -/
noncomputable def kernelRun1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__propagate_kernel i arg2 harg2 arg3 harg3 arg4 harg4 arg5 harg5 arg6 harg6) K } := by
  refine ⟨?_, ?_, fun E K => ?run⟩
  case run =>
    simp only [cc1__propagate_kernel_eq_skeleton]; unfold cc1__propagate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.Layer1.lean ====
/-
  One message-passing layer as a pipeline region: what the running sum and the output's buffer hold after each
  grid point (by recursion on the point: cleared at a row block's first column block, grown by one block product at
  every column block, turned into the output row block at the last), the region's invariant that carries the running
  sum from point to point, the proof data and the body obligation — all at a parameter V, the buffers' contents when
  the region is entered.
-/
import proofs.«142809_j11622181503541_2_alg».proof.Proof.Bits.Layer1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces read back -/

theorem scover1_A (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x1024 .f32) (x1 : Vec F S1024x64 .f32) (y : S2048x64.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S2048x64.size (by sl_kernel_rfl) y
/-- The running sum after a first column block. -/
def sout1_A (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x1024 .f32) (x1 : Vec F S1024x64 .f32) : Vec F S2048x64 .f32 :=
  VS1.read (Elt F) (VS1.writes (Elt F) VS1.junk (kernelRun1_A c i arg2 harg2 arg3 harg3 arg4 harg4 arg5 harg5 arg6 harg6 hc0 hc1 x0 x1).1)

theorem scover1_B (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x1024 .f32) (x1 : Vec F S1024x64 .f32) (xs0 : Vec F S2048x64 .f32) (y : S2048x64.Idx) :
    ∃ pc ∈ (kernelRun1_B c i arg2 harg2 arg3 harg3 arg4 harg4 arg5 harg5 arg6 harg6 hc0 hc1 x0 x1 xs0).1, y ∈ pc.1.set :=
  View.cover_of_tiledL (kernelRun1_B c i arg2 harg2 arg3 harg3 arg4 harg4 arg5 harg5 arg6 harg6 hc0 hc1 x0 x1 xs0).1 S2048x64.size (by sl_kernel_rfl) y
/-- The running sum after a middle column block, over what the point before left. -/
def sout1_B (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x1024 .f32) (x1 : Vec F S1024x64 .f32) (xs0 : Vec F S2048x64 .f32) : Vec F S2048x64 .f32 :=
  VS1.read (Elt F) (VS1.writes (Elt F) VS1.junk (kernelRun1_B c i arg2 harg2 arg3 harg3 arg4 harg4 arg5 harg5 arg6 harg6 hc0 hc1 x0 x1 xs0).1)

theorem cover1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x64.size (by sl_kernel_rfl) y
/-- The output row block a last column block stores. -/
def out1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) : Vec F S2048x64 .f32 :=
  VO1.read (Elt F) (VO1.writes (Elt F) VO1.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x64.size (by sl_kernel_rfl) y
/-- The running sum after a last column block. -/
def sout1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) : Vec F S2048x64 .f32 :=
  VS1.read (Elt F) (VS1.writes (Elt F) VS1.junk (kernelRun1_C c i arg2 harg2 arg3 harg3 arg4 harg4 arg5 harg5 arg6 harg6 hc0 hc1 x0 x1 x2 xs0).2.1)

/-- What stands for the output's buffer where the body stores nothing into it (never consulted). -/
def idleOut1 : Vec F S2048x64 .f32 := VO1.read (Elt F) VO1.junk

/-! ## The three steps at a point, and the accumulation -/

theorem notLast1_of_first (t : Fin cfg1.N) (h0 : t.val % 16 = 0) : ¬cond1_1 (grid1.coords t) :=
  fun h => by have := (hcond1_1 t).mp h; omega
theorem notFirst1_of_last (t : Fin cfg1.N) (h1 : t.val % 16 = 15) : ¬cond1_0 (grid1.coords t) :=
  fun h => by have := (hcond1_0 t).mp h; omega

/-- (output buffer, running sum) after a first column block. -/
def stepA1 (c : Dev nD) (t : Fin cfg1.N) (h0 : t.val % 16 = 0) : Vec F S2048x64 .f32 × Vec F S2048x64 .f32 :=
  (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (notLast1_of_first t h0) (iblk1 V c 0 t) (iblk1 V c 1 t))
/-- … after a middle column block, over the running sum `xs` the point before left. -/
def stepB1 (c : Dev nD) (t : Fin cfg1.N) (h0 : ¬t.val % 16 = 0) (h1 : ¬t.val % 16 = 15) (xs : Vec F S2048x64 .f32) : Vec F S2048x64 .f32 × Vec F S2048x64 .f32 :=
  (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) xs)
/-- … after a last column block. -/
def stepC1 (c : Dev nD) (t : Fin cfg1.N) (h1 : t.val % 16 = 15) (xs : Vec F S2048x64 .f32) : Vec F S2048x64 .f32 × Vec F S2048x64 .f32 :=
  (out1_C c (grid1.coords t) (ms1_0 t) (hs1_0 t) (ms1_1 t) (hs1_1 t) (ms1_2 t) (hs1_2 t) (ms1_3 t) (hs1_3 t) scM1 (Memref.isWhole_whole _) (notFirst1_of_last t h1) ((hcond1_1 t).mpr h1) (iblk1 V c 0 t) (iblk1 V c 1 t) (iblk1 V c 2 t) xs,
   sout1_C c (grid1.coords t) (ms1_0 t) (hs1_0 t) (ms1_1 t) (hs1_1 t) (ms1_2 t) (hs1_2 t) (ms1_3 t) (hs1_3 t) scM1 (Memref.isWhole_whole _) (notFirst1_of_last t h1) ((hcond1_1 t).mpr h1) (iblk1 V c 0 t) (iblk1 V c 1 t) (iblk1 V c 2 t) xs)

/-- THE ACCUMULATION: (output buffer, running sum) after the body at position `n`. -/
def outsAt1 (c : Dev nD) : (n : ℕ) → n < cfg1.N → Vec F S2048x64 .f32 × Vec F S2048x64 .f32
  | 0, hn => stepA1 V c ⟨0, hn⟩ (Nat.zero_mod _)
  | n + 1, hn =>
    if h0 : (n + 1) % 16 = 0 then stepA1 V c ⟨n + 1, hn⟩ h0
    else if h1 : (n + 1) % 16 = 15 then stepC1 V c ⟨n + 1, hn⟩ h1 (outsAt1 c n (Nat.lt_of_succ_lt hn)).2
    else stepB1 V c ⟨n + 1, hn⟩ h0 h1 (outsAt1 c n (Nat.lt_of_succ_lt hn)).2

theorem outsAt1_A (c : Dev nD) (t : Fin cfg1.N) (h0 : t.val % 16 = 0) :
    outsAt1 V c t.val t.isLt = stepA1 V c t h0 := by
  obtain ⟨n, hn⟩ := t
  cases n with
  | zero => rfl
  | succ n => exact dif_pos h0
theorem outsAt1_B (c : Dev nD) (t : Fin cfg1.N) (h0 : ¬t.val % 16 = 0) (h1 : ¬t.val % 16 = 15) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h1 : t.val % 16 = 15) :
    outsAt1 V c t.val t.isLt = stepC1 V c t h1 (outsAt1 V c (t.val - 1) (Nat.lt_of_le_of_lt (Nat.sub_le _ _) t.isLt)).2 := by
  obtain ⟨n, hn⟩ := t
  cases n with
  | zero => exact absurd ((Nat.zero_mod 16).symm.trans h1) (by decide)
  | succ n =>
    have h1' : (n + 1) % 16 = 15 := h1
    exact (dif_neg (by omega)).trans ((dif_pos h1').trans rfl)

/-! ## The region's invariant: the running sum carried from point to point -/

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the inputs' buffers hold their blocks; the column-block coordinate says which case the
    point is in; the invariant hands the body the running sum the point before left (anything at the very first point)
    and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 16 = 0
  · have hc1 : ¬cond1_1 (grid1.coords t) := notLast1_of_first t h0
    rw [Dat.leavesExact_idle (dat1 V c) 3 t (idleAt1_3 t hc1) (noFlush1_3 t hc1)]
    rw [outsAt1_A V c t h0]
    unfold stepA1 sout1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h1]
      unfold stepC1 out1_C sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (notFirst1_of_last t h1) hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold stepB1 sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) hc1 (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the running sum's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, HR⟩, Hg⟩
  isplitl [HS0 HR]
  · isplitl [HS0]
    · iexists _; iexact HS0
    iexact HR
  iexact Hg

end Cert.Kernel.Hand

end
-- ==== Proof.Bits.Scorer.lean ====
/-
  The edge scorer's kernel body and its pipeline's proof data. The scorer's grid has 128 points, one per block of
  8192 edges; every point is alike. The body reads the two gathered feature blocks (8192 by 64 each), the two
  64 by 64 weight halves, the bias row and the last weight column whole, and stores one block of 8192 scores:
  a closed function of the six blocks read. The two feature windows are fetched at every point; the four
  parameter windows are fetched at the first point only and hold the same block ever after; the output window
  is written back at every point. Everything here is stated at a parameter: the buffer contents the region is
  entered with.
-/
import proofs.«142809_j11622181503541_2_alg».proof.Proof.Gen.Kernel.Launch
import proofs.«142809_j11622181503541_2_alg».proof.Proof.Gen.Kernel.Skeleton
import proofs.«142809_j11622181503541_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the scorer's region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved since the point before, whose block is therefore this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved since the point before, whose block is therefore this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved since the point before, whose block is therefore this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved since the point before, whose block is therefore this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block
    index has not moved since the point before, whose block is therefore this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block
    index has not moved since the point before, whose block is therefore this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8192x64 := Rect.unit (s := S8192x64) ![0, 0] S8192x64.size inb_S8192x64_S8192x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S64x1 := Rect.unit (s := S64x1) ![0, 0] S64x1.size inb_S64x1_S64x1_0_0
abbrev r2_4 : Rect S8192x1 := Rect.unit (s := S8192x1) ![0, 0] S8192x1.size inb_S8192x1_S8192x1_0_0

/-! ## What the body leaves in the output window's buffer -/

/-- Window 6's staging buffer after the body, from the input windows' blocks: its one store, whose payload is
    the scores of the six blocks read whole. -/
def out2_6 (x0 x1 : Vec F S8192x64 .f32) (x2 x3 : Vec F S64x64 .f32) (x4 : Vec F S1x64 .f32) (x5 : Vec F S64x1 .f32) : Vec F S8192x1 .f32 :=
  View.canon [⟨r2_4, k2_pay1 (View.ld x0 r2_0) (View.ld x1 r2_0) (View.ld x2 r2_1) (View.ld x3 r2_1) (View.ld x4 r2_2) (View.ld x5 r2_3)⟩]

/-- The store is through the whole buffer's rectangle, so it covers the buffer. -/
theorem cover2_6 (p0 : Vec F S8192x1 .f32) (y : S8192x1.Idx) :
    ∃ pc ∈ ([⟨r2_4, p0⟩] : List (View.Piece (Elt F) S8192x1 .f32)), y ∈ pc.1.set :=
  View.cover_of_tiled [⟨r2_4, p0⟩] S8192x1.size (by rfl) y

/-! ## The body's triple -/

set_option maxHeartbeats 4000000 in
/-- The kernel body on whole staging memrefs, the six inputs' at read contents `x0` … `x5` and the output's at
    anything, runs to the continuation holding the inputs' as they were and the output's at `out2_6` of the inputs'. -/
theorem sound_kernel2 (c : Dev nD) (E : Set ℕ) (i : grid2.Coords)
    (arg1 : Memref sig .tc .vmem S8192x64 .f32) (harg1 : arg1.IsWhole) (arg2 : Memref sig .tc .vmem S8192x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x1 .f32) (harg6 : arg6.IsWhole)
    (arg7 : Memref sig .tc .vmem S8192x1 .f32) (harg7 : arg7.IsWhole)
    (x0 x1 : Vec F S8192x64 .f32) (x2 x3 : Vec F S64x64 .f32) (x4 : Vec F S1x64 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__scorer_kernel i arg1 harg1 arg2 harg2 arg3 harg3 arg4 harg4 arg5 harg5 arg6 harg6 arg7 harg7) K := by
  simp only [cc2__scorer_kernel_eq_skeleton]; unfold cc2__scorer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the scorer's pipeline on core `c`: the arrays as the region finds them (`V`); after the body
    at point `t` each input's buffer at its block and the output's at `out2_6` of the input blocks; the invariant
    the core's other scoped buffers and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.Bits.Run.lean ====
/-
  The whole program's run: the buffers' contents at each boundary between a stretch of host operations and a kernel
  region, folded from the launch memory (a stretch applies its operations; a region leaves its arrays at what its
  write-backs assemble and every other buffer alone), every region's proof data at its entry contents, the seven
  segments, and the run itself: every weakly fair execution terminates with every unscoped buffer at the last
  boundary's contents.
-/
import proofs.«142809_j11622181503541_2_alg».proof.Proof.Bits.Layer0
import proofs.«142809_j11622181503541_2_alg».proof.Proof.Bits.Layer1
import proofs.«142809_j11622181503541_2_alg».proof.Proof.Bits.Scorer
import proofs.«142809_j11622181503541_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first stretch (layer 1's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = X2 m ρ c (Pipeline.arrRef spec0 w) :=
  (B2_arr m ρ c w).symm
theorem hrest0 (c : Dev nD) : ∀ b, b ∉ Finset.univ.image (Pipeline.arrRef spec0) → X2 m ρ c b = E1 m ρ c b :=
  fun b hb => B2_of_ne m ρ c b fun w e => hb (Finset.mem_image.mpr ⟨w, Finset.mem_univ _, e⟩)

/-- After the second stretch (layer 2's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = X4 m ρ c (Pipeline.arrRef spec1 w) :=
  (B4_arr m ρ c w).symm
theorem hrest1 (c : Dev nD) : ∀ b, b ∉ Finset.univ.image (Pipeline.arrRef spec1) → X4 m ρ c b = E3 m ρ c b :=
  fun b hb => B4_of_ne m ρ c b fun w e => hb (Finset.mem_image.mpr ⟨w, Finset.mem_univ _, e⟩)

/-- After the third stretch (the scorer's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev X6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = X6 m ρ c (Pipeline.arrRef spec2 w) :=
  (B6_arr m ρ c w).symm
theorem hrest2 (c : Dev nD) : ∀ b, b ∉ Finset.univ.image (Pipeline.arrRef spec2) → X6 m ρ c b = E5 m ρ c b :=
  fun b hb => B6_of_ne m ρ c b fun w e => hb (Finset.mem_image.mpr ⟨w, Finset.mem_univ _, e⟩)

/-- After the last stretch: what the program returns with. -/
abbrev B7 : Dev nD → Valuation τ sig (Elt F) := fun c => StableHlo.after hostOps3 (B6 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev Lz : GSem nD τ sig → Finset Unit := fun _ => ∅
abbrev lvz : GSem nD τ sig → Unit → ℕ := fun _ _ => 0
/-- What rides beside the buffers through every segment: the generator register at some state, nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- Region 0 over the thread state: entered with every unscoped buffer at `B1`, left with them at `B2`. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E1 m ρ) c).Φ 0 from rfl]
    have h := hin0 (E1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (E1 m ρ) c).Φ (Fin.last cfg0.N) from rfl]
    have h := hout0 (E1 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered with every unscoped buffer at `B3`, left with them at `B4`. -/
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E3 m ρ) c).Φ 0 from rfl]
    have h := hin1 (E3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (E3 m ρ) c).Φ (Fin.last cfg1.N) from rfl]
    have h := hout1 (E3 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered with every unscoped buffer at `B5`, left with them at `B6`. -/
def reg2 : Pipeline.RegionSeg (pcfgs (F := F)) adm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lz lvz 2 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ Lz lvz) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ Lz lvz m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c))
    (Tₙ := fun c => iprop(StableHlo.held (c : Thread nD τ) (Pipeline.ucRefs τ sig) (B7 m ρ c) ∗ ∃ r, prngReg c r))
    (hch := ⟨fun _ => .rfl, fun _ => .rfl, fun _ => .rfl, fun _ => .rfl, fun _ => .rfl, fun _ => .rfl, fun _ => .rfl, fun c => by
      refine (show (iprop(StableHlo.held (c : Thread nD τ) (Pipeline.ucRefs τ sig) (B7 m ρ c) ∗ Rest c) : sProp 𝕄)
        ⊢ iprop(iprop(StableHlo.held (c : Thread nD τ) (Pipeline.ucRefs τ sig) (B7 m ρ c) ∗ ∃ r, prngReg c r) ∗ ∃ W, owes (c : Thread nD τ) (0 : CellTallies nD τ sig Unit) W) from ?_)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

end Cert.Kernel.Hand

end
-- ==== Proof.Bits.Frame.lean ====
/-
  The frame: every argument array ends holding its launch contents. A stretch of host operations leaves alone every
  buffer it does not write; a region leaves alone every buffer that is none of its arrays, and an array it only reads
  (an input window's) ends as it was entered.
-/
import proofs.«142809_j11622181503541_2_alg».proof.Proof.Bits.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch leaves alone -/

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B3_of (c : Dev nD) (r : Ref sig .tc) (h : r ∉ hostOps1_W) : B3 m ρ c (Proc.devRef .tc r) = B2 m ρ c (Proc.devRef .tc r) :=
  StableHlo.after_of_writes_sub hostOps1 _ hostOps1_writes h
theorem B5_of (c : Dev nD) (r : Ref sig .tc) (h : r ∉ hostOps2_W) : B5 m ρ c (Proc.devRef .tc r) = B4 m ρ c (Proc.devRef .tc r) :=
  StableHlo.after_of_writes_sub hostOps2 _ hostOps2_writes h
theorem B7_of (c : Dev nD) (r : Ref sig .tc) (h : r ∉ hostOps3_W) : B7 m ρ c (Proc.devRef .tc r) = B6 m ρ c (Proc.devRef .tc r) :=
  StableHlo.after_of_writes_sub hostOps3 _ hostOps3_writes h

/-! ## What each region leaves in an array it only reads -/

theorem B2_in (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((dat0 (E1 m ρ) c).arrAt_in w hw _).trans (A_eq0 (E1 m ρ) c w))
theorem B4_in (c : Dev nD) (w : Fin cfg1.W) (hw : (cfg1.win w).isOut = false) :
    B4 m ρ c (Proc.devRef .tc (Pipeline.arrRef spec1 w)) = B3 m ρ c (Proc.devRef .tc (Pipeline.arrRef spec1 w)) :=
  (B4_arr m ρ c w).trans (((dat1 (E3 m ρ) c).arrAt_in w hw _).trans (A_eq1 (E3 m ρ) c w))
theorem B6_in (c : Dev nD) (w : Fin cfg2.W) (hw : (cfg2.win w).isOut = false) :
    B6 m ρ c (Proc.devRef .tc (Pipeline.arrRef spec2 w)) = B5 m ρ c (Proc.devRef .tc (Pipeline.arrRef spec2 w)) :=
  (B6_arr m ρ c w).trans (((dat2 (E5 m ρ) c).arrAt_in w hw _).trans (A_eq2 (E5 m ρ) c w))

/-! ## The arguments end as launched -/

/-- The features `main_arg0`: the first layer reads them through an input window. -/
theorem B7_main_arg0 (c : Dev nD) : B7 m ρ c (Proc.devRef .tc main_arg0) = m ((c : Thread nD τ).loc main_arg0) :=
  (B7_of m ρ c main_arg0 (by decide)).trans <| (B6_of_ne m ρ c main_arg0 (by decide)).trans <| (B5_of m ρ c main_arg0 (by decide)).trans <|
    (B4_of_ne m ρ c main_arg0 (by decide)).trans <| (B3_of m ρ c main_arg0 (by decide)).trans <| (B2_in m ρ c 1 rfl).trans <|
    (B1_of m ρ c main_arg0 (by decide)).trans rfl
/-- The adjacency `main_arg1`: both layers read it through an input window. -/
theorem B7_main_arg1 (c : Dev nD) : B7 m ρ c (Proc.devRef .tc main_arg1) = m ((c : Thread nD τ).loc main_arg1) :=
  (B7_of m ρ c main_arg1 (by decide)).trans <| (B6_of_ne m ρ c main_arg1 (by decide)).trans <| (B5_of m ρ c main_arg1 (by decide)).trans <|
    (B4_in m ρ c 0 rfl).trans <| (B3_of m ρ c main_arg1 (by decide)).trans <| (B2_in m ρ c 0 rfl).trans <|
    (B1_of m ρ c main_arg1 (by decide)).trans rfl
/-- `main_arg2` reaches the end as launched: no stretch writes it and no region has it among its arrays. -/
theorem B7_main_arg2 (c : Dev nD) : B7 m ρ c (Proc.devRef .tc main_arg2) = m ((c : Thread nD τ).loc main_arg2) :=
  (B7_of m ρ c main_arg2 (by decide)).trans <| (B6_of_ne m ρ c main_arg2 (by decide)).trans <| (B5_of m ρ c main_arg2 (by decide)).trans <|
    (B4_of_ne m ρ c main_arg2 (by decide)).trans <| (B3_of m ρ c main_arg2 (by decide)).trans <| (B2_of_ne m ρ c main_arg2 (by decide)).trans <|
    (B1_of m ρ c main_arg2 (by decide)).trans rfl
/-- `main_arg3` reaches the end as launched: no stretch writes it and no region has it among its arrays. -/
theorem B7_main_arg3 (c : Dev nD) : B7 m ρ c (Proc.devRef .tc main_arg3) = m ((c : Thread nD τ).loc main_arg3) :=
  (B7_of m ρ c main_arg3 (by decide)).trans <| (B6_of_ne m ρ c main_arg3 (by decide)).trans <| (B5_of m ρ c main_arg3 (by decide)).trans <|
    (B4_of_ne m ρ c main_arg3 (by decide)).trans <| (B3_of m ρ c main_arg3 (by decide)).trans <| (B2_of_ne m ρ c main_arg3 (by decide)).trans <|
    (B1_of m ρ c main_arg3 (by decide)).trans rfl
/-- `main_arg4` reaches the end as launched: no stretch writes it and no region has it among its arrays. -/
theorem B7_main_arg4 (c : Dev nD) : B7 m ρ c (Proc.devRef .tc main_arg4) = m ((c : Thread nD τ).loc main_arg4) :=
  (B7_of m ρ c main_arg4 (by decide)).trans <| (B6_of_ne m ρ c main_arg4 (by decide)).trans <| (B5_of m ρ c main_arg4 (by decide)).trans <|
    (B4_of_ne m ρ c main_arg4 (by decide)).trans <| (B3_of m ρ c main_arg4 (by decide)).trans <| (B2_of_ne m ρ c main_arg4 (by decide)).trans <|
    (B1_of m ρ c main_arg4 (by decide)).trans rfl
/-- `main_arg5` reaches the end as launched: no stretch writes it and no region has it among its arrays. -/
theorem B7_main_arg5 (c : Dev nD) : B7 m ρ c (Proc.devRef .tc main_arg5) = m ((c : Thread nD τ).loc main_arg5) :=
  (B7_of m ρ c main_arg5 (by decide)).trans <| (B6_of_ne m ρ c main_arg5 (by decide)).trans <| (B5_of m ρ c main_arg5 (by decide)).trans <|
    (B4_of_ne m ρ c main_arg5 (by decide)).trans <| (B3_of m ρ c main_arg5 (by decide)).trans <| (B2_of_ne m ρ c main_arg5 (by decide)).trans <|
    (B1_of m ρ c main_arg5 (by decide)).trans rfl
/-- `main_arg6` reaches the end as launched: no stretch writes it and no region has it among its arrays. -/
theorem B7_main_arg6 (c : Dev nD) : B7 m ρ c (Proc.devRef .tc main_arg6) = m ((c : Thread nD τ).loc main_arg6) :=
  (B7_of m ρ c main_arg6 (by decide)).trans <| (B6_of_ne m ρ c main_arg6 (by decide)).trans <| (B5_of m ρ c main_arg6 (by decide)).trans <|
    (B4_of_ne m ρ c main_arg6 (by decide)).trans <| (B3_of m ρ c main_arg6 (by decide)).trans <| (B2_of_ne m ρ c main_arg6 (by decide)).trans <|
    (B1_of m ρ c main_arg6 (by decide)).trans rfl
/-- `main_arg7` reaches the end as launched: no stretch writes it and no region has it among its arrays. -/
theorem B7_main_arg7 (c : Dev nD) : B7 m ρ c (Proc.devRef .tc main_arg7) = m ((c : Thread nD τ).loc main_arg7) :=
  (B7_of m ρ c main_arg7 (by decide)).trans <| (B6_of_ne m ρ c main_arg7 (by decide)).trans <| (B5_of m ρ c main_arg7 (by decide)).trans <|
    (B4_of_ne m ρ c main_arg7 (by decide)).trans <| (B3_of m ρ c main_arg7 (by decide)).trans <| (B2_of_ne m ρ c main_arg7 (by decide)).trans <|
    (B1_of m ρ c main_arg7 (by decide)).trans rfl
/-- `main_arg8` reaches the end as launched: no stretch writes it and no region has it among its arrays. -/
theorem B7_main_arg8 (c : Dev nD) : B7 m ρ c (Proc.devRef .tc main_arg8) = m ((c : Thread nD τ).loc main_arg8) :=
  (B7_of m ρ c main_arg8 (by decide)).trans <| (B6_of_ne m ρ c main_arg8 (by decide)).trans <| (B5_of m ρ c main_arg8 (by decide)).trans <|
    (B4_of_ne m ρ c main_arg8 (by decide)).trans <| (B3_of m ρ c main_arg8 (by decide)).trans <| (B2_of_ne m ρ c main_arg8 (by decide)).trans <|
    (B1_of m ρ c main_arg8 (by decide)).trans rfl

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c),
     (h c _ (mem_uc main_arg6 (by decide))).trans (B7_main_arg6 m ρ c),
     (h c _ (mem_uc main_arg7 (by decide))).trans (B7_main_arg7 m ρ c),
     (h c _ (mem_uc main_arg8 (by decide))).trans (B7_main_arg8 m ρ c)⟩)
    (run_all m ρ)

end Cert.Kernel.Hand

end
-- ==== Proof.Ideal.Layer0Runs.lean ====
/-
  One message-passing layer's kernel body, run case by case. The body keeps a running sum in a scratch
  buffer across the sixteen column blocks of a row block: at the first column block (k = 0) it clears the
  sum, at every column block it adds the product of the adjacency block with the feature block, and at the
  last column block (k = 15) it multiplies the finished sum by the weight matrix, clips at zero and stores the
  row block of the layer's output. Three cases meet the grid: first (clear and add), middle (add), last (add
  and finish). Each case's run names the pieces its stores leave in the scratch and in the output's buffer.
-/
import proofs.«142809_j11622181503541_2_alg».proof.Proof.Gen.KernelIdeal.Launch
import proofs.«142809_j11622181503541_2_alg».proof.Proof.Gen.KernelIdeal.Skeleton
import proofs.«142809_j11622181503541_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, from the column-block coordinate -/

/-- "This is the first column block" (k = 0): the body clears the running sum. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last column block" (k = 15): the body finishes the row block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column block the output's buffer is neither stored into nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the pipeline calls the body with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
/-- The running sum's scratch buffer. -/
abbrev scM0 : Memref sig .tc .vmem S2048x64 .f32 := Memref.whole cc0_scratch0
abbrev VS0 : View sig .tc .vmem S2048x64 .f32 := (scM0).view
abbrev VO0 : View sig .tc .vmem S2048x64 .f32 := (Memref.whole cc0_stg3_0 : Memref sig .tc .vmem S2048x64 .f32).view

/-- The class invariant is the scratch at some contents beside the core's other scoped buffers and its generator register. -/
theorem PhiA0_split (c : Dev nD) : ∃ R : sProp 𝕄,
    (Pipeline.ΦA spec0 c : sProp 𝕄) = iprop(iprop((∃ d, owns (c : Thread nD τ) scM0 fullShare d) ∗ R) ∗ (∃ r, prngReg c r)) := by
  refine ⟨?_, ?_⟩
  swap
  · unfold Pipeline.ΦA; rw [scopedRest0_eq]; simp only [scM0, owns_whole]; rfl
/-- The core's other scoped buffers, each at some contents: what the body never touches. -/
def rest0 (c : Dev nD) : sProp 𝕄 := (PhiA0_split (F := F) c).choose

theorem PhiA0_eq (c : Dev nD) :
    (Pipeline.ΦA spec0 c : sProp 𝕄)
      = iprop(iprop((∃ d, owns (c : Thread nD τ) scM0 fullShare d) ∗ rest0 c) ∗ (∃ r, prngReg c r)) := by
  exact (PhiA0_split (F := F) c).choose_spec

/-! ## The body's run, case by case -/

set_option maxHeartbeats 4000000 in
/-- FIRST column block: the sum is cleared, then the block's product added. The scratch is handed at anything. -/
noncomputable def kernelRun0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc0__propagate_kernel i arg2 harg2 arg3 harg3 arg4 harg4 arg5 harg5 arg6 harg6) K } := by
  refine ⟨?_, fun E K => ?run⟩
  case run =>
    simp only [cc0__propagate_kernel_eq_skeleton]; unfold cc0__propagate_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- A MIDDLE column block: the block's product is added to the sum the point before left (`xs0`). -/
noncomputable def kernelRun0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc0__propagate_kernel i arg2 harg2 arg3 harg3 arg4 harg4 arg5 harg5 arg6 harg6) K } := by
  refine ⟨?_, fun E K => ?run⟩
  case run =>
    simp only [cc0__propagate_kernel_eq_skeleton]; unfold cc0__propagate_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- The LAST column block: the block's product is added, and the finished sum times the weights, clipped at zero,
    is stored into the output's buffer (handed at anything). -/
noncomputable def kernelRun0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__propagate_kernel i arg2 harg2 arg3 harg3 arg4 harg4 arg5 harg5 arg6 harg6) K } := by
  refine ⟨?_, ?_, fun E K => ?run⟩
  case run =>
    simp only [cc0__propagate_kernel_eq_skeleton]; unfold cc0__propagate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Ideal.Layer0.lean ====
/-
  One message-passing layer as a pipeline region: what the running sum and the output's buffer hold after each
  grid point (by recursion on the point: cleared at a row block's first column block, grown by one block product at
  every column block, turned into the output row block at the last), the region's invariant that carries the running
  sum from point to point, the proof data and the body obligation — all at a parameter V, the buffers' contents when
  the region is entered.
-/
import proofs.«142809_j11622181503541_2_alg».proof.Proof.Ideal.Layer0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its pieces read back -/

theorem scover0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) (y : S2048x64.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S2048x64.size (by sl_kernel_rfl) y
/-- The running sum after a first column block. -/
def sout0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) : Vec F S2048x64 .f32 :=
  VS0.read (Elt F) (VS0.writes (Elt F) VS0.junk (kernelRun0_A c i arg2 harg2 arg3 harg3 arg4 harg4 arg5 harg5 arg6 harg6 hc0 hc1 x0 x1).1)

theorem scover0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) (y : S2048x64.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S2048x64.size (by sl_kernel_rfl) y
/-- The running sum after a middle column block, over what the point before left. -/
def sout0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) : Vec F S2048x64 .f32 :=
  VS0.read (Elt F) (VS0.writes (Elt F) VS0.junk (kernelRun0_B c i arg2 harg2 arg3 harg3 arg4 harg4 arg5 harg5 arg6 harg6 hc0 hc1 x0 x1 xs0).1)

theorem cover0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) (y : S2048x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x64.size (by sl_kernel_rfl) y
/-- The output row block a last column block stores. -/
def out0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) : Vec F S2048x64 .f32 :=
  VO0.read (Elt F) (VO0.writes (Elt F) VO0.junk (kernelRun0_C c i arg2 harg2 arg3 harg3 arg4 harg4 arg5 harg5 arg6 harg6 hc0 hc1 x0 x1 x2 xs0).1)
theorem scover0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) (y : S2048x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x64.size (by sl_kernel_rfl) y
/-- The running sum after a last column block. -/
def sout0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) : Vec F S2048x64 .f32 :=
  VS0.read (Elt F) (VS0.writes (Elt F) VS0.junk (kernelRun0_C c i arg2 harg2 arg3 harg3 arg4 harg4 arg5 harg5 arg6 harg6 hc0 hc1 x0 x1 x2 xs0).2.1)

/-- What stands for the output's buffer where the body stores nothing into it (never consulted). -/
def idleOut0 : Vec F S2048x64 .f32 := VO0.read (Elt F) VO0.junk

/-! ## The three steps at a point, and the accumulation -/

theorem notLast0_of_first (t : Fin cfg0.N) (h0 : t.val % 16 = 0) : ¬cond0_1 (grid0.coords t) :=
  fun h => by have := (hcond0_1 t).mp h; omega
theorem notFirst0_of_last (t : Fin cfg0.N) (h1 : t.val % 16 = 15) : ¬cond0_0 (grid0.coords t) :=
  fun h => by have := (hcond0_0 t).mp h; omega

/-- (output buffer, running sum) after a first column block. -/
def stepA0 (c : Dev nD) (t : Fin cfg0.N) (h0 : t.val % 16 = 0) : Vec F S2048x64 .f32 × Vec F S2048x64 .f32 :=
  (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (notLast0_of_first t h0) (iblk0 V c 0 t) (iblk0 V c 1 t))
/-- … after a middle column block, over the running sum `xs` the point before left. -/
def stepB0 (c : Dev nD) (t : Fin cfg0.N) (h0 : ¬t.val % 16 = 0) (h1 : ¬t.val % 16 = 15) (xs : Vec F S2048x64 .f32) : Vec F S2048x64 .f32 × Vec F S2048x64 .f32 :=
  (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) xs)
/-- … after a last column block. -/
def stepC0 (c : Dev nD) (t : Fin cfg0.N) (h1 : t.val % 16 = 15) (xs : Vec F S2048x64 .f32) : Vec F S2048x64 .f32 × Vec F S2048x64 .f32 :=
  (out0_C c (grid0.coords t) (ms0_0 t) (hs0_0 t) (ms0_1 t) (hs0_1 t) (ms0_2 t) (hs0_2 t) (ms0_3 t) (hs0_3 t) scM0 (Memref.isWhole_whole _) (notFirst0_of_last t h1) ((hcond0_1 t).mpr h1) (iblk0 V c 0 t) (iblk0 V c 1 t) (iblk0 V c 2 t) xs,
   sout0_C c (grid0.coords t) (ms0_0 t) (hs0_0 t) (ms0_1 t) (hs0_1 t) (ms0_2 t) (hs0_2 t) (ms0_3 t) (hs0_3 t) scM0 (Memref.isWhole_whole _) (notFirst0_of_last t h1) ((hcond0_1 t).mpr h1) (iblk0 V c 0 t) (iblk0 V c 1 t) (iblk0 V c 2 t) xs)

/-- THE ACCUMULATION: (output buffer, running sum) after the body at position `n`. -/
def outsAt0 (c : Dev nD) : (n : ℕ) → n < cfg0.N → Vec F S2048x64 .f32 × Vec F S2048x64 .f32
  | 0, hn => stepA0 V c ⟨0, hn⟩ (Nat.zero_mod _)
  | n + 1, hn =>
    if h0 : (n + 1) % 16 = 0 then stepA0 V c ⟨n + 1, hn⟩ h0
    else if h1 : (n + 1) % 16 = 15 then stepC0 V c ⟨n + 1, hn⟩ h1 (outsAt0 c n (Nat.lt_of_succ_lt hn)).2
    else stepB0 V c ⟨n + 1, hn⟩ h0 h1 (outsAt0 c n (Nat.lt_of_succ_lt hn)).2

theorem outsAt0_A (c : Dev nD) (t : Fin cfg0.N) (h0 : t.val % 16 = 0) :
    outsAt0 V c t.val t.isLt = stepA0 V c t h0 := by
  obtain ⟨n, hn⟩ := t
  cases n with
  | zero => rfl
  | succ n => exact dif_pos h0
theorem outsAt0_B (c : Dev nD) (t : Fin cfg0.N) (h0 : ¬t.val % 16 = 0) (h1 : ¬t.val % 16 = 15) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h1 : t.val % 16 = 15) :
    outsAt0 V c t.val t.isLt = stepC0 V c t h1 (outsAt0 V c (t.val - 1) (Nat.lt_of_le_of_lt (Nat.sub_le _ _) t.isLt)).2 := by
  obtain ⟨n, hn⟩ := t
  cases n with
  | zero => exact absurd ((Nat.zero_mod 16).symm.trans h1) (by decide)
  | succ n =>
    have h1' : (n + 1) % 16 = 15 := h1
    exact (dif_neg (by omega)).trans ((dif_pos h1').trans rfl)

/-! ## The region's invariant: the running sum carried from point to point -/

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any point: the inputs' buffers hold their blocks; the column-block coordinate says which case the
    point is in; the invariant hands the body the running sum the point before left (anything at the very first point)
    and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 16 = 0
  · have hc1 : ¬cond0_1 (grid0.coords t) := notLast0_of_first t h0
    rw [Dat.leavesExact_idle (dat0 V c) 3 t (idleAt0_3 t hc1) (noFlush0_3 t hc1)]
    rw [outsAt0_A V c t h0]
    unfold stepA0 sout0_A; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) hc1 (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) hc1 (iblk0 V c 0 t) (iblk0 V c 1 t)).2 Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [outsAt0_C V c t h1]
      unfold stepC0 out0_C sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (notFirst0_of_last t h1) hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1)]
      rw [outsAt0_B V c t h0 h1]
      unfold stepB0 sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) hc1 (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running sum's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HR⟩, Hg⟩
  isplitl [HS0 HR]
  · isplitl [HS0]
    · iexists _; iexact HS0
    iexact HR
  iexact Hg

end Cert.KernelIdeal.Hand

end
-- ==== Proof.Ideal.Layer1Runs.lean ====
/-
  One message-passing layer's kernel body, run case by case. The body keeps a running sum in a scratch
  buffer across the sixteen column blocks of a row block: at the first column block (k = 0) it clears the
  sum, at every column block it adds the product of the adjacency block with the feature block, and at the
  last column block (k = 15) it multiplies the finished sum by the weight matrix, clips at zero and stores the
  row block of the layer's output. Three cases meet the grid: first (clear and add), middle (add), last (add
  and finish). Each case's run names the pieces its stores leave in the scratch and in the output's buffer.
-/
import proofs.«142809_j11622181503541_2_alg».proof.Proof.Gen.KernelIdeal.Launch
import proofs.«142809_j11622181503541_2_alg».proof.Proof.Gen.KernelIdeal.Skeleton
import proofs.«142809_j11622181503541_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, from the column-block coordinate -/

/-- "This is the first column block" (k = 0): the body clears the running sum. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column block" (k = 15): the body finishes the row block. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column block the output's buffer is neither stored into nor written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the pipeline calls the body with -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The running sum's scratch buffer. -/
abbrev scM1 : Memref sig .tc .vmem S2048x64 .f32 := Memref.whole cc1_scratch0
abbrev VS1 : View sig .tc .vmem S2048x64 .f32 := (scM1).view
abbrev VO1 : View sig .tc .vmem S2048x64 .f32 := (Memref.whole cc1_stg3_0 : Memref sig .tc .vmem S2048x64 .f32).view

/-- The core's other scoped buffers, each at some contents: what the body never touches. -/
def rest1 (c : Dev nD) : sProp 𝕄 :=
  Pipeline.scopedRestBut (Ix := Unit) (Name := ℕ) (U := UR sig nD τ) (Lvl := ℕ) (Val := Elt F) spec1 c [cc1_scratch0]
/-- The class invariant is the scratch at some contents beside the core's other scoped buffers and its generator register. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA rest1
  rw [Pipeline.scopedRest_split_of_list (win := spec1) (c := c) [cc1_scratch0] (by decide) (by decide)]
  simp only [scM1, owns_whole]; rfl

/-! ## The body's run, case by case -/

set_option maxHeartbeats 4000000 in
/-- FIRST column block: the sum is cleared, then the block's product added. The scratch is handed at anything. -/
noncomputable def kernelRun1_A (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x1024 .f32) (x1 : Vec F S1024x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc1__propagate_kernel i arg2 harg2 arg3 harg3 arg4 harg4 arg5 harg5 arg6 harg6) K } := by
  refine ⟨?_, fun E K => ?run⟩
  case run =>
    simp only [cc1__propagate_kernel_eq_skeleton]; unfold cc1__propagate_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- A MIDDLE column block: the block's product is added to the sum the point before left (`xs0`). -/
noncomputable def kernelRun1_B (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x1024 .f32) (x1 : Vec F S1024x64 .f32) (xs0 : Vec F S2048x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc1__propagate_kernel i arg2 harg2 arg3 harg3 arg4 harg4 arg5 harg5 arg6 harg6) K } := by
  refine ⟨?_, fun E K => ?run⟩
  case run =>
    simp only [cc1__propagate_kernel_eq_skeleton]; unfold cc1__propagate_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- The LAST column block: the block's product is added, and the finished sum times the weights, clipped at zero,
    is stored into the output's buffer (handed at anything). -/
noncomputable def kernelRun1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__propagate_kernel i arg2 harg2 arg3 harg3 arg4 harg4 arg5 harg5 arg6 harg6) K } := by
  refine ⟨?_, ?_, fun E K => ?run⟩
  case run =>
    simp only [cc1__propagate_kernel_eq_skeleton]; unfold cc1__propagate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Ideal.Layer1.lean ====
/-
  One message-passing layer as a pipeline region: what the running sum and the output's buffer hold after each
  grid point (by recursion on the point: cleared at a row block's first column block, grown by one block product at
  every column block, turned into the output row block at the last), the region's invariant that carries the running
  sum from point to point, the proof data and the body obligation — all at a parameter V, the buffers' contents when
  the region is entered.
-/
import proofs.«142809_j11622181503541_2_alg».proof.Proof.Ideal.Layer1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces read back -/

theorem scover1_A (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x1024 .f32) (x1 : Vec F S1024x64 .f32) (y : S2048x64.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S2048x64.size (by sl_kernel_rfl) y
/-- The running sum after a first column block. -/
def sout1_A (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x1024 .f32) (x1 : Vec F S1024x64 .f32) : Vec F S2048x64 .f32 :=
  VS1.read (Elt F) (VS1.writes (Elt F) VS1.junk (kernelRun1_A c i arg2 harg2 arg3 harg3 arg4 harg4 arg5 harg5 arg6 harg6 hc0 hc1 x0 x1).1)

theorem scover1_B (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x1024 .f32) (x1 : Vec F S1024x64 .f32) (xs0 : Vec F S2048x64 .f32) (y : S2048x64.Idx) :
    ∃ pc ∈ (kernelRun1_B c i arg2 harg2 arg3 harg3 arg4 harg4 arg5 harg5 arg6 harg6 hc0 hc1 x0 x1 xs0).1, y ∈ pc.1.set :=
  View.cover_of_tiledL (kernelRun1_B c i arg2 harg2 arg3 harg3 arg4 harg4 arg5 harg5 arg6 harg6 hc0 hc1 x0 x1 xs0).1 S2048x64.size (by sl_kernel_rfl) y
/-- The running sum after a middle column block, over what the point before left. -/
def sout1_B (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x1024 .f32) (x1 : Vec F S1024x64 .f32) (xs0 : Vec F S2048x64 .f32) : Vec F S2048x64 .f32 :=
  VS1.read (Elt F) (VS1.writes (Elt F) VS1.junk (kernelRun1_B c i arg2 harg2 arg3 harg3 arg4 harg4 arg5 harg5 arg6 harg6 hc0 hc1 x0 x1 xs0).1)

theorem cover1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x64.size (by sl_kernel_rfl) y
/-- The output row block a last column block stores. -/
def out1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) : Vec F S2048x64 .f32 :=
  VO1.read (Elt F) (VO1.writes (Elt F) VO1.junk (kernelRun1_C c i arg2 harg2 arg3 harg3 arg4 harg4 arg5 harg5 arg6 harg6 hc0 hc1 x0 x1 x2 xs0).1)
theorem scover1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x64.size (by sl_kernel_rfl) y
/-- The running sum after a last column block. -/
def sout1_C (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) : Vec F S2048x64 .f32 :=
  VS1.read (Elt F) (VS1.writes (Elt F) VS1.junk (kernelRun1_C c i arg2 harg2 arg3 harg3 arg4 harg4 arg5 harg5 arg6 harg6 hc0 hc1 x0 x1 x2 xs0).2.1)

/-- What stands for the output's buffer where the body stores nothing into it (never consulted). -/
def idleOut1 : Vec F S2048x64 .f32 := VO1.read (Elt F) VO1.junk

/-! ## The three steps at a point, and the accumulation -/

theorem notLast1_of_first (t : Fin cfg1.N) (h0 : t.val % 16 = 0) : ¬cond1_1 (grid1.coords t) :=
  fun h => by have := (hcond1_1 t).mp h; omega
theorem notFirst1_of_last (t : Fin cfg1.N) (h1 : t.val % 16 = 15) : ¬cond1_0 (grid1.coords t) :=
  fun h => by have := (hcond1_0 t).mp h; omega

/-- (output buffer, running sum) after a first column block. -/
def stepA1 (c : Dev nD) (t : Fin cfg1.N) (h0 : t.val % 16 = 0) : Vec F S2048x64 .f32 × Vec F S2048x64 .f32 :=
  (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (notLast1_of_first t h0) (iblk1 V c 0 t) (iblk1 V c 1 t))
/-- … after a middle column block, over the running sum `xs` the point before left. -/
def stepB1 (c : Dev nD) (t : Fin cfg1.N) (h0 : ¬t.val % 16 = 0) (h1 : ¬t.val % 16 = 15) (xs : Vec F S2048x64 .f32) : Vec F S2048x64 .f32 × Vec F S2048x64 .f32 :=
  (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) xs)
/-- … after a last column block. -/
def stepC1 (c : Dev nD) (t : Fin cfg1.N) (h1 : t.val % 16 = 15) (xs : Vec F S2048x64 .f32) : Vec F S2048x64 .f32 × Vec F S2048x64 .f32 :=
  (out1_C c (grid1.coords t) (ms1_0 t) (hs1_0 t) (ms1_1 t) (hs1_1 t) (ms1_2 t) (hs1_2 t) (ms1_3 t) (hs1_3 t) scM1 (Memref.isWhole_whole _) (notFirst1_of_last t h1) ((hcond1_1 t).mpr h1) (iblk1 V c 0 t) (iblk1 V c 1 t) (iblk1 V c 2 t) xs,
   sout1_C c (grid1.coords t) (ms1_0 t) (hs1_0 t) (ms1_1 t) (hs1_1 t) (ms1_2 t) (hs1_2 t) (ms1_3 t) (hs1_3 t) scM1 (Memref.isWhole_whole _) (notFirst1_of_last t h1) ((hcond1_1 t).mpr h1) (iblk1 V c 0 t) (iblk1 V c 1 t) (iblk1 V c 2 t) xs)

/-- THE ACCUMULATION: (output buffer, running sum) after the body at position `n`. -/
def outsAt1 (c : Dev nD) : (n : ℕ) → n < cfg1.N → Vec F S2048x64 .f32 × Vec F S2048x64 .f32
  | 0, hn => stepA1 V c ⟨0, hn⟩ (Nat.zero_mod _)
  | n + 1, hn =>
    if h0 : (n + 1) % 16 = 0 then stepA1 V c ⟨n + 1, hn⟩ h0
    else if h1 : (n + 1) % 16 = 15 then stepC1 V c ⟨n + 1, hn⟩ h1 (outsAt1 c n (Nat.lt_of_succ_lt hn)).2
    else stepB1 V c ⟨n + 1, hn⟩ h0 h1 (outsAt1 c n (Nat.lt_of_succ_lt hn)).2

theorem outsAt1_A (c : Dev nD) (t : Fin cfg1.N) (h0 : t.val % 16 = 0) :
    outsAt1 V c t.val t.isLt = stepA1 V c t h0 := by
  obtain ⟨n, hn⟩ := t
  cases n with
  | zero => rfl
  | succ n => exact dif_pos h0
theorem outsAt1_B (c : Dev nD) (t : Fin cfg1.N) (h0 : ¬t.val % 16 = 0) (h1 : ¬t.val % 16 = 15) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h1 : t.val % 16 = 15) :
    outsAt1 V c t.val t.isLt = stepC1 V c t h1 (outsAt1 V c (t.val - 1) (Nat.lt_of_le_of_lt (Nat.sub_le _ _) t.isLt)).2 := by
  obtain ⟨n, hn⟩ := t
  cases n with
  | zero => exact absurd ((Nat.zero_mod 16).symm.trans h1) (by decide)
  | succ n =>
    have h1' : (n + 1) % 16 = 15 := h1
    exact (dif_neg (by omega)).trans ((dif_pos h1').trans rfl)

/-! ## The region's invariant: the running sum carried from point to point -/

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the inputs' buffers hold their blocks; the column-block coordinate says which case the
    point is in; the invariant hands the body the running sum the point before left (anything at the very first point)
    and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 16 = 0
  · have hc1 : ¬cond1_1 (grid1.coords t) := notLast1_of_first t h0
    rw [Dat.leavesExact_idle (dat1 V c) 3 t (idleAt1_3 t hc1) (noFlush1_3 t hc1)]
    rw [outsAt1_A V c t h0]
    unfold stepA1 sout1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h1]
      unfold stepC1 out1_C sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (notFirst1_of_last t h1) hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold stepB1 sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) hc1 (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the running sum's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, HR⟩, Hg⟩
  isplitl [HS0 HR]
  · isplitl [HS0]
    · iexists _; iexact HS0
    iexact HR
  iexact Hg

end Cert.KernelIdeal.Hand

end
-- ==== Proof.Ideal.Scorer.lean ====
/-
  The edge scorer's kernel body and its pipeline's proof data. The scorer's grid has 128 points, one per block of
  8192 edges; every point is alike. The body reads the two gathered feature blocks (8192 by 64 each), the two
  64 by 64 weight halves, the bias row and the last weight column whole, and stores one block of 8192 scores:
  a closed function of the six blocks read. The two feature windows are fetched at every point; the four
  parameter windows are fetched at the first point only and hold the same block ever after; the output window
  is written back at every point. Everything here is stated at a parameter: the buffer contents the region is
  entered with.
-/
import proofs.«142809_j11622181503541_2_alg».proof.Proof.Gen.KernelIdeal.Launch
import proofs.«142809_j11622181503541_2_alg».proof.Proof.Gen.KernelIdeal.Skeleton
import proofs.«142809_j11622181503541_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the scorer's region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved since the point before, whose block is therefore this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved since the point before, whose block is therefore this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved since the point before, whose block is therefore this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved since the point before, whose block is therefore this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block
    index has not moved since the point before, whose block is therefore this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block
    index has not moved since the point before, whose block is therefore this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8192x64 := Rect.unit (s := S8192x64) ![0, 0] S8192x64.size inb_S8192x64_S8192x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S64x1 := Rect.unit (s := S64x1) ![0, 0] S64x1.size inb_S64x1_S64x1_0_0
abbrev r2_4 : Rect S8192x1 := Rect.unit (s := S8192x1) ![0, 0] S8192x1.size inb_S8192x1_S8192x1_0_0

/-! ## What the body leaves in the output window's buffer -/

/-- Window 6's staging buffer after the body, from the input windows' blocks: its one store, whose payload is
    the scores of the six blocks read whole. -/
def out2_6 (x0 x1 : Vec F S8192x64 .f32) (x2 x3 : Vec F S64x64 .f32) (x4 : Vec F S1x64 .f32) (x5 : Vec F S64x1 .f32) : Vec F S8192x1 .f32 :=
  View.canon [⟨r2_4, k2_pay1 (View.ld x0 r2_0) (View.ld x1 r2_0) (View.ld x2 r2_1) (View.ld x3 r2_1) (View.ld x4 r2_2) (View.ld x5 r2_3)⟩]

/-- The store is through the whole buffer's rectangle, so it covers the buffer. -/
theorem cover2_6 (p0 : Vec F S8192x1 .f32) (y : S8192x1.Idx) :
    ∃ pc ∈ ([⟨r2_4, p0⟩] : List (View.Piece (Elt F) S8192x1 .f32)), y ∈ pc.1.set :=
  View.cover_of_tiled [⟨r2_4, p0⟩] S8192x1.size (by rfl) y

/-! ## The body's triple -/

set_option maxHeartbeats 4000000 in
/-- The kernel body on whole staging memrefs, the six inputs' at read contents `x0` … `x5` and the output's at
    anything, runs to the continuation holding the inputs' as they were and the output's at `out2_6` of the inputs'. -/
theorem sound_kernel2 (c : Dev nD) (E : Set ℕ) (i : grid2.Coords)
    (arg1 : Memref sig .tc .vmem S8192x64 .f32) (harg1 : arg1.IsWhole) (arg2 : Memref sig .tc .vmem S8192x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x1 .f32) (harg6 : arg6.IsWhole)
    (arg7 : Memref sig .tc .vmem S8192x1 .f32) (harg7 : arg7.IsWhole)
    (x0 x1 : Vec F S8192x64 .f32) (x2 x3 : Vec F S64x64 .f32) (x4 : Vec F S1x64 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__scorer_kernel i arg1 harg1 arg2 harg2 arg3 harg3 arg4 harg4 arg5 harg5 arg6 harg6 arg7 harg7) K := by
  simp only [cc2__scorer_kernel_eq_skeleton]; unfold cc2__scorer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the scorer's pipeline on core `c`: the arrays as the region finds them (`V`); after the body
    at point `t` each input's buffer at its block and the output's at `out2_6` of the input blocks; the invariant
    the core's other scoped buffers and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.Ideal.Run.lean ====
/-
  The whole program's run: the buffers' contents at each boundary between a stretch of host operations and a kernel
  region, folded from the launch memory (a stretch applies its operations; a region leaves its arrays at what its
  write-backs assemble and every other buffer alone), every region's proof data at its entry contents, the seven
  segments, and the run itself: every weakly fair execution terminates with every unscoped buffer at the last
  boundary's contents.
-/
import proofs.«142809_j11622181503541_2_alg».proof.Proof.Ideal.Layer0
import proofs.«142809_j11622181503541_2_alg».proof.Proof.Ideal.Layer1
import proofs.«142809_j11622181503541_2_alg».proof.Proof.Ideal.Scorer
import proofs.«142809_j11622181503541_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first stretch (layer 1's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = X2 m ρ c (Pipeline.arrRef spec0 w) :=
  (B2_arr m ρ c w).symm
theorem hrest0 (c : Dev nD) : ∀ b, b ∉ Finset.univ.image (Pipeline.arrRef spec0) → X2 m ρ c b = E1 m ρ c b :=
  fun b hb => B2_of_ne m ρ c b fun w e => hb (Finset.mem_image.mpr ⟨w, Finset.mem_univ _, e⟩)

/-- After the second stretch (layer 2's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = X4 m ρ c (Pipeline.arrRef spec1 w) :=
  (B4_arr m ρ c w).symm
theorem hrest1 (c : Dev nD) : ∀ b, b ∉ Finset.univ.image (Pipeline.arrRef spec1) → X4 m ρ c b = E3 m ρ c b :=
  fun b hb => B4_of_ne m ρ c b fun w e => hb (Finset.mem_image.mpr ⟨w, Finset.mem_univ _, e⟩)

/-- After the third stretch (the scorer's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev X6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = X6 m ρ c (Pipeline.arrRef spec2 w) :=
  (B6_arr m ρ c w).symm
theorem hrest2 (c : Dev nD) : ∀ b, b ∉ Finset.univ.image (Pipeline.arrRef spec2) → X6 m ρ c b = E5 m ρ c b :=
  fun b hb => B6_of_ne m ρ c b fun w e => hb (Finset.mem_image.mpr ⟨w, Finset.mem_univ _, e⟩)

/-- After the last stretch: what the program returns with. -/
abbrev B7 : Dev nD → Valuation τ sig (Elt F) := fun c => StableHlo.after hostOps3 (B6 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev Lz : GSem nD τ sig → Finset Unit := fun _ => ∅
abbrev lvz : GSem nD τ sig → Unit → ℕ := fun _ _ => 0
/-- What rides beside the buffers through every segment: the generator register at some state, nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- Region 0 over the thread state: entered with every unscoped buffer at `B1`, left with them at `B2`. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E1 m ρ) c).Φ 0 from rfl]
    have h := hin0 (E1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (E1 m ρ) c).Φ (Fin.last cfg0.N) from rfl]
    have h := hout0 (E1 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered with every unscoped buffer at `B3`, left with them at `B4`. -/
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E3 m ρ) c).Φ 0 from rfl]
    have h := hin1 (E3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (E3 m ρ) c).Φ (Fin.last cfg1.N) from rfl]
    have h := hout1 (E3 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered with every unscoped buffer at `B5`, left with them at `B6`. -/
def reg2 : Pipeline.RegionSeg (pcfgs (F := F)) adm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lz lvz 2 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ Lz lvz) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ Lz lvz m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c))
    (Tₙ := fun c => iprop(StableHlo.held (c : Thread nD τ) (Pipeline.ucRefs τ sig) (B7 m ρ c) ∗ ∃ r, prngReg c r))
    (hch := ⟨fun _ => .rfl, fun _ => .rfl, fun _ => .rfl, fun _ => .rfl, fun _ => .rfl, fun _ => .rfl, fun _ => .rfl, fun c => by
      refine (show (iprop(StableHlo.held (c : Thread nD τ) (Pipeline.ucRefs τ sig) (B7 m ρ c) ∗ Rest c) : sProp 𝕄)
        ⊢ iprop(iprop(StableHlo.held (c : Thread nD τ) (Pipeline.ucRefs τ sig) (B7 m ρ c) ∗ ∃ r, prngReg c r) ∗ ∃ W, owes (c : Thread nD τ) (0 : CellTallies nD τ sig Unit) W) from ?_)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

end Cert.KernelIdeal.Hand

end
-- ==== Proof.Ideal.Frame.lean ====
/-
  The frame: every argument array ends holding its launch contents. A stretch of host operations leaves alone every
  buffer it does not write; a region leaves alone every buffer that is none of its arrays, and an array it only reads
  (an input window's) ends as it was entered.
-/
import proofs.«142809_j11622181503541_2_alg».proof.Proof.Ideal.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch leaves alone -/

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B3_of (c : Dev nD) (r : Ref sig .tc) (h : r ∉ hostOps1_W) : B3 m ρ c (Proc.devRef .tc r) = B2 m ρ c (Proc.devRef .tc r) :=
  StableHlo.after_of_writes_sub hostOps1 _ hostOps1_writes h
theorem B5_of (c : Dev nD) (r : Ref sig .tc) (h : r ∉ hostOps2_W) : B5 m ρ c (Proc.devRef .tc r) = B4 m ρ c (Proc.devRef .tc r) :=
  StableHlo.after_of_writes_sub hostOps2 _ hostOps2_writes h
theorem B7_of (c : Dev nD) (r : Ref sig .tc) (h : r ∉ hostOps3_W) : B7 m ρ c (Proc.devRef .tc r) = B6 m ρ c (Proc.devRef .tc r) :=
  StableHlo.after_of_writes_sub hostOps3 _ hostOps3_writes h

/-! ## What each region leaves in an array it only reads -/

theorem B2_in (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((dat0 (E1 m ρ) c).arrAt_in w hw _).trans (A_eq0 (E1 m ρ) c w))
theorem B4_in (c : Dev nD) (w : Fin cfg1.W) (hw : (cfg1.win w).isOut = false) :
    B4 m ρ c (Proc.devRef .tc (Pipeline.arrRef spec1 w)) = B3 m ρ c (Proc.devRef .tc (Pipeline.arrRef spec1 w)) :=
  (B4_arr m ρ c w).trans (((dat1 (E3 m ρ) c).arrAt_in w hw _).trans (A_eq1 (E3 m ρ) c w))
theorem B6_in (c : Dev nD) (w : Fin cfg2.W) (hw : (cfg2.win w).isOut = false) :
    B6 m ρ c (Proc.devRef .tc (Pipeline.arrRef spec2 w)) = B5 m ρ c (Proc.devRef .tc (Pipeline.arrRef spec2 w)) :=
  (B6_arr m ρ c w).trans (((dat2 (E5 m ρ) c).arrAt_in w hw _).trans (A_eq2 (E5 m ρ) c w))

/-! ## The arguments end as launched -/

/-- The features `main_arg0`: the first layer reads them through an input window. -/
theorem B7_main_arg0 (c : Dev nD) : B7 m ρ c (Proc.devRef .tc main_arg0) = m ((c : Thread nD τ).loc main_arg0) :=
  (B7_of m ρ c main_arg0 (by decide)).trans <| (B6_of_ne m ρ c main_arg0 (by decide)).trans <| (B5_of m ρ c main_arg0 (by decide)).trans <|
    (B4_of_ne m ρ c main_arg0 (by decide)).trans <| (B3_of m ρ c main_arg0 (by decide)).trans <| (B2_in m ρ c 1 rfl).trans <|
    (B1_of m ρ c main_arg0 (by decide)).trans rfl
/-- The adjacency `main_arg1`: both layers read it through an input window. -/
theorem B7_main_arg1 (c : Dev nD) : B7 m ρ c (Proc.devRef .tc main_arg1) = m ((c : Thread nD τ).loc main_arg1) :=
  (B7_of m ρ c main_arg1 (by decide)).trans <| (B6_of_ne m ρ c main_arg1 (by decide)).trans <| (B5_of m ρ c main_arg1 (by decide)).trans <|
    (B4_in m ρ c 0 rfl).trans <| (B3_of m ρ c main_arg1 (by decide)).trans <| (B2_in m ρ c 0 rfl).trans <|
    (B1_of m ρ c main_arg1 (by decide)).trans rfl
/-- `main_arg2` reaches the end as launched: no stretch writes it and no region has it among its arrays. -/
theorem B7_main_arg2 (c : Dev nD) : B7 m ρ c (Proc.devRef .tc main_arg2) = m ((c : Thread nD τ).loc main_arg2) :=
  (B7_of m ρ c main_arg2 (by decide)).trans <| (B6_of_ne m ρ c main_arg2 (by decide)).trans <| (B5_of m ρ c main_arg2 (by decide)).trans <|
    (B4_of_ne m ρ c main_arg2 (by decide)).trans <| (B3_of m ρ c main_arg2 (by decide)).trans <| (B2_of_ne m ρ c main_arg2 (by decide)).trans <|
    (B1_of m ρ c main_arg2 (by decide)).trans rfl
/-- `main_arg3` reaches the end as launched: no stretch writes it and no region has it among its arrays. -/
theorem B7_main_arg3 (c : Dev nD) : B7 m ρ c (Proc.devRef .tc main_arg3) = m ((c : Thread nD τ).loc main_arg3) :=
  (B7_of m ρ c main_arg3 (by decide)).trans <| (B6_of_ne m ρ c main_arg3 (by decide)).trans <| (B5_of m ρ c main_arg3 (by decide)).trans <|
    (B4_of_ne m ρ c main_arg3 (by decide)).trans <| (B3_of m ρ c main_arg3 (by decide)).trans <| (B2_of_ne m ρ c main_arg3 (by decide)).trans <|
    (B1_of m ρ c main_arg3 (by decide)).trans rfl
/-- `main_arg4` reaches the end as launched: no stretch writes it and no region has it among its arrays. -/
theorem B7_main_arg4 (c : Dev nD) : B7 m ρ c (Proc.devRef .tc main_arg4) = m ((c : Thread nD τ).loc main_arg4) :=
  (B7_of m ρ c main_arg4 (by decide)).trans <| (B6_of_ne m ρ c main_arg4 (by decide)).trans <| (B5_of m ρ c main_arg4 (by decide)).trans <|
    (B4_of_ne m ρ c main_arg4 (by decide)).trans <| (B3_of m ρ c main_arg4 (by decide)).trans <| (B2_of_ne m ρ c main_arg4 (by decide)).trans <|
    (B1_of m ρ c main_arg4 (by decide)).trans rfl
/-- `main_arg5` reaches the end as launched: no stretch writes it and no region has it among its arrays. -/
theorem B7_main_arg5 (c : Dev nD) : B7 m ρ c (Proc.devRef .tc main_arg5) = m ((c : Thread nD τ).loc main_arg5) :=
  (B7_of m ρ c main_arg5 (by decide)).trans <| (B6_of_ne m ρ c main_arg5 (by decide)).trans <| (B5_of m ρ c main_arg5 (by decide)).trans <|
    (B4_of_ne m ρ c main_arg5 (by decide)).trans <| (B3_of m ρ c main_arg5 (by decide)).trans <| (B2_of_ne m ρ c main_arg5 (by decide)).trans <|
    (B1_of m ρ c main_arg5 (by decide)).trans rfl
/-- `main_arg6` reaches the end as launched: no stretch writes it and no region has it among its arrays. -/
theorem B7_main_arg6 (c : Dev nD) : B7 m ρ c (Proc.devRef .tc main_arg6) = m ((c : Thread nD τ).loc main_arg6) :=
  (B7_of m ρ c main_arg6 (by decide)).trans <| (B6_of_ne m ρ c main_arg6 (by decide)).trans <| (B5_of m ρ c main_arg6 (by decide)).trans <|
    (B4_of_ne m ρ c main_arg6 (by decide)).trans <| (B3_of m ρ c main_arg6 (by decide)).trans <| (B2_of_ne m ρ c main_arg6 (by decide)).trans <|
    (B1_of m ρ c main_arg6 (by decide)).trans rfl
/-- `main_arg7` reaches the end as launched: no stretch writes it and no region has it among its arrays. -/
theorem B7_main_arg7 (c : Dev nD) : B7 m ρ c (Proc.devRef .tc main_arg7) = m ((c : Thread nD τ).loc main_arg7) :=
  (B7_of m ρ c main_arg7 (by decide)).trans <| (B6_of_ne m ρ c main_arg7 (by decide)).trans <| (B5_of m ρ c main_arg7 (by decide)).trans <|
    (B4_of_ne m ρ c main_arg7 (by decide)).trans <| (B3_of m ρ c main_arg7 (by decide)).trans <| (B2_of_ne m ρ c main_arg7 (by decide)).trans <|
    (B1_of m ρ c main_arg7 (by decide)).trans rfl
/-- `main_arg8` reaches the end as launched: no stretch writes it and no region has it among its arrays. -/
theorem B7_main_arg8 (c : Dev nD) : B7 m ρ c (Proc.devRef .tc main_arg8) = m ((c : Thread nD τ).loc main_arg8) :=
  (B7_of m ρ c main_arg8 (by decide)).trans <| (B6_of_ne m ρ c main_arg8 (by decide)).trans <| (B5_of m ρ c main_arg8 (by decide)).trans <|
    (B4_of_ne m ρ c main_arg8 (by decide)).trans <| (B3_of m ρ c main_arg8 (by decide)).trans <| (B2_of_ne m ρ c main_arg8 (by decide)).trans <|
    (B1_of m ρ c main_arg8 (by decide)).trans rfl

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c),
     (h c _ (mem_uc main_arg6 (by decide))).trans (B7_main_arg6 m ρ c),
     (h c _ (mem_uc main_arg7 (by decide))).trans (B7_main_arg7 m ρ c),
     (h c _ (mem_uc main_arg8 (by decide))).trans (B7_main_arg8 m ρ c)⟩)
    (run_all m ρ)

end Cert.KernelIdeal.Hand

end
-- ==== Proof.Ideal.HostReads.lean ====
/-
  What the stretches of host operations hand each region, at the ideal instance: the transposed weights, the
  gathered rows, the two halves of the scorer's first weight matrix, the bias as a row, the last weight as a column —
  each as the operation's term of the buffers it reads.
-/
import proofs.«142809_j11622181503541_2_alg».proof.Proof.Ideal.Frame
import Idealize.ShloMosaic.Lib.StableHlo.Run
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The rows of `H` the edge endpoints `e` name, as the program gathers them. -/
def gatherRowsK (H : (⟨S16384x64, .f32⟩ : BufTy).Contents (Elt Ideal)) (e : (⟨S1048576, .i32⟩ : BufTy).Contents (Elt Ideal)) :
    (⟨S1048576x64, .f32⟩ : BufTy).Contents (Elt Ideal) :=
  Host.gather gather_S16384x64_S1048576x1_S1048576x64_1_0_n_n_0_1_164 H
    (broadcastInDim S1048576x1 ![0] bcast_S1048576_S1048576x1_0
      (select (cmpi .slt e (broadcastInDim S1048576 ![] bcast_S_S1048576 (constantI S_ 32 0#32)))
        (addi e (broadcastInDim S1048576 ![] bcast_S_S1048576 (constantI S_ 32 16384#32))) e))

theorem B1_v0 (c : Dev nD) : (B1 m ρ c (Proc.devRef .tc main_v0) : S64x64.Idx → EReal)
    = transpose S64x64 [1, 0] (m ((c : Thread nD τ).loc main_arg2)) transposes_S64x64_S64x64_1_0 := by
  show StableHlo.after hostOps0 (fun b => m (c, b)) (Proc.devRef .tc main_v0) = _
  after_results <;> rfl

theorem B3_v2 (c : Dev nD) : (B3 m ρ c (Proc.devRef .tc main_v2) : S64x64.Idx → EReal)
    = transpose S64x64 [1, 0] (B2 m ρ c (Proc.devRef .tc main_arg3)) transposes_S64x64_S64x64_1_0 := by
  show StableHlo.after hostOps1 (B2 m ρ c) (Proc.devRef .tc main_v2) = _
  after_results <;> rfl

theorem B5_v10 (c : Dev nD) : (B5 m ρ c (Proc.devRef .tc main_v10) : S1048576x64.Idx → EReal)
    = gatherRowsK (B4 m ρ c (Proc.devRef .tc main_v3)) (B4 m ρ c (Proc.devRef .tc main_arg7)) := by
  show StableHlo.after hostOps2 (B4 m ρ c) (Proc.devRef .tc main_v10) = _
  after_results <;> rfl
theorem B5_v17 (c : Dev nD) : (B5 m ρ c (Proc.devRef .tc main_v17) : S1048576x64.Idx → EReal)
    = gatherRowsK (B4 m ρ c (Proc.devRef .tc main_v3)) (B4 m ρ c (Proc.devRef .tc main_arg8)) := by
  show StableHlo.after hostOps2 (B4 m ρ c) (Proc.devRef .tc main_v17) = _
  after_results <;> rfl
theorem B5_v19 (c : Dev nD) : (B5 m ρ c (Proc.devRef .tc main_v19) : S64x64.Idx → EReal)
    = transpose S64x64 [1, 0] (extractStridedSlice S64x64 ![0, 0] (B4 m ρ c (Proc.devRef .tc main_arg4)) slices_S64x128_S64x64_0_0) transposes_S64x64_S64x64_1_0 := by
  show StableHlo.after hostOps2 (B4 m ρ c) (Proc.devRef .tc main_v19) = _
  after_results <;> rfl
theorem B5_v21 (c : Dev nD) : (B5 m ρ c (Proc.devRef .tc main_v21) : S64x64.Idx → EReal)
    = transpose S64x64 [1, 0] (extractStridedSlice S64x64 ![0, 64] (B4 m ρ c (Proc.devRef .tc main_arg4)) slices_S64x128_S64x64_0_64) transposes_S64x64_S64x64_1_0 := by
  show StableHlo.after hostOps2 (B4 m ρ c) (Proc.devRef .tc main_v21) = _
  after_results <;> rfl
theorem B5_v23 (c : Dev nD) : (B5 m ρ c (Proc.devRef .tc main_v23) : S64x1.Idx → EReal)
    = transpose S64x1 [1, 0] (B4 m ρ c (Proc.devRef .tc main_arg6)) transposes_S1x64_S64x1_1_0 := by
  show StableHlo.after hostOps2 (B4 m ρ c) (Proc.devRef .tc main_v23) = _
  after_results <;> rfl
theorem B5_v22 (c : Dev nD) : (B5 m ρ c (Proc.devRef .tc main_v22) : S1x64.Idx → EReal)
    = shapeCast S1x64 (B4 m ρ c (Proc.devRef .tc main_arg5)) shapeCasts_S64_S1x64 := by
  show StableHlo.after hostOps2 (B4 m ρ c) (Proc.devRef .tc main_v22) = _
  after_results <;> rfl
theorem B7_cst (c : Dev nD) : (B7 m ρ c (Proc.devRef .tc main_cst) : S_.Idx → EReal) = constant (F := Ideal) S_ .f32 0x00000000#32 := by
  show StableHlo.after hostOps3 (B6 m ρ c) (Proc.devRef .tc main_cst) = _
  after_results <;> rfl

end Cert.KernelIdeal.Hand

end
-- ==== Proof.Ideal.Layer0Pieces.lean ====
/-
  What each case of a layer's kernel body leaves, in closed form: the running sum after a point is the payload
  "sum so far plus this block's product" of the point's two input blocks and of the sum before it (the zero block at a
  first column block); the output row block a last column block stores is the payload "finished sum times weights,
  clipped at zero". Each is read off the case's run: a whole-buffer store read back whole is its payload.
-/
import proofs.«142809_j11622181503541_2_alg».proof.Proof.Ideal.Layer0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero_offsets0 : (![0, 0] : Fin 2 → Nat) = fun _ => 0 := funext fun a => by fin_cases a <;> rfl

theorem sout0_A_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) :
    sout0_A c i arg2 harg2 arg3 harg3 arg4 harg4 arg5 harg5 arg6 harg6 hc0 hc1 x0 x1 = k0_pay2 x0 x1 (k0_pay1 (F := F)) := by
  unfold sout0_A
  rw [View.read_writes_eq_canon _ _ _ (scover0_A c i arg2 harg2 arg3 harg3 arg4 harg4 arg5 harg5 arg6 harg6 hc0 hc1 x0 x1)]
  unfold kernelRun0_A
  dsimp only
  refine (View.canon_cons_unit_zero (S := S2048x64) zero_offsets0 _ _ _).trans ?_
  sl_unfold_run_names
  simp only [View.readAt_eq_ld, harg2.read_unread, harg3.read_unread, harg4.read_unread, harg6.read_unread, View.ld_unit_zero (S := S2048x1024) zero_offsets0, View.ld_unit_zero (S := S1024x64) zero_offsets0, View.ld_unit_zero (S := S64x64) zero_offsets0, View.ld_unit_zero (S := S2048x64) zero_offsets0, View.readCov_unit_zero (S := S2048x64) _ zero_offsets0]

theorem sout0_B_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) :
    sout0_B c i arg2 harg2 arg3 harg3 arg4 harg4 arg5 harg5 arg6 harg6 hc0 hc1 x0 x1 xs0 = k0_pay2 x0 x1 xs0 := by
  unfold sout0_B
  rw [View.read_writes_eq_canon _ _ _ (scover0_B c i arg2 harg2 arg3 harg3 arg4 harg4 arg5 harg5 arg6 harg6 hc0 hc1 x0 x1 xs0)]
  unfold kernelRun0_B
  dsimp only
  refine (View.canon_cons_unit_zero (S := S2048x64) zero_offsets0 _ _ _).trans ?_
  sl_unfold_run_names
  simp only [View.readAt_eq_ld, harg2.read_unread, harg3.read_unread, harg4.read_unread, harg6.read_unread, View.ld_unit_zero (S := S2048x1024) zero_offsets0, View.ld_unit_zero (S := S1024x64) zero_offsets0, View.ld_unit_zero (S := S64x64) zero_offsets0, View.ld_unit_zero (S := S2048x64) zero_offsets0, View.readCov_unit_zero (S := S2048x64) _ zero_offsets0]

theorem sout0_C_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) :
    sout0_C c i arg2 harg2 arg3 harg3 arg4 harg4 arg5 harg5 arg6 harg6 hc0 hc1 x0 x1 x2 xs0 = k0_pay2 x0 x1 xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  refine (View.canon_cons_unit_zero (S := S2048x64) zero_offsets0 _ _ _).trans ?_
  sl_unfold_run_names
  simp only [View.readAt_eq_ld, harg2.read_unread, harg3.read_unread, harg4.read_unread, harg6.read_unread, View.ld_unit_zero (S := S2048x1024) zero_offsets0, View.ld_unit_zero (S := S1024x64) zero_offsets0, View.ld_unit_zero (S := S64x64) zero_offsets0, View.ld_unit_zero (S := S2048x64) zero_offsets0, View.readCov_unit_zero (S := S2048x64) _ zero_offsets0]

theorem out0_C_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (x2 : Vec F S64x64 .f32) (xs0 : Vec F S2048x64 .f32) :
    out0_C c i arg2 harg2 arg3 harg3 arg4 harg4 arg5 harg5 arg6 harg6 hc0 hc1 x0 x1 x2 xs0 = k0_pay3 (k0_pay2 x0 x1 xs0) x2 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  refine (View.canon_cons_unit_zero (S := S2048x64) zero_offsets0 _ _ _).trans ?_
  sl_unfold_run_names
  simp only [View.readAt_eq_ld, harg2.read_unread, harg3.read_unread, harg4.read_unread, harg6.read_unread, View.ld_unit_zero (S := S2048x1024) zero_offsets0, View.ld_unit_zero (S := S1024x64) zero_offsets0, View.ld_unit_zero (S := S64x64) zero_offsets0, View.ld_unit_zero (S := S2048x64) zero_offsets0, View.readCov_unit_zero (S := S2048x64) _ zero_offsets0]

variable (V : (c : Dev nD) → (b : Ref sig .tc) → Buf (Elt F) ((c : Thread nD τ).loc b))

/-- The running sum after a first column block: the zero block plus the block's product. -/
theorem stepA0_snd (c : Dev nD) (t : Fin cfg0.N) (h0 : t.val % 16 = 0) :
    (stepA0 V c t h0).2 = k0_pay2 (iblk0 V c 0 t) (iblk0 V c 1 t) (k0_pay1 (F := F)) := by
  unfold stepA0; rw [sout0_A_eq]
/-- … after a middle column block: the sum before plus the block's product. -/
theorem stepB0_snd (c : Dev nD) (t : Fin cfg0.N) (h0 : ¬t.val % 16 = 0) (h1 : ¬t.val % 16 = 15) (xs : Vec F S2048x64 .f32) :
    (stepB0 V c t h0 h1 xs).2 = k0_pay2 (iblk0 V c 0 t) (iblk0 V c 1 t) xs := by
  unfold stepB0; rw [sout0_B_eq]
/-- … after a last column block. -/
theorem stepC0_snd (c : Dev nD) (t : Fin cfg0.N) (h1 : t.val % 16 = 15) (xs : Vec F S2048x64 .f32) :
    (stepC0 V c t h1 xs).2 = k0_pay2 (iblk0 V c 0 t) (iblk0 V c 1 t) xs := by
  unfold stepC0; rw [sout0_C_eq]
/-- The output row block a last column block stores: the finished sum times the weights, clipped at zero. -/
theorem stepC0_fst (c : Dev nD) (t : Fin cfg0.N) (h1 : t.val % 16 = 15) (xs : Vec F S2048x64 .f32) :
    (stepC0 V c t h1 xs).1 = k0_pay3 (k0_pay2 (iblk0 V c 0 t) (iblk0 V c 1 t) xs) (iblk0 V c 2 t) := by
  unfold stepC0; rw [out0_C_eq]

end Cert.KernelIdeal.Hand

end
-- ==== Proof.Spec.lean ====
/-
  The mathematics both programs compute, on extended reals, index by index.

  A propagation layer sends node features Y (16384 × 64) to relu((A·Y)·Wᵀ): entry (n, o) is the larger of 0 and
  Σ_d (Σ_j A(n,j)·Y(j,d)) · W(o,d). The edge scorer takes two gathered feature arrays hs, hd (one row per
  edge), forms s(e,j) = Σ_k hs(e,k)·W₁(j,k) + Σ_k hd(e,k)·W₁(j,64+k) + b(j), squashes it by the logistic function
  and contracts with the last weight row: out(e) = Σ_j logistic(s(e,j)) · W₃(0,j).
-/
import Idealize.ShloMosaic.PureOps.Ideal
import Idealize.ShloMosaic.Lib.ValueIdx

noncomputable section

namespace Cert.Spec

open Idealize.ShloMosaic Idealize.ShloMosaic.ValueIdx

abbrev SNxN : Shape := ⟨2, ![16384, 16384]⟩
abbrev SNxD : Shape := ⟨2, ![16384, 64]⟩
abbrev SDxD : Shape := ⟨2, ![64, 64]⟩
abbrev SDx2D : Shape := ⟨2, ![64, 128]⟩
abbrev SD : Shape := ⟨1, ![64]⟩
abbrev S1xD : Shape := ⟨2, ![1, 64]⟩
abbrev SExD : Shape := ⟨2, ![1048576, 64]⟩
abbrev SEx1 : Shape := ⟨2, ![1048576, 1]⟩

/-- The adjacency-weighted feature sum (A·Y)(n, d) = Σ_j A(n,j)·Y(j,d). -/
def agg (A : SNxN.Idx → EReal) (Y : SNxD.Idx → EReal) (n : Fin 16384) (d : Fin 64) : EReal :=
  ∑ j : Fin 16384, A (ix2 n j) * Y (ix2 j d)

/-- One propagation layer at (n, o): max(Σ_d (A·Y)(n,d)·W(o,d), 0). -/
def layer (A : SNxN.Idx → EReal) (Y : SNxD.Idx → EReal) (W : SDxD.Idx → EReal) (n : Fin 16384) (o : Fin 64) : EReal :=
  max (∑ d : Fin 64, agg A Y n d * W (ix2 o d)) 0

/-- The layer as an array. -/
def layerArr (A : SNxN.Idx → EReal) (Y : SNxD.Idx → EReal) (W : SDxD.Idx → EReal) : SNxD.Idx → EReal :=
  fun i => layer A Y W ⟨(i 0).val, (i 0).isLt⟩ ⟨(i 1).val, (i 1).isLt⟩

/-- The scorer's pre-activation s(e, j). -/
def pre (hs hd : SExD.Idx → EReal) (W1 : SDx2D.Idx → EReal) (b : SD.Idx → EReal) (e : Fin 1048576) (j : Fin 64) : EReal :=
  (∑ k : Fin 64, hs (ix2 e k) * W1 (ix2 j ⟨k.val, by omega⟩))
    + (∑ k : Fin 64, hd (ix2 e k) * W1 (ix2 j ⟨64 + k.val, by omega⟩)) + b (ix1 j)

/-- The edge score out(e) = Σ_j logistic(s(e,j))·W₃(0,j). -/
def score (hs hd : SExD.Idx → EReal) (W1 : SDx2D.Idx → EReal) (b : SD.Idx → EReal) (W3 : S1xD.Idx → EReal) (e : Fin 1048576) : EReal :=
  ∑ j : Fin 64, Ideal.logistic (pre hs hd W1 b e j) * W3 (ix2 (0 : Fin 1) j)

/-- The scores as an array [E, 1]. -/
def scoreArr (hs hd : SExD.Idx → EReal) (W1 : SDx2D.Idx → EReal) (b : SD.Idx → EReal) (W3 : S1xD.Idx → EReal) : SEx1.Idx → EReal :=
  fun i => score hs hd W1 b W3 ⟨(i 0).val, (i 0).isLt⟩

end Cert.Spec

end
-- ==== Proof.Ideal.LayerPayload.lean ====
/-
  The three values a layer kernel's body stores, read at an index, on extended reals.

  The first is a block of zeros. The second is the running sum plus one block product: entry (r, d) of a 2048 × 1024
  adjacency block times a 1024 × 64 feature block is Σ_j x₀(r, j)·x₁(j, d), added to s(r, d). The third multiplies the
  finished sum by the 64 × 64 weight block and clips at zero: entry (r, o) is max(Σ_d s(r, d)·w(d, o), 0). A change
  of float format and a reshape to the same shape leave every entry as it is. The second layer's kernel stores the
  same three values.
-/
import proofs.«142809_j11622181503541_2_alg».proof.Proof.Gen.KernelIdeal.Skeleton
import proofs.«142809_j11622181503541_2_alg».proof.Proof.Spec
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.ValueIdx
open scoped BigOperators

/-- A rank-2 index whose coordinates have the values of `a` and `b` is `ix2 a b`. -/
theorem idx2_ext {n0 n1 : Nat} (f : (⟨2, ![n0, n1]⟩ : Shape).Idx) (a : Fin n0) (b : Fin n1)
    (h0 : (f 0).val = a.val) (h1 : (f 1).val = b.val) : f = ix2 a b := by
  funext c
  match c with
  | ⟨0, _⟩ => exact Fin.ext h0
  | ⟨1, _⟩ => exact Fin.ext h1

/-! ## The two block products at an index -/

/-- The adjacency block times the feature block into a zero accumulator, at (r, d): Σ_j x(r, j)·y(j, d). -/
theorem mmA_apply {φ₁ φ₂ : FTy} (x : FVec Ideal S2048x1024 φ₁) (y : FVec Ideal S1024x64 φ₂) (r : Fin 2048) (d : Fin 64) :
    matmul dot_S2048x1024_S1024x64_S2048x64_1_0_0_1_n_n none x y (constant S2048x64 .f32 0x00000000#32) (ix2 r d)
      = ∑ j : Fin 1024, x (ix2 r j) * y (ix2 j d) := by
  simp only [matmul]
  rw [Ideal.matmul_constant_zero_apply,
    ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 r d)
      ((contrEquiv1 dot_S2048x1024_S1024x64_S2048x64_1_0_0_1_n_n 1024 rfl rfl).symm k) = ix2 r k :=
    idx2_ext _ _ _
      (by
        unfold DotDims.lhsIdx
        rw [dif_neg (show ¬(0 : Fin S2048x1024.rank) ∈ dot_S2048x1024_S1024x64_S2048x64_1_0_0_1_n_n.lhsBatch by decide),
          dif_pos (show (0 : Fin S2048x1024.rank) ∈ dot_S2048x1024_S1024x64_S2048x64_1_0_0_1_n_n.lhsNonContracting by decide)]
        rfl)
      ((dot_S2048x1024_S1024x64_S2048x64_1_0_0_1_n_n.lhsIdx_val_of_single rfl _ _).trans hk)
  have er : dot_S2048x1024_S1024x64_S2048x64_1_0_0_1_n_n.rhsIdx (ix2 r d)
      ((contrEquiv1 dot_S2048x1024_S1024x64_S2048x64_1_0_0_1_n_n 1024 rfl rfl).symm k) = ix2 k d :=
    idx2_ext _ _ _
      ((dot_S2048x1024_S1024x64_S2048x64_1_0_0_1_n_n.rhsIdx_val_of_single rfl _ _).trans hk)
      (by
        unfold DotDims.rhsIdx
        rw [dif_neg (show ¬(1 : Fin S1024x64.rank) ∈ dot_S2048x1024_S1024x64_S2048x64_1_0_0_1_n_n.rhsBatch by decide),
          dif_pos (show (1 : Fin S1024x64.rank) ∈ dot_S2048x1024_S1024x64_S2048x64_1_0_0_1_n_n.rhsNonContracting by decide)]
        rfl)
  rw [el, er]

/-- The finished sum times the weight block into a zero accumulator, at (r, o): Σ_d x(r, d)·y(d, o). -/
theorem mmB_apply {φ₁ φ₂ : FTy} (x : FVec Ideal S2048x64 φ₁) (y : FVec Ideal S64x64 φ₂) (r : Fin 2048) (o : Fin 64) :
    matmul dot_S2048x64_S64x64_S2048x64_1_0_0_1_n_n none x y (constant S2048x64 .f32 0x00000000#32) (ix2 r o)
      = ∑ d : Fin 64, x (ix2 r d) * y (ix2 d o) := by
  simp only [matmul]
  rw [Ideal.matmul_constant_zero_apply,
    ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r o)
      ((contrEquiv1 dot_S2048x64_S64x64_S2048x64_1_0_0_1_n_n 64 rfl rfl).symm k) = ix2 r k :=
    idx2_ext _ _ _
      (by
        unfold DotDims.lhsIdx
        rw [dif_neg (show ¬(0 : Fin S2048x64.rank) ∈ dot_S2048x64_S64x64_S2048x64_1_0_0_1_n_n.lhsBatch by decide),
          dif_pos (show (0 : Fin S2048x64.rank) ∈ dot_S2048x64_S64x64_S2048x64_1_0_0_1_n_n.lhsNonContracting by decide)]
        rfl)
      ((dot_S2048x64_S64x64_S2048x64_1_0_0_1_n_n.lhsIdx_val_of_single rfl _ _).trans hk)
  have er : dot_S2048x64_S64x64_S2048x64_1_0_0_1_n_n.rhsIdx (ix2 r o)
      ((contrEquiv1 dot_S2048x64_S64x64_S2048x64_1_0_0_1_n_n 64 rfl rfl).symm k) = ix2 k o :=
    idx2_ext _ _ _
      ((dot_S2048x64_S64x64_S2048x64_1_0_0_1_n_n.rhsIdx_val_of_single rfl _ _).trans hk)
      (by
        unfold DotDims.rhsIdx
        rw [dif_neg (show ¬(1 : Fin S64x64.rank) ∈ dot_S2048x64_S64x64_S2048x64_1_0_0_1_n_n.rhsBatch by decide),
          dif_pos (show (1 : Fin S64x64.rank) ∈ dot_S2048x64_S64x64_S2048x64_1_0_0_1_n_n.rhsNonContracting by decide)]
        rfl)
  rw [el, er]

/-! ## The first layer's kernel -/

/-- The cleared running sum is zero everywhere. -/
theorem pay01_apply (i : S2048x64.Idx) : k0_pay1 (F := Ideal) i = 0 := by
  unfold k0_pay1
  rw [shapeCast_self]
  exact Ideal.ofBits_zero_f32

/-- One accumulation step: the running sum plus the block product. -/
theorem pay02_apply (x0 : Vec Ideal S2048x1024 .f32) (x1 : Vec Ideal S1024x64 .f32) (s : Vec Ideal S2048x64 .f32)
    (r : Fin 2048) (d : Fin 64) :
    k0_pay2 x0 x1 s (ix2 r d) = s (ix2 r d) + ∑ j : Fin 1024, x0 (ix2 r j) * x1 (ix2 j d) := by
  unfold k0_pay2
  rw [shapeCast_self]
  exact congrArg (s (ix2 r d) + ·) (mmA_apply _ _ r d)

/-- The finishing step: the sum times the weights, clipped at zero. -/
theorem pay03_apply (s : Vec Ideal S2048x64 .f32) (w : Vec Ideal S64x64 .f32) (r : Fin 2048) (o : Fin 64) :
    k0_pay3 s w (ix2 r o) = max (∑ d : Fin 64, s (ix2 r d) * w (ix2 d o)) 0 := by
  unfold k0_pay3
  rw [shapeCast_self]
  exact congrArg₂ max (mmB_apply _ _ r o) Ideal.ofBits_zero_f32

/-! ## The second layer's kernel -/

/-- The cleared running sum is zero everywhere. -/
theorem pay11_apply (i : S2048x64.Idx) : k1_pay1 (F := Ideal) i = 0 := by
  unfold k1_pay1
  rw [shapeCast_self]
  exact Ideal.ofBits_zero_f32

/-- One accumulation step: the running sum plus the block product. -/
theorem pay12_apply (x0 : Vec Ideal S2048x1024 .f32) (x1 : Vec Ideal S1024x64 .f32) (s : Vec Ideal S2048x64 .f32)
    (r : Fin 2048) (d : Fin 64) :
    k1_pay2 x0 x1 s (ix2 r d) = s (ix2 r d) + ∑ j : Fin 1024, x0 (ix2 r j) * x1 (ix2 j d) := by
  unfold k1_pay2
  rw [shapeCast_self, shapeCast_self]
  exact congrArg (s (ix2 r d) + ·) (mmA_apply _ _ r d)

/-- The finishing step: the sum times the weights, clipped at zero. -/
theorem pay13_apply (s : Vec Ideal S2048x64 .f32) (w : Vec Ideal S64x64 .f32) (r : Fin 2048) (o : Fin 64) :
    k1_pay3 s w (ix2 r o) = max (∑ d : Fin 64, s (ix2 r d) * w (ix2 d o)) 0 := by
  unfold k1_pay3
  rw [shapeCast_self]
  exact congrArg₂ max (mmB_apply _ _ r o) Ideal.ofBits_zero_f32

end Cert.KernelIdeal.HandValue

end
-- ==== Proof.LibSumBlocks.lean ====
/-
  Splitting a finite sum over a product extent into nested sums over its factors.
-/
import Mathlib.Algebra.BigOperators.Fin

open scoped BigOperators

namespace Cert.LibSumBlocks

/-- The position of entry `q` of block `p`, for blocks of length `b`, lies below `a * b`
when there are `a` blocks. -/
theorem blk_lt {a b p q : ℕ} (hp : p < a) (hq : q < b) : p * b + q < a * b :=
  calc p * b + q < p * b + b := Nat.add_lt_add_left hq _
    _ = (p + 1) * b := (Nat.succ_mul p b).symm
    _ ≤ a * b := Nat.mul_le_mul_right b hp

/-- A sum over `Fin (a * b)` is the sum over the `a` consecutive blocks of length `b` of the sum
inside each block: entry `q` of block `p` sits at position `p * b + q`. -/
theorem sum_fin_blocks2 {M : Type*} [AddCommMonoid M] (a b : ℕ) (f : Fin (a * b) → M) :
    ∑ i, f i = ∑ p : Fin a, ∑ q : Fin b, f ⟨p.val * b + q.val, blk_lt p.isLt q.isLt⟩ := by
  rw [← Equiv.sum_comp finProdFinEquiv f, Fintype.sum_prod_type]
  refine Finset.sum_congr rfl fun p _ => Finset.sum_congr rfl fun q _ => congrArg f (Fin.ext ?_)
  show q.val + b * p.val = p.val * b + q.val
  rw [Nat.mul_comm, Nat.add_comm]

/-- A sum over `Fin (a * b * c)` is a triple nested sum: the index range is cut into `a` blocks,
each block into `b` sub-blocks of length `c`; entry `s` of sub-block `q` of block `p` sits at
position `(p * b + q) * c + s`. -/
theorem sum_fin_blocks3 {M : Type*} [AddCommMonoid M] (a b c : ℕ) (f : Fin (a * b * c) → M) :
    ∑ i, f i = ∑ p : Fin a, ∑ q : Fin b, ∑ s : Fin c,
      f ⟨(p.val * b + q.val) * c + s.val, blk_lt (blk_lt p.isLt q.isLt) s.isLt⟩ :=
  (sum_fin_blocks2 (a * b) c f).trans
    (sum_fin_blocks2 a b fun pq : Fin (a * b) =>
      ∑ s : Fin c, f ⟨pq.val * c + s.val, blk_lt pq.isLt s.isLt⟩)

/-- The triple split of `sum_fin_blocks3` for an extent `n` given with a proof that it is the
product `a * b * c`, so that `n` may be a numeral. -/
theorem sum_fin_blocks3_of_eq {M : Type*} [AddCommMonoid M] (n a b c : ℕ) (h : n = a * b * c)
    (f : Fin n → M) :
    ∑ i, f i = ∑ p : Fin a, ∑ q : Fin b, ∑ s : Fin c,
      f ⟨(p.val * b + q.val) * c + s.val, h ▸ blk_lt (blk_lt p.isLt q.isLt) s.isLt⟩ := by
  subst h
  exact sum_fin_blocks3 a b c f

/-- A sum over the 32768 rows, cut into 2 halves of 8 blocks of 2048 rows each: row `s` of block
`q` of half `p` is row `(p * 8 + q) * 2048 + s`. -/
theorem sum_rows_32768 {M : Type*} [AddCommMonoid M] (f : Fin 32768 → M) :
    ∑ i : Fin 32768, f i = ∑ p : Fin 2, ∑ q : Fin 8, ∑ s : Fin 2048,
      f ⟨(p.val * 8 + q.val) * 2048 + s.val, by omega⟩ :=
  sum_fin_blocks3_of_eq 32768 2 8 2048 (by decide) f

end Cert.LibSumBlocks
-- ==== Proof.Ideal.LayerSums.lean ====
/-
  Two facts about finite sums used to compare the blocked accumulation of a layer with the specification.

  The adjacency-weighted feature sum over all 16384 nodes is the sum, over the sixteen consecutive column blocks of
  1024 nodes, of the sums inside each block: node j of block k is node k·1024 + j. And a sum over the sixteen block
  numbers is the same sum over the natural numbers below sixteen.
-/
import proofs.«142809_j11622181503541_2_alg».proof.Proof.Spec
import proofs.«142809_j11622181503541_2_alg».proof.Proof.LibSumBlocks

noncomputable section

namespace Cert.KernelIdeal.HandValue

open Idealize.ShloMosaic Idealize.ShloMosaic.ValueIdx
open scoped BigOperators

/-- A sum over `Fin n`, for `n` given with a proof that it is `a * b`, is the sum over the `a` consecutive blocks of
    length `b` of the sum inside each block. -/
theorem sum_fin_blocks2_of_eq {M : Type*} [AddCommMonoid M] (n a b : ℕ) (h : n = a * b) (f : Fin n → M) :
    ∑ i, f i = ∑ p : Fin a, ∑ q : Fin b, f ⟨p.val * b + q.val, h ▸ Cert.LibSumBlocks.blk_lt p.isLt q.isLt⟩ := by
  subst h
  exact Cert.LibSumBlocks.sum_fin_blocks2 a b f

/-- The adjacency-weighted feature sum, cut into the sixteen column blocks of 1024 nodes. -/
theorem agg_blocks (A : Cert.Spec.SNxN.Idx → EReal) (Y : Cert.Spec.SNxD.Idx → EReal) (n : Fin 16384) (d : Fin 64) :
    Cert.Spec.agg A Y n d
      = ∑ k : Fin 16, ∑ j : Fin 1024, A (ix2 n (⟨k.val * 1024 + j.val, by omega⟩ : Fin 16384))
          * Y (ix2 (⟨k.val * 1024 + j.val, by omega⟩ : Fin 16384) d) := by
  unfold Cert.Spec.agg
  exact sum_fin_blocks2_of_eq 16384 16 1024 (by decide) (fun j : Fin 16384 => A (ix2 n j) * Y (ix2 j d))

/-- A sum over the sixteen block numbers is the sum over the naturals below sixteen. -/
theorem sum_fin16_range (g : ℕ → EReal) : (∑ k : Fin 16, g k.val) = ∑ k ∈ Finset.range 16, g k :=
  Fin.sum_univ_eq_sum_range g 16

end Cert.KernelIdeal.HandValue

end
-- ==== Proof.Ideal.LayerMath.lean ====
/-
  The mathematics of one layer as its kernel computes it, apart from the machine.

  The kernel walks a row block of 2048 nodes across sixteen column blocks of 1024 nodes. After the column blocks
  0..m-1 its running sum at (r, d) is Σ_{k<m} Σ_{j<1024} A(row, 1024k + j)·Y(1024k + j, d); after all sixteen this
  is the adjacency-weighted feature sum of the specification. The last column block multiplies the finished sum by
  the transposed weights and clips at zero. To keep bounds out of the sums the arrays are read at natural-number
  coordinates, zero outside the array.
-/
import proofs.«142809_j11622181503541_2_alg».proof.Proof.Ideal.LayerPayload
import proofs.«142809_j11622181503541_2_alg».proof.Proof.Ideal.LayerSums
import proofs.«142809_j11622181503541_2_alg».proof.Proof.Spec
import Idealize.ShloMosaic.Lib.ValueLayout

noncomputable section

namespace Cert.KernelIdeal.Hand

open Cert.KernelIdeal Cert.KernelIdeal.Gen Cert.KernelIdeal.HandValue Idealize.ShloMosaic Idealize.ShloMosaic.ValueIdx
open scoped BigOperators

/-- One layer as the kernel computes it, over the already-transposed weights `Wt`: entry (n, o) is
    max(Σ_d (A·Y)(n, d)·Wt(d, o), 0). -/
def layerK (A : S16384x16384.Idx → EReal) (Y : S16384x64.Idx → EReal) (Wt : S64x64.Idx → EReal) : S16384x64.Idx → EReal :=
  fun i => max (∑ d : Fin 64, Cert.Spec.agg A Y ⟨(i 0).val, (i 0).isLt⟩ d * Wt (ix2 d (⟨(i 1).val, (i 1).isLt⟩ : Fin 64))) 0

/-- Over the transposed weight matrix the kernel's layer is the specification's. -/
theorem layerK_transpose (A : S16384x16384.Idx → EReal) (Y : S16384x64.Idx → EReal) (W : (⟨S64x64, .f32⟩ : BufTy).Contents (Elt Ideal)) :
    layerK A Y (transpose S64x64 [1, 0] W transposes_S64x64_S64x64_1_0) = Cert.Spec.layerArr A Y W := by
  funext i
  show max (∑ d : Fin 64, Cert.Spec.agg A Y ⟨(i 0).val, (i 0).isLt⟩ d
        * transpose S64x64 [1, 0] W transposes_S64x64_S64x64_1_0 (ix2 d (⟨(i 1).val, (i 1).isLt⟩ : Fin 64))) 0
      = max (∑ d : Fin 64, Cert.Spec.agg A Y ⟨(i 0).val, (i 0).isLt⟩ d * W (ix2 (⟨(i 1).val, (i 1).isLt⟩ : Fin 64) d)) 0
  refine congrArg (fun s => max s (0 : EReal)) (Finset.sum_congr rfl fun d _ => ?_)
  rw [transpose_ix2_apply (a := 64) (b := 64) W transposes_S64x64_S64x64_1_0 d ⟨(i 1).val, (i 1).isLt⟩]

/-! ## Arrays read at natural-number coordinates -/

/-- A matrix read at natural-number coordinates: its entry inside the array, zero outside. -/
def atN2 (n0 n1 : ℕ) (X : (⟨2, ![n0, n1]⟩ : Shape).Idx → EReal) (a b : ℕ) : EReal :=
  if h : a < n0 ∧ b < n1 then X (ix2 ⟨a, h.1⟩ ⟨b, h.2⟩) else 0

theorem atN2_of_lt (n0 n1 : ℕ) (X : (⟨2, ![n0, n1]⟩ : Shape).Idx → EReal) {a b : ℕ} (ha : a < n0) (hb : b < n1) :
    atN2 n0 n1 X a b = X (ix2 ⟨a, ha⟩ ⟨b, hb⟩) := dif_pos ⟨ha, hb⟩

/-- Column block `k`'s contribution to the adjacency-weighted sum of row `row` at feature `d`. -/
def blockTerm (A : S16384x16384.Idx → EReal) (Y : S16384x64.Idx → EReal) (row : ℕ) (d : Fin 64) (k : ℕ) : EReal :=
  ∑ j : Fin 1024, atN2 16384 16384 A row (1024 * k + j.val) * atN2 16384 64 Y (1024 * k + j.val) d.val

/-- The running sum after the column blocks below `m`. -/
def partialAgg (A : S16384x16384.Idx → EReal) (Y : S16384x64.Idx → EReal) (row : ℕ) (d : Fin 64) (m : ℕ) : EReal :=
  ∑ k ∈ Finset.range m, blockTerm A Y row d k

theorem partialAgg_one (A : S16384x16384.Idx → EReal) (Y : S16384x64.Idx → EReal) (row : ℕ) (d : Fin 64) :
    partialAgg A Y row d 1 = blockTerm A Y row d 0 := by
  unfold partialAgg
  rw [Finset.sum_range_one]

theorem partialAgg_succ (A : S16384x16384.Idx → EReal) (Y : S16384x64.Idx → EReal) (row : ℕ) (d : Fin 64) (m : ℕ) :
    partialAgg A Y row d (m + 1) = partialAgg A Y row d m + blockTerm A Y row d m := by
  unfold partialAgg
  rw [Finset.sum_range_succ]

/-- After all sixteen column blocks the running sum is the specification's adjacency-weighted feature sum. -/
theorem partialAgg_full (A : S16384x16384.Idx → EReal) (Y : S16384x64.Idx → EReal) (row : Fin 16384) (d : Fin 64) :
    partialAgg A Y row.val d 16 = Cert.Spec.agg A Y row d := by
  rw [agg_blocks]
  unfold partialAgg
  rw [← sum_fin16_range (fun k => blockTerm A Y row.val d k)]
  refine Finset.sum_congr rfl fun k _ => ?_
  unfold blockTerm
  refine Finset.sum_congr rfl fun j _ => ?_
  have hk : k.val < 16 := k.isLt
  have hj : j.val < 1024 := j.isLt
  have hlt : 1024 * k.val + j.val < 16384 := by omega
  rw [atN2_of_lt 16384 16384 A row.isLt hlt, atN2_of_lt 16384 64 Y hlt d.isLt]
  have e : (⟨1024 * k.val + j.val, hlt⟩ : Fin 16384) = ⟨k.val * 1024 + j.val, by omega⟩ := Fin.ext (by show 1024 * k.val + j.val = k.val * 1024 + j.val; omega)
  rw [e]

/-! ## One point of the grid, over variables -/

/-- One accumulation step of the first layer's kernel: if the adjacency block's row `r` holds row `row` of `A` at the
    columns of block `k`, and the feature block's column `d` holds those rows of `Y`, the step adds block `k`'s term. -/
theorem acc_step0 (A : S16384x16384.Idx → EReal) (Y : S16384x64.Idx → EReal) (x0 : Vec Ideal S2048x1024 .f32)
    (x1 : Vec Ideal S1024x64 .f32) (s : Vec Ideal S2048x64 .f32) (row k : ℕ) (r : Fin 2048) (d : Fin 64)
    (hx0 : ∀ j : Fin 1024, x0 (ix2 r j) = atN2 16384 16384 A row (1024 * k + j.val))
    (hx1 : ∀ j : Fin 1024, x1 (ix2 j d) = atN2 16384 64 Y (1024 * k + j.val) d.val) :
    k0_pay2 x0 x1 s (ix2 r d) = s (ix2 r d) + blockTerm A Y row d k := by
  rw [pay02_apply]
  unfold blockTerm
  exact congrArg (s (ix2 r d) + ·) (Finset.sum_congr rfl fun j _ => by rw [hx0 j, hx1 j])

/-- The same step of the second layer's kernel. -/
theorem acc_step1 (A : S16384x16384.Idx → EReal) (Y : S16384x64.Idx → EReal) (x0 : Vec Ideal S2048x1024 .f32)
    (x1 : Vec Ideal S1024x64 .f32) (s : Vec Ideal S2048x64 .f32) (row k : ℕ) (r : Fin 2048) (d : Fin 64)
    (hx0 : ∀ j : Fin 1024, x0 (ix2 r j) = atN2 16384 16384 A row (1024 * k + j.val))
    (hx1 : ∀ j : Fin 1024, x1 (ix2 j d) = atN2 16384 64 Y (1024 * k + j.val) d.val) :
    k1_pay2 x0 x1 s (ix2 r d) = s (ix2 r d) + blockTerm A Y row d k := by
  rw [pay12_apply]
  unfold blockTerm
  exact congrArg (s (ix2 r d) + ·) (Finset.sum_congr rfl fun j _ => by rw [hx0 j, hx1 j])

/-- The finishing step of the first layer's kernel, at an element `y` of the row block that sits at `i` in the array:
    if the finished sum holds the adjacency-weighted sums of the rows from `row` on and the weight block is `Wt`,
    the stored value is the layer at `i`. -/
theorem out_block0 (A : S16384x16384.Idx → EReal) (Y : S16384x64.Idx → EReal) (Wt : S64x64.Idx → EReal)
    (s : Vec Ideal S2048x64 .f32) (w : Vec Ideal S64x64 .f32) (row : ℕ) (y : S2048x64.Idx) (i : S16384x64.Idx)
    (hi0 : (i 0).val = row + (y 0).val) (hi1 : (i 1).val = (y 1).val)
    (hs : ∀ (r : Fin 2048) (d : Fin 64) (h : row + r.val < 16384), s (ix2 r d) = Cert.Spec.agg A Y ⟨row + r.val, h⟩ d)
    (hw : ∀ d o : Fin 64, w (ix2 d o) = Wt (ix2 d o)) :
    k0_pay3 s w y = layerK A Y Wt i := by
  obtain ⟨r0, hr0⟩ : ∃ r0 : Fin 2048, r0.val = (y 0).val := ⟨⟨(y 0).val, (y 0).isLt⟩, rfl⟩
  obtain ⟨o0, ho0⟩ : ∃ o0 : Fin 64, o0.val = (y 1).val := ⟨⟨(y 1).val, (y 1).isLt⟩, rfl⟩
  have hi0' : (i 0).val < 16384 := idx2_lt0 (n0 := 16384) (n1 := 64) i
  have hlt : row + r0.val < 16384 := by omega
  have hy : y = ix2 r0 o0 := idx2_ext (n0 := 2048) (n1 := 64) y r0 o0 hr0.symm ho0.symm
  have e0 : (⟨(i 0).val, (i 0).isLt⟩ : Fin 16384) = ⟨row + r0.val, hlt⟩ := Fin.ext (by show (i 0).val = row + r0.val; omega)
  have e1 : (⟨(i 1).val, (i 1).isLt⟩ : Fin 64) = o0 := Fin.ext (by show (i 1).val = o0.val; omega)
  refine (congrArg (k0_pay3 s w) hy).trans ((pay03_apply s w r0 o0).trans ?_)
  show max _ 0 = max (∑ d : Fin 64, Cert.Spec.agg A Y ⟨(i 0).val, (i 0).isLt⟩ d * Wt (ix2 d (⟨(i 1).val, (i 1).isLt⟩ : Fin 64))) 0
  rw [e0, e1]
  exact congrArg (fun t => max t (0 : EReal)) (Finset.sum_congr rfl fun d _ => by rw [hs r0 d hlt, hw d o0])

/-- The same finishing step of the second layer's kernel. -/
theorem out_block1 (A : S16384x16384.Idx → EReal) (Y : S16384x64.Idx → EReal) (Wt : S64x64.Idx → EReal)
    (s : Vec Ideal S2048x64 .f32) (w : Vec Ideal S64x64 .f32) (row : ℕ) (y : S2048x64.Idx) (i : S16384x64.Idx)
    (hi0 : (i 0).val = row + (y 0).val) (hi1 : (i 1).val = (y 1).val)
    (hs : ∀ (r : Fin 2048) (d : Fin 64) (h : row + r.val < 16384), s (ix2 r d) = Cert.Spec.agg A Y ⟨row + r.val, h⟩ d)
    (hw : ∀ d o : Fin 64, w (ix2 d o) = Wt (ix2 d o)) :
    k1_pay3 s w y = layerK A Y Wt i := by
  obtain ⟨r0, hr0⟩ : ∃ r0 : Fin 2048, r0.val = (y 0).val := ⟨⟨(y 0).val, (y 0).isLt⟩, rfl⟩
  obtain ⟨o0, ho0⟩ : ∃ o0 : Fin 64, o0.val = (y 1).val := ⟨⟨(y 1).val, (y 1).isLt⟩, rfl⟩
  have hi0' : (i 0).val < 16384 := idx2_lt0 (n0 := 16384) (n1 := 64) i
  have hlt : row + r0.val < 16384 := by omega
  have hy : y = ix2 r0 o0 := idx2_ext (n0 := 2048) (n1 := 64) y r0 o0 hr0.symm ho0.symm
  have e0 : (⟨(i 0).val, (i 0).isLt⟩ : Fin 16384) = ⟨row + r0.val, hlt⟩ := Fin.ext (by show (i 0).val = row + r0.val; omega)
  have e1 : (⟨(i 1).val, (i 1).isLt⟩ : Fin 64) = o0 := Fin.ext (by show (i 1).val = o0.val; omega)
  refine (congrArg (k1_pay3 s w) hy).trans ((pay13_apply s w r0 o0).trans ?_)
  show max _ 0 = max (∑ d : Fin 64, Cert.Spec.agg A Y ⟨(i 0).val, (i 0).isLt⟩ d * Wt (ix2 d (⟨(i 1).val, (i 1).isLt⟩ : Fin 64))) 0
  rw [e0, e1]
  exact congrArg (fun t => max t (0 : EReal)) (Finset.sum_congr rfl fun d _ => by rw [hs r0 d hlt, hw d o0])

end Cert.KernelIdeal.Hand

end
-- ==== Proof.Ideal.Layer0Array.lean ====
/-
  From the blocks of a layer kernel's grid to the output array.

  Point t of the 8 × 16 grid works on row block t / 16 and column block t % 16. Its adjacency block holds rows
  2048·(t/16) .. and columns 1024·(t%16) .. of the adjacency, its feature block rows 1024·(t%16) .. of the features,
  its weight block the whole (transposed) weight matrix. By induction on the point the running sum after point t
  holds, at (r, d), the sum over the column blocks 0 .. t%16 of Σ_j A(row, 1024k + j)·Y(1024k + j, d) for
  row = 2048·(t/16) + r; at a last column block that is the specification's adjacency-weighted feature sum, and what
  the point writes back is its row block of the layer. The eight row blocks cover the output array.
-/
import proofs.«142809_j11622181503541_2_alg».proof.Proof.Ideal.Layer0Pieces
import proofs.«142809_j11622181503541_2_alg».proof.Proof.Ideal.LayerMath
import Idealize.ShloMosaic.Lib.Pipeline.Value

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen Cert.KernelIdeal.HandValue Idealize.ShloMosaic.ValueIdx
open scoped BigOperators

variable (V : (c : Dev nD) → (b : Ref sig .tc) → Buf (Elt Ideal) ((c : Thread nD τ).loc b))

/-! ## Where the windows' blocks sit -/

/-- The printed index maps over the grid: point t is row block t / 16, column block t % 16. -/
theorem idx_facts0 : ∀ t : Fin cfg0.N, win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = 0 :=
  (by decide +kernel : ∀ t : Fin grid0.N, _)

/-- The adjacency block of point t, at (r, j): row 2048·(t/16) + r, column 1024·(t%16) + j of the adjacency. -/
theorem iblk0_0_apply (c : Dev nD) (t : Fin cfg0.N) (r : Fin 2048) (j : Fin 1024) :
    iblk0 V c 0 t (ix2 r j) = atN2 16384 16384 (V c main_arg1) (2048 * (t.val / 16) + r.val) (1024 * (t.val % 16) + j.val) := by
  have ht : t.val < 128 := lt_of_lt_of_eq t.isLt N_0
  have hr : r.val < 2048 := r.isLt
  have hj : j.val < 1024 := j.isLt
  have ha : 2048 * (t.val / 16) + r.val < 16384 := by omega
  have hb : 1024 * (t.val % 16) + j.val < 16384 := by omega
  rw [atN2_of_lt 16384 16384 _ ha hb]
  obtain ⟨e0, e1, -⟩ := idx_facts0 t
  show V c main_arg1 (((cfg0.win 0).blk t).view.emb (ix2 r j)) = V c main_arg1 _
  refine congrArg (V c main_arg1) (funext fun a => Fin.ext ?_)
  match a with
  | ⟨0, _⟩ => show win0_0.index t (0 : Fin 2) * 2048 + 1 * r.val = 2048 * (t.val / 16) + r.val; omega
  | ⟨1, _⟩ => show win0_0.index t (1 : Fin 2) * 1024 + 1 * j.val = 1024 * (t.val % 16) + j.val; omega

/-- The feature block of point t, at (j, d): row 1024·(t%16) + j, column d of the features. -/
theorem iblk0_1_apply (c : Dev nD) (t : Fin cfg0.N) (j : Fin 1024) (d : Fin 64) :
    iblk0 V c 1 t (ix2 j d) = atN2 16384 64 (V c main_arg0) (1024 * (t.val % 16) + j.val) d.val := by
  have ht : t.val < 128 := lt_of_lt_of_eq t.isLt N_0
  have hj : j.val < 1024 := j.isLt
  have hb : 1024 * (t.val % 16) + j.val < 16384 := by omega
  rw [atN2_of_lt 16384 64 _ hb d.isLt]
  obtain ⟨-, -, e2, e3, -⟩ := idx_facts0 t
  show V c main_arg0 (((cfg0.win 1).blk t).view.emb (ix2 j d)) = V c main_arg0 _
  refine congrArg (V c main_arg0) (funext fun a => Fin.ext ?_)
  match a with
  | ⟨0, _⟩ => show win0_1.index t (0 : Fin 2) * 1024 + 1 * j.val = 1024 * (t.val % 16) + j.val; omega
  | ⟨1, _⟩ => show win0_1.index t (1 : Fin 2) * 64 + 1 * d.val = d.val; omega

/-- The weight block of every point is the whole weight matrix. -/
theorem iblk0_2_apply (c : Dev nD) (t : Fin cfg0.N) (d o : Fin 64) :
    iblk0 V c 2 t (ix2 d o) = V c main_v0 (ix2 d o) := by
  obtain ⟨-, -, -, -, e4, e5, -⟩ := idx_facts0 t
  show V c main_v0 (((cfg0.win 2).blk t).view.emb (ix2 d o)) = V c main_v0 _
  refine congrArg (V c main_v0) (funext fun a => Fin.ext ?_)
  match a with
  | ⟨0, _⟩ => show win0_2.index t (0 : Fin 2) * 64 + 1 * d.val = d.val; omega
  | ⟨1, _⟩ => show win0_2.index t (1 : Fin 2) * 64 + 1 * o.val = o.val; omega

/-- An index of the output array is in point t's block iff each coordinate is in the block's range on its axis. -/
theorem mem_blk0_3 (t : Fin cfg0.N) (i : S16384x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v1).slice (win0_3.rect t)).set ↔ _
  rw [View.set_slice_whole, Rect.mem_set_unit]
  exact Iff.rfl

/-- Every index of the output array is in the block of a point that writes back: row n is in row block n / 2048,
    written back at that row block's last column block. -/
theorem cover0_3 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 128 := N_0
  have htlt : 16 * ((i 0).val / 2048) + 15 < cfg0.N := by rw [hN]; omega
  refine ⟨⟨16 * ((i 0).val / 2048) + 15, htlt⟩, (flush0_3 _).mpr (by show (16 * ((i 0).val / 2048) + 15) % 16 = 15; omega), ?_⟩
  rw [mem_blk0_3]
  obtain ⟨-, -, -, -, -, -, e6, e7⟩ := idx_facts0 ⟨16 * ((i 0).val / 2048) + 15, htlt⟩
  have e6' : win0_3.index ⟨16 * ((i 0).val / 2048) + 15, htlt⟩ (0 : Fin 2) = (16 * ((i 0).val / 2048) + 15) / 16 := e6
  intro a
  match a with
  | ⟨0, _⟩ =>
    show win0_3.index ⟨16 * ((i 0).val / 2048) + 15, htlt⟩ (0 : Fin 2) * 2048 ≤ (i 0).val ∧ (i 0).val < win0_3.index ⟨16 * ((i 0).val / 2048) + 15, htlt⟩ (0 : Fin 2) * 2048 + 2048
    omega
  | ⟨1, _⟩ =>
    show win0_3.index ⟨16 * ((i 0).val / 2048) + 15, htlt⟩ (1 : Fin 2) * 64 ≤ (i 1).val ∧ (i 1).val < win0_3.index ⟨16 * ((i 0).val / 2048) + 15, htlt⟩ (1 : Fin 2) * 64 + 64
    omega

/-! ## The running sum, point by point -/

/-- One accumulation step at point t, whatever running sum it finds. -/
theorem step0_apply (c : Dev nD) (t : Fin cfg0.N) (xs : Vec Ideal S2048x64 .f32) (r : Fin 2048) (d : Fin 64) :
    k0_pay2 (iblk0 V c 0 t) (iblk0 V c 1 t) xs (ix2 r d)
      = xs (ix2 r d) + blockTerm (V c main_arg1) (V c main_arg0) (2048 * (t.val / 16) + r.val) d (t.val % 16) :=
  acc_step0 (V c main_arg1) (V c main_arg0) (iblk0 V c 0 t) (iblk0 V c 1 t) xs (2048 * (t.val / 16) + r.val) (t.val % 16) r d
    (fun j => iblk0_0_apply V c t r j) (fun j => iblk0_1_apply V c t j d)

/-- At a row block's first column block the running sum is the first block's term. -/
theorem runsum0_first (c : Dev nD) (t : Fin cfg0.N) (h0 : t.val % 16 = 0) (r : Fin 2048) (d : Fin 64) :
    (outsAt0 V c t.val t.isLt).2 (ix2 r d)
      = partialAgg (V c main_arg1) (V c main_arg0) (2048 * (t.val / 16) + r.val) d (t.val % 16 + 1) := by
  rw [outsAt0_A V c t h0, stepA0_snd, step0_apply, pay01_apply, zero_add, h0, Nat.zero_add, partialAgg_one]

/-- At a later column block it is the sum the point before left plus this block's term. -/
theorem runsum0_next (c : Dev nD) (t : Fin cfg0.N) (h0 : ¬t.val % 16 = 0) (r : Fin 2048) (d : Fin 64)
    (ih : (outsAt0 V c (t.val - 1) (Nat.lt_of_le_of_lt (Nat.sub_le _ _) t.isLt)).2 (ix2 r d)
      = partialAgg (V c main_arg1) (V c main_arg0) (2048 * ((t.val - 1) / 16) + r.val) d ((t.val - 1) % 16 + 1)) :
    (outsAt0 V c t.val t.isLt).2 (ix2 r d)
      = partialAgg (V c main_arg1) (V c main_arg0) (2048 * (t.val / 16) + r.val) d (t.val % 16 + 1) := by
  have e1 : (t.val - 1) / 16 = t.val / 16 := by omega
  have e2 : (t.val - 1) % 16 + 1 = t.val % 16 := by omega
  rw [e1, e2] at ih
  by_cases h1 : t.val % 16 = 15
  · rw [outsAt0_C V c t h1, stepC0_snd, step0_apply, ih, partialAgg_succ]
  · rw [outsAt0_B V c t h0 h1, stepB0_snd, step0_apply, ih, partialAgg_succ]

/-- THE RUNNING SUM after point n, at (r, d): the terms of the column blocks 0 .. n % 16 of row 2048·(n/16) + r. -/
theorem runsum0 (c : Dev nD) : ∀ (n : ℕ) (hn : n < cfg0.N) (r : Fin 2048) (d : Fin 64),
    (outsAt0 V c n hn).2 (ix2 r d)
      = partialAgg (V c main_arg1) (V c main_arg0) (2048 * (n / 16) + r.val) d (n % 16 + 1) := by
  intro n
  induction n with
  | zero => intro hn r d; exact runsum0_first V c ⟨0, hn⟩ (Nat.zero_mod 16) r d
  | succ n ih =>
    intro hn r d
    by_cases h0 : (n + 1) % 16 = 0
    · exact runsum0_first V c ⟨n + 1, hn⟩ h0 r d
    · exact runsum0_next V c ⟨n + 1, hn⟩ h0 r d (ih (Nat.lt_of_succ_lt hn) r d)

/-! ## What a last column block writes back, and the array after the region -/

/-- WHAT POINT t WRITES BACK (t a last column block) is its row block of the layer. -/
theorem flushed0_3_eq (c : Dev nD) (t : Fin cfg0.N) (h1 : t.val % 16 = 15) :
    (dat0 V c).flushed 3 t
      = ((cfg0.win 3).blk t).view.read (Elt Ideal) (layerK (V c main_arg1) (V c main_arg0) (V c main_v0)) := by
  show (cfg0.win 3).cut (grid0.coords t) ((dat0 V c).after 3 t) = _
  rw [after0_3, outsAt0_C V c t h1, stepC0_fst]
  funext y
  have ht : t.val < 128 := lt_of_lt_of_eq t.isLt N_0
  obtain ⟨-, -, -, -, -, -, e6, e7⟩ := idx_facts0 t
  refine out_block0 (V c main_arg1) (V c main_arg0) (V c main_v0) _ (iblk0 V c 2 t) (2048 * (t.val / 16)) y
    (((cfg0.win 3).blk t).view.emb y) ?_ ?_ ?_ (fun d o => iblk0_2_apply V c t d o)
  · show win0_3.index t (0 : Fin 2) * 2048 + 1 * (y 0).val = 2048 * (t.val / 16) + (y 0).val
    omega
  · show win0_3.index t (1 : Fin 2) * 64 + 1 * (y 1).val = (y 1).val
    omega
  · intro r d h
    have hrun := runsum0 V c t.val t.isLt r d
    rw [outsAt0_C V c t h1, stepC0_snd, h1] at hrun
    exact hrun.trans (partialAgg_full (V c main_arg1) (V c main_arg0) ⟨2048 * (t.val / 16) + r.val, h⟩ d)

/-- THE OUTPUT ARRAY after the region: the layer of the arrays the region finds. -/
theorem final0 (c : Dev nD) :
    (dat0 (F := Ideal) V c).arrAt 3 cfg0.N = layerK (V c main_arg1) (V c main_arg0) (V c main_v0) :=
  (dat0 V c).arrAt_eq_of_cover 3 (layerK (V c main_arg1) (V c main_arg0) (V c main_v0))
    (fun t ht => flushed0_3_eq V c t ((flush0_3 t).mp ht)) cover0_3

end Cert.KernelIdeal.Hand

end
-- ==== Proof.Ideal.Layer1Pieces.lean ====
/-
  What each case of a layer's kernel body leaves, in closed form: the running sum after a point is the payload
  "sum so far plus this block's product" of the point's two input blocks and of the sum before it (the zero block at a
  first column block); the output row block a last column block stores is the payload "finished sum times weights,
  clipped at zero". Each is read off the case's run: a whole-buffer store read back whole is its payload.
-/
import proofs.«142809_j11622181503541_2_alg».proof.Proof.Ideal.Layer1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero_offsets1 : (![0, 0] : Fin 2 → Nat) = fun _ => 0 := funext fun a => by fin_cases a <;> rfl

theorem sout1_A_eq (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x1024 .f32) (x1 : Vec F S1024x64 .f32) :
    sout1_A c i arg2 harg2 arg3 harg3 arg4 harg4 arg5 harg5 arg6 harg6 hc0 hc1 x0 x1 = k1_pay2 x0 x1 (k1_pay1 (F := F)) := by
  unfold sout1_A
  rw [View.read_writes_eq_canon _ _ _ (scover1_A c i arg2 harg2 arg3 harg3 arg4 harg4 arg5 harg5 arg6 harg6 hc0 hc1 x0 x1)]
  unfold kernelRun1_A
  dsimp only
  refine (View.canon_cons_unit_zero (S := S2048x64) zero_offsets1 _ _ _).trans ?_
  sl_unfold_run_names
  simp only [View.readAt_eq_ld, harg2.read_unread, harg3.read_unread, harg4.read_unread, harg6.read_unread, View.ld_unit_zero (S := S2048x1024) zero_offsets1, View.ld_unit_zero (S := S1024x64) zero_offsets1, View.ld_unit_zero (S := S64x64) zero_offsets1, View.ld_unit_zero (S := S2048x64) zero_offsets1, View.readCov_unit_zero (S := S2048x64) _ zero_offsets1]

theorem sout1_B_eq (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x1024 .f32) (x1 : Vec F S1024x64 .f32) (xs0 : Vec F S2048x64 .f32) :
    sout1_B c i arg2 harg2 arg3 harg3 arg4 harg4 arg5 harg5 arg6 harg6 hc0 hc1 x0 x1 xs0 = k1_pay2 x0 x1 xs0 := by
  unfold sout1_B
  rw [View.read_writes_eq_canon _ _ _ (scover1_B c i arg2 harg2 arg3 harg3 arg4 harg4 arg5 harg5 arg6 harg6 hc0 hc1 x0 x1 xs0)]
  unfold kernelRun1_B
  dsimp only
  refine (View.canon_cons_unit_zero (S := S2048x64) zero_offsets1 _ _ _).trans ?_
  sl_unfold_run_names
  simp only [View.readAt_eq_ld, harg2.read_unread, harg3.read_unread, harg4.read_unread, harg6.read_unread, View.ld_unit_zero (S := S2048x1024) zero_offsets1, View.ld_unit_zero (S := S1024x64) zero_offsets1, View.ld_unit_zero (S := S64x64) zero_offsets1, View.ld_unit_zero (S := S2048x64) zero_offsets1, View.readCov_unit_zero (S := S2048x64) _ zero_offsets1]

theorem sout1_C_eq (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) :
    sout1_C c i arg2 harg2 arg3 harg3 arg4 harg4 arg5 harg5 arg6 harg6 hc0 hc1 x0 x1 x2 xs0 = k1_pay2 x0 x1 xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  refine (View.canon_cons_unit_zero (S := S2048x64) zero_offsets1 _ _ _).trans ?_
  sl_unfold_run_names
  simp only [View.readAt_eq_ld, harg2.read_unread, harg3.read_unread, harg4.read_unread, harg6.read_unread, View.ld_unit_zero (S := S2048x1024) zero_offsets1, View.ld_unit_zero (S := S1024x64) zero_offsets1, View.ld_unit_zero (S := S64x64) zero_offsets1, View.ld_unit_zero (S := S2048x64) zero_offsets1, View.readCov_unit_zero (S := S2048x64) _ zero_offsets1]

theorem out1_C_eq (c : Dev nD) (i : grid1.Coords) (arg2 : Memref sig .tc .vmem S2048x1024 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x1024 .f32) (x1 : Vec F S1024x64 .f32) (x2 : Vec F S64x64 .f32) (xs0 : Vec F S2048x64 .f32) :
    out1_C c i arg2 harg2 arg3 harg3 arg4 harg4 arg5 harg5 arg6 harg6 hc0 hc1 x0 x1 x2 xs0 = k1_pay3 (k1_pay2 x0 x1 xs0) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  refine (View.canon_cons_unit_zero (S := S2048x64) zero_offsets1 _ _ _).trans ?_
  sl_unfold_run_names
  simp only [View.readAt_eq_ld, harg2.read_unread, harg3.read_unread, harg4.read_unread, harg6.read_unread, View.ld_unit_zero (S := S2048x1024) zero_offsets1, View.ld_unit_zero (S := S1024x64) zero_offsets1, View.ld_unit_zero (S := S64x64) zero_offsets1, View.ld_unit_zero (S := S2048x64) zero_offsets1, View.readCov_unit_zero (S := S2048x64) _ zero_offsets1]

variable (V : (c : Dev nD) → (b : Ref sig .tc) → Buf (Elt F) ((c : Thread nD τ).loc b))

/-- The running sum after a first column block: the zero block plus the block's product. -/
theorem stepA1_snd (c : Dev nD) (t : Fin cfg1.N) (h0 : t.val % 16 = 0) :
    (stepA1 V c t h0).2 = k1_pay2 (iblk1 V c 0 t) (iblk1 V c 1 t) (k1_pay1 (F := F)) := by
  unfold stepA1; rw [sout1_A_eq]
/-- … after a middle column block: the sum before plus the block's product. -/
theorem stepB1_snd (c : Dev nD) (t : Fin cfg1.N) (h0 : ¬t.val % 16 = 0) (h1 : ¬t.val % 16 = 15) (xs : Vec F S2048x64 .f32) :
    (stepB1 V c t h0 h1 xs).2 = k1_pay2 (iblk1 V c 0 t) (iblk1 V c 1 t) xs := by
  unfold stepB1; rw [sout1_B_eq]
/-- … after a last column block. -/
theorem stepC1_snd (c : Dev nD) (t : Fin cfg1.N) (h1 : t.val % 16 = 15) (xs : Vec F S2048x64 .f32) :
    (stepC1 V c t h1 xs).2 = k1_pay2 (iblk1 V c 0 t) (iblk1 V c 1 t) xs := by
  unfold stepC1; rw [sout1_C_eq]
/-- The output row block a last column block stores: the finished sum times the weights, clipped at zero. -/
theorem stepC1_fst (c : Dev nD) (t : Fin cfg1.N) (h1 : t.val % 16 = 15) (xs : Vec F S2048x64 .f32) :
    (stepC1 V c t h1 xs).1 = k1_pay3 (k1_pay2 (iblk1 V c 0 t) (iblk1 V c 1 t) xs) (iblk1 V c 2 t) := by
  unfold stepC1; rw [out1_C_eq]

end Cert.KernelIdeal.Hand

end
-- ==== Proof.Ideal.Layer1Array.lean ====
/-
  From the blocks of a layer kernel's grid to the output array.

  Point t of the 8 × 16 grid works on row block t / 16 and column block t % 16. Its adjacency block holds rows
  2048·(t/16) .. and columns 1024·(t%16) .. of the adjacency, its feature block rows 1024·(t%16) .. of the features,
  its weight block the whole (transposed) weight matrix. By induction on the point the running sum after point t
  holds, at (r, d), the sum over the column blocks 0 .. t%16 of Σ_j A(row, 1024k + j)·Y(1024k + j, d) for
  row = 2048·(t/16) + r; at a last column block that is the specification's adjacency-weighted feature sum, and what
  the point writes back is its row block of the layer. The eight row blocks cover the output array.
-/
import proofs.«142809_j11622181503541_2_alg».proof.Proof.Ideal.Layer1Pieces
import proofs.«142809_j11622181503541_2_alg».proof.Proof.Ideal.LayerMath
import Idealize.ShloMosaic.Lib.Pipeline.Value

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen Cert.KernelIdeal.HandValue Idealize.ShloMosaic.ValueIdx
open scoped BigOperators

variable (V : (c : Dev nD) → (b : Ref sig .tc) → Buf (Elt Ideal) ((c : Thread nD τ).loc b))

/-! ## Where the windows' blocks sit -/

/-- The printed index maps over the grid: point t is row block t / 16, column block t % 16. -/
theorem idx_facts1 : ∀ t : Fin cfg1.N, win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- The adjacency block of point t, at (r, j): row 2048·(t/16) + r, column 1024·(t%16) + j of the adjacency. -/
theorem iblk1_0_apply (c : Dev nD) (t : Fin cfg1.N) (r : Fin 2048) (j : Fin 1024) :
    iblk1 V c 0 t (ix2 r j) = atN2 16384 16384 (V c main_arg1) (2048 * (t.val / 16) + r.val) (1024 * (t.val % 16) + j.val) := by
  have ht : t.val < 128 := lt_of_lt_of_eq t.isLt N_1
  have hr : r.val < 2048 := r.isLt
  have hj : j.val < 1024 := j.isLt
  have ha : 2048 * (t.val / 16) + r.val < 16384 := by omega
  have hb : 1024 * (t.val % 16) + j.val < 16384 := by omega
  rw [atN2_of_lt 16384 16384 _ ha hb]
  obtain ⟨e0, e1, -⟩ := idx_facts1 t
  show V c main_arg1 (((cfg1.win 0).blk t).view.emb (ix2 r j)) = V c main_arg1 _
  refine congrArg (V c main_arg1) (funext fun a => Fin.ext ?_)
  match a with
  | ⟨0, _⟩ => show win1_0.index t (0 : Fin 2) * 2048 + 1 * r.val = 2048 * (t.val / 16) + r.val; omega
  | ⟨1, _⟩ => show win1_0.index t (1 : Fin 2) * 1024 + 1 * j.val = 1024 * (t.val % 16) + j.val; omega

/-- The feature block of point t, at (j, d): row 1024·(t%16) + j, column d of the features. -/
theorem iblk1_1_apply (c : Dev nD) (t : Fin cfg1.N) (j : Fin 1024) (d : Fin 64) :
    iblk1 V c 1 t (ix2 j d) = atN2 16384 64 (V c main_v1) (1024 * (t.val % 16) + j.val) d.val := by
  have ht : t.val < 128 := lt_of_lt_of_eq t.isLt N_1
  have hj : j.val < 1024 := j.isLt
  have hb : 1024 * (t.val % 16) + j.val < 16384 := by omega
  rw [atN2_of_lt 16384 64 _ hb d.isLt]
  obtain ⟨-, -, e2, e3, -⟩ := idx_facts1 t
  show V c main_v1 (((cfg1.win 1).blk t).view.emb (ix2 j d)) = V c main_v1 _
  refine congrArg (V c main_v1) (funext fun a => Fin.ext ?_)
  match a with
  | ⟨0, _⟩ => show win1_1.index t (0 : Fin 2) * 1024 + 1 * j.val = 1024 * (t.val % 16) + j.val; omega
  | ⟨1, _⟩ => show win1_1.index t (1 : Fin 2) * 64 + 1 * d.val = d.val; omega

/-- The weight block of every point is the whole weight matrix. -/
theorem iblk1_2_apply (c : Dev nD) (t : Fin cfg1.N) (d o : Fin 64) :
    iblk1 V c 2 t (ix2 d o) = V c main_v2 (ix2 d o) := by
  obtain ⟨-, -, -, -, e4, e5, -⟩ := idx_facts1 t
  show V c main_v2 (((cfg1.win 2).blk t).view.emb (ix2 d o)) = V c main_v2 _
  refine congrArg (V c main_v2) (funext fun a => Fin.ext ?_)
  match a with
  | ⟨0, _⟩ => show win1_2.index t (0 : Fin 2) * 64 + 1 * d.val = d.val; omega
  | ⟨1, _⟩ => show win1_2.index t (1 : Fin 2) * 64 + 1 * o.val = o.val; omega

/-- An index of the output array is in point t's block iff each coordinate is in the block's range on its axis. -/
theorem mem_blk1_3 (t : Fin cfg1.N) (i : S16384x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole main_v3).slice (win1_3.rect t)).set ↔ _
  rw [View.set_slice_whole, Rect.mem_set_unit]
  exact Iff.rfl

/-- Every index of the output array is in the block of a point that writes back: row n is in row block n / 2048,
    written back at that row block's last column block. -/
theorem cover1_3 (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 128 := N_1
  have htlt : 16 * ((i 0).val / 2048) + 15 < cfg1.N := by rw [hN]; omega
  refine ⟨⟨16 * ((i 0).val / 2048) + 15, htlt⟩, (flush1_3 _).mpr (by show (16 * ((i 0).val / 2048) + 15) % 16 = 15; omega), ?_⟩
  rw [mem_blk1_3]
  obtain ⟨-, -, -, -, -, -, e6, e7⟩ := idx_facts1 ⟨16 * ((i 0).val / 2048) + 15, htlt⟩
  have e6' : win1_3.index ⟨16 * ((i 0).val / 2048) + 15, htlt⟩ (0 : Fin 2) = (16 * ((i 0).val / 2048) + 15) / 16 := e6
  intro a
  match a with
  | ⟨0, _⟩ =>
    show win1_3.index ⟨16 * ((i 0).val / 2048) + 15, htlt⟩ (0 : Fin 2) * 2048 ≤ (i 0).val ∧ (i 0).val < win1_3.index ⟨16 * ((i 0).val / 2048) + 15, htlt⟩ (0 : Fin 2) * 2048 + 2048
    omega
  | ⟨1, _⟩ =>
    show win1_3.index ⟨16 * ((i 0).val / 2048) + 15, htlt⟩ (1 : Fin 2) * 64 ≤ (i 1).val ∧ (i 1).val < win1_3.index ⟨16 * ((i 0).val / 2048) + 15, htlt⟩ (1 : Fin 2) * 64 + 64
    omega

/-! ## The running sum, point by point -/

/-- One accumulation step at point t, whatever running sum it finds. -/
theorem step1_apply (c : Dev nD) (t : Fin cfg1.N) (xs : Vec Ideal S2048x64 .f32) (r : Fin 2048) (d : Fin 64) :
    k1_pay2 (iblk1 V c 0 t) (iblk1 V c 1 t) xs (ix2 r d)
      = xs (ix2 r d) + blockTerm (V c main_arg1) (V c main_v1) (2048 * (t.val / 16) + r.val) d (t.val % 16) :=
  acc_step1 (V c main_arg1) (V c main_v1) (iblk1 V c 0 t) (iblk1 V c 1 t) xs (2048 * (t.val / 16) + r.val) (t.val % 16) r d
    (fun j => iblk1_0_apply V c t r j) (fun j => iblk1_1_apply V c t j d)

/-- At a row block's first column block the running sum is the first block's term. -/
theorem runsum1_first (c : Dev nD) (t : Fin cfg1.N) (h0 : t.val % 16 = 0) (r : Fin 2048) (d : Fin 64) :
    (outsAt1 V c t.val t.isLt).2 (ix2 r d)
      = partialAgg (V c main_arg1) (V c main_v1) (2048 * (t.val / 16) + r.val) d (t.val % 16 + 1) := by
  rw [outsAt1_A V c t h0, stepA1_snd, step1_apply, pay11_apply, zero_add, h0, Nat.zero_add, partialAgg_one]

/-- At a later column block it is the sum the point before left plus this block's term. -/
theorem runsum1_next (c : Dev nD) (t : Fin cfg1.N) (h0 : ¬t.val % 16 = 0) (r : Fin 2048) (d : Fin 64)
    (ih : (outsAt1 V c (t.val - 1) (Nat.lt_of_le_of_lt (Nat.sub_le _ _) t.isLt)).2 (ix2 r d)
      = partialAgg (V c main_arg1) (V c main_v1) (2048 * ((t.val - 1) / 16) + r.val) d ((t.val - 1) % 16 + 1)) :
    (outsAt1 V c t.val t.isLt).2 (ix2 r d)
      = partialAgg (V c main_arg1) (V c main_v1) (2048 * (t.val / 16) + r.val) d (t.val % 16 + 1) := by
  have e1 : (t.val - 1) / 16 = t.val / 16 := by omega
  have e2 : (t.val - 1) % 16 + 1 = t.val % 16 := by omega
  rw [e1, e2] at ih
  by_cases h1 : t.val % 16 = 15
  · rw [outsAt1_C V c t h1, stepC1_snd, step1_apply, ih, partialAgg_succ]
  · rw [outsAt1_B V c t h0 h1, stepB1_snd, step1_apply, ih, partialAgg_succ]

/-- THE RUNNING SUM after point n, at (r, d): the terms of the column blocks 0 .. n % 16 of row 2048·(n/16) + r. -/
theorem runsum1 (c : Dev nD) : ∀ (n : ℕ) (hn : n < cfg1.N) (r : Fin 2048) (d : Fin 64),
    (outsAt1 V c n hn).2 (ix2 r d)
      = partialAgg (V c main_arg1) (V c main_v1) (2048 * (n / 16) + r.val) d (n % 16 + 1) := by
  intro n
  induction n with
  | zero => intro hn r d; exact runsum1_first V c ⟨0, hn⟩ (Nat.zero_mod 16) r d
  | succ n ih =>
    intro hn r d
    by_cases h0 : (n + 1) % 16 = 0
    · exact runsum1_first V c ⟨n + 1, hn⟩ h0 r d
    · exact runsum1_next V c ⟨n + 1, hn⟩ h0 r d (ih (Nat.lt_of_succ_lt hn) r d)

/-! ## What a last column block writes back, and the array after the region -/

/-- WHAT POINT t WRITES BACK (t a last column block) is its row block of the layer. -/
theorem flushed1_3_eq (c : Dev nD) (t : Fin cfg1.N) (h1 : t.val % 16 = 15) :
    (dat1 V c).flushed 3 t
      = ((cfg1.win 3).blk t).view.read (Elt Ideal) (layerK (V c main_arg1) (V c main_v1) (V c main_v2)) := by
  show (cfg1.win 3).cut (grid1.coords t) ((dat1 V c).after 3 t) = _
  rw [after1_3, outsAt1_C V c t h1, stepC1_fst]
  funext y
  have ht : t.val < 128 := lt_of_lt_of_eq t.isLt N_1
  obtain ⟨-, -, -, -, -, -, e6, e7⟩ := idx_facts1 t
  refine out_block1 (V c main_arg1) (V c main_v1) (V c main_v2) _ (iblk1 V c 2 t) (2048 * (t.val / 16)) y
    (((cfg1.win 3).blk t).view.emb y) ?_ ?_ ?_ (fun d o => iblk1_2_apply V c t d o)
  · show win1_3.index t (0 : Fin 2) * 2048 + 1 * (y 0).val = 2048 * (t.val / 16) + (y 0).val
    omega
  · show win1_3.index t (1 : Fin 2) * 64 + 1 * (y 1).val = (y 1).val
    omega
  · intro r d h
    have hrun := runsum1 V c t.val t.isLt r d
    rw [outsAt1_C V c t h1, stepC1_snd, h1] at hrun
    exact hrun.trans (partialAgg_full (V c main_arg1) (V c main_v1) ⟨2048 * (t.val / 16) + r.val, h⟩ d)

/-- THE OUTPUT ARRAY after the region: the layer of the arrays the region finds. -/
theorem final1 (c : Dev nD) :
    (dat1 (F := Ideal) V c).arrAt 3 cfg1.N = layerK (V c main_arg1) (V c main_v1) (V c main_v2) :=
  (dat1 V c).arrAt_eq_of_cover 3 (layerK (V c main_arg1) (V c main_v1) (V c main_v2))
    (fun t ht => flushed1_3_eq V c t ((flush1_3 t).mp ht)) cover1_3

end Cert.KernelIdeal.Hand

end
-- ==== Proof.Ideal.ScorerValue.lean ====
/-
  The edge scorer's stored block, entry by entry, on extended reals. Row r of the block of 8192 scores is
  Σ_j logistic(Σ_k hs(r,k)·Wa(k,j) + Σ_k hd(r,k)·Wb(k,j) + b(0,j)) · w(j,0), where hs and hd are the two gathered
  feature blocks, Wa and Wb the two 64 by 64 weight halves, b the bias row and w the last weight column. The
  three block products each contract one axis, so each is a sum over 64 positions; the bias row is broadcast
  over the rows; rounding to the narrower float format is the identity on extended reals.
-/
import proofs.«142809_j11622181503541_2_alg».proof.Proof.Ideal.Scorer
import proofs.«142809_j11622181503541_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen
open scoped BigOperators

/-! ## The scorer's three block products at an index

Each has one contracted axis: the left operand's columns against the right operand's rows. The operand indices at
output index (r, j) and contraction index k are (r, k) and (k, j). -/

theorem lhs_feat_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_feat_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_feat_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_feat_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A block of 8192 feature rows times a 64 by 64 weight half, into a zero accumulator, at row `r` and column `j`:
    the sum over the 64 features of the row's entry times the weight's. -/
theorem matmul_feat_apply (a : FVec Ideal S8192x64 .bf16) (b : FVec Ideal S64x64 .bf16) (r : Fin 8192) (j : Fin 64) :
    matmul dot_S8192x64_S64x64_S8192x64_1_0_0_1_n_n none a b (constant (F := Ideal) S8192x64 .f32 0x00000000#32) (ix2 r j)
      = ∑ k : Fin 64, a (ix2 r k) * b (ix2 k j) := by
  refine (Ideal.matmul_constant_zero_apply dot_S8192x64_S64x64_S8192x64_1_0_0_1_n_n none a b (ix2 r j)).trans ?_
  rw [← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 r j) ((contrEquiv1 dot_S8192x64_S64x64_S8192x64_1_0_0_1_n_n 64 rfl rfl).symm k) = ix2 r k := funext fun ax => Fin.ext (by
    match ax with
    | ⟨0, _⟩ => exact lhs_feat_0 _ _
    | ⟨1, _⟩ => exact (lhs_feat_1 _ _).trans hk)
  have er : dot_S8192x64_S64x64_S8192x64_1_0_0_1_n_n.rhsIdx (ix2 r j) ((contrEquiv1 dot_S8192x64_S64x64_S8192x64_1_0_0_1_n_n 64 rfl rfl).symm k) = ix2 k j := funext fun ax => Fin.ext (by
    match ax with
    | ⟨0, _⟩ => exact (rhs_feat_0 _ _).trans hk
    | ⟨1, _⟩ => exact rhs_feat_1 _ _)
  rw [el, er]

theorem lhs_col_0 (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
theorem lhs_col_1 (i : S8192x1.Idx) (q : dot_S8192x64_S64x1_S8192x1_1_0_0_1_n_n.contr.Idx) :
    (dot_S8192x64_S64x1_S8192x1_1_0_0_1_n_n.lhsIdx i q 1).val = (q ⟨0, by decide⟩).val :=
  dot_S8192x64_S64x1_S8192x1_1_0_0_1_n_n.lhsIdx_val_of_single rfl i q
theorem rhs_col_0 (i : S8192x1.Idx) (q : dot_S8192x64_S64x1_S8192x1_1_0_0_1_n_n.contr.Idx) :
    (dot_S8192x64_S64x1_S8192x1_1_0_0_1_n_n.rhsIdx i q 0).val = (q ⟨0, by decide⟩).val :=
  dot_S8192x64_S64x1_S8192x1_1_0_0_1_n_n.rhsIdx_val_of_single rfl i q
theorem rhs_col_1 (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl

/-- A block of 8192 activation rows times the last weight column, into a zero accumulator, at row `r`: the sum over
    the 64 hidden units of the row's activation times the column's weight. -/
theorem matmul_col_apply (a : FVec Ideal S8192x64 .bf16) (b : FVec Ideal S64x1 .bf16) (r : Fin 8192) (j : Fin 1) :
    matmul dot_S8192x64_S64x1_S8192x1_1_0_0_1_n_n none a b (constant (F := Ideal) S8192x1 .f32 0x00000000#32) (ix2 r j)
      = ∑ k : Fin 64, a (ix2 r k) * b (ix2 k j) := by
  refine (Ideal.matmul_constant_zero_apply dot_S8192x64_S64x1_S8192x1_1_0_0_1_n_n none a b (ix2 r j)).trans ?_
  rw [← Equiv.sum_comp (contrEquiv1 dot_S8192x64_S64x1_S8192x1_1_0_0_1_n_n 64 rfl rfl).symm]
  refine Finset.sum_congr rfl fun k _ => ?_
  have hk := contrEquiv1_symm_val dot_S8192x64_S64x1_S8192x1_1_0_0_1_n_n 64 rfl rfl k
  have el : dot_S8192x64_S64x1_S8192x1_1_0_0_1_n_n.lhsIdx (ix2 r j) ((contrEquiv1 dot_S8192x64_S64x1_S8192x1_1_0_0_1_n_n 64 rfl rfl).symm k) = ix2 r k := funext fun ax => Fin.ext (by
    match ax with
    | ⟨0, _⟩ => exact lhs_col_0 _ _
    | ⟨1, _⟩ => exact (lhs_col_1 _ _).trans hk)
  have er : dot_S8192x64_S64x1_S8192x1_1_0_0_1_n_n.rhsIdx (ix2 r j) ((contrEquiv1 dot_S8192x64_S64x1_S8192x1_1_0_0_1_n_n 64 rfl rfl).symm k) = ix2 k j := funext fun ax => Fin.ext (by
    match ax with
    | ⟨0, _⟩ => exact (rhs_col_0 _ _).trans hk
    | ⟨1, _⟩ => exact rhs_col_1 _ _)
  rw [el, er]

/-! ## The stored block at an index -/

/-- The body's payload at row `r`: both feature rows against their weight halves, plus the bias, squashed by the
    logistic function and contracted with the last weight column. Rounding to the narrower float format and a cast
    to the same shape change nothing on extended reals. -/
theorem k2_pay1_apply (v0 v3 : Vec Ideal S8192x64 .f32) (v6 v9 : Vec Ideal S64x64 .f32) (v15 : Vec Ideal S1x64 .f32) (v21 : Vec Ideal S64x1 .f32) (r : Fin 8192) :
    k2_pay1 (F := Ideal) v0 v3 v6 v9 v15 v21 (ix2 r (0 : Fin 1))
      = ∑ j : Fin 64, Ideal.logistic ((∑ k : Fin 64, v0 (ix2 r k) * v6 (ix2 k j)) + (∑ k : Fin 64, v3 (ix2 r k) * v9 (ix2 k j)) + v15 (ix2 (0 : Fin 1) j)) * v21 (ix2 j (0 : Fin 1)) := by
  unfold k2_pay1
  simp only [shapeCast_self]
  refine (matmul_col_apply _ _ r 0).trans ?_
  refine Finset.sum_congr rfl fun j _ => ?_
  show Ideal.logistic ((matmul dot_S8192x64_S64x64_S8192x64_1_0_0_1_n_n none _ _ (constant (F := Ideal) S8192x64 .f32 0x00000000#32) (ix2 r j)
      + matmul dot_S8192x64_S64x64_S8192x64_1_0_0_1_n_n none _ _ (constant (F := Ideal) S8192x64 .f32 0x00000000#32) (ix2 r j))
      + broadcastTo S8192x64 v15 broadcasts_S1x64_S8192x64 (ix2 r j)) * v21 (ix2 j (0 : Fin 1)) = _
  rw [matmul_feat_apply, matmul_feat_apply, broadcastTo_1b_ab_apply]
  rfl

/-- The offsets of a whole-buffer rectangle are zero on both axes. -/
theorem zero_offsets2 : (![0, 0] : Fin 2 → Nat) = fun _ => 0 := funext fun a => by fin_cases a <;> rfl

/-- What the body leaves in the output window's buffer, at row `r`: the score of that row of the two feature
    blocks. The one store is through the whole buffer and the loads read the whole blocks, so the buffer is the
    payload of the blocks themselves. -/
theorem out2_6_apply (x0 x1 : Vec Ideal S8192x64 .f32) (x2 x3 : Vec Ideal S64x64 .f32) (x4 : Vec Ideal S1x64 .f32) (x5 : Vec Ideal S64x1 .f32) (r : Fin 8192) :
    out2_6 (F := Ideal) x0 x1 x2 x3 x4 x5 (ValueIdx.ix2 r (0 : Fin 1))
      = ∑ j : Fin 64, Ideal.logistic ((∑ k : Fin 64, x0 (ix2 r k) * x2 (ix2 k j)) + (∑ k : Fin 64, x1 (ix2 r k) * x3 (ix2 k j)) + x4 (ix2 (0 : Fin 1) j)) * x5 (ix2 j (0 : Fin 1)) := by
  unfold out2_6
  rw [View.canon_unit_zero zero_offsets2]
  simp only [View.ld_unit_zero (S := S8192x64) zero_offsets2, View.ld_unit_zero (S := S64x64) zero_offsets2,
    View.ld_unit_zero (S := S1x64) zero_offsets2, View.ld_unit_zero (S := S64x1) zero_offsets2]
  exact k2_pay1_apply x0 x1 x2 x3 x4 x5 r

end Cert.KernelIdeal.Hand

end
-- ==== Proof.Ideal.ScorerArray.lean ====
/-
  From the scorer's blocks to its whole score array. Point t of the grid writes back the scores of edges
  8192 t … 8192 t + 8191, each the score of that row of the two gathered feature arrays under the four parameter
  arrays; the 128 blocks tile the 1048576 edges, so after the last point the score array is one function of the six
  operand arrays as the region found them.
-/
import proofs.«142809_j11622181503541_2_alg».proof.Proof.Ideal.ScorerValue
import proofs.«142809_j11622181503541_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window BodyObligation cellOf)
open Cert.KernelIdeal Cert.KernelIdeal.Gen

/-! ## The scorer as one function of its six operand arrays -/

/-- The score of edge `i 0`: both gathered feature rows of the edge against their weight halves, plus the bias,
    squashed by the logistic function and contracted with the last weight column. -/
def scoreK (hs hd : S1048576x64.Idx → EReal) (w1s w1d : S64x64.Idx → EReal) (b1 : S1x64.Idx → EReal) (w3 : S64x1.Idx → EReal) : S1048576x1.Idx → EReal :=
  fun i => ∑ j : Fin 64, Ideal.logistic ((∑ k : Fin 64, hs (ix2 (⟨(i 0).val, (i 0).isLt⟩ : Fin 1048576) k) * w1s (ix2 k j)) + (∑ k : Fin 64, hd (ix2 ⟨(i 0).val, (i 0).isLt⟩ k) * w1d (ix2 k j)) + b1 (ix2 (0 : Fin 1) j)) * w3 (ix2 j (0 : Fin 1))

section Regions
variable (V : (c : Dev nD) → (b : Ref sig .tc) → Buf (Elt Ideal) ((c : Thread nD τ).loc b))

/-! ## Where each window's block sits at a point -/

/-- The index maps over the grid: at point `t` the two feature windows and the output window are on row block `t`;
    the four parameter windows are always on their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of feature window 0's block at point `t` is row `8192 t + p` of its array. -/
theorem iblk2_0_apply (c : Dev nD) (t : Fin cfg2.N) (p : Fin 8192) (k : Fin 64) (n : Fin 1048576) (hn : n.val = t.val * 8192 + p.val) :
    iblk2 V c 0 t (ix2 p k) = V c main_v10 (ix2 n k) := by
  show V c main_v10 (((cfg2.win 0).blk t).view.emb (ix2 p k)) = V c main_v10 (ix2 n k)
  have hemb : ((cfg2.win 0).blk t).view.emb (ix2 p k) = ix2 n k := by
    obtain ⟨e00, e01, e10, e11, -⟩ := idx_facts2 t
    funext a; apply Fin.ext
    match a with
    | ⟨0, _⟩ => show win2_0.index t (0 : Fin 2) * 8192 + 1 * p.val = n.val; omega
    | ⟨1, _⟩ => show win2_0.index t (1 : Fin 2) * 64 + 1 * k.val = k.val; omega
  rw [hemb]

/-- Row `p` of feature window 1's block at point `t` is row `8192 t + p` of its array. -/
theorem iblk2_1_apply (c : Dev nD) (t : Fin cfg2.N) (p : Fin 8192) (k : Fin 64) (n : Fin 1048576) (hn : n.val = t.val * 8192 + p.val) :
    iblk2 V c 1 t (ix2 p k) = V c main_v17 (ix2 n k) := by
  show V c main_v17 (((cfg2.win 1).blk t).view.emb (ix2 p k)) = V c main_v17 (ix2 n k)
  have hemb : ((cfg2.win 1).blk t).view.emb (ix2 p k) = ix2 n k := by
    obtain ⟨e00, e01, e10, e11, -⟩ := idx_facts2 t
    funext a; apply Fin.ext
    match a with
    | ⟨0, _⟩ => show win2_1.index t (0 : Fin 2) * 8192 + 1 * p.val = n.val; omega
    | ⟨1, _⟩ => show win2_1.index t (1 : Fin 2) * 64 + 1 * k.val = k.val; omega
  rw [hemb]

/-- Parameter window 2's block is its whole array at every point. -/
theorem iblk2_2_apply (c : Dev nD) (t : Fin cfg2.N) (p : Fin 64) (k : Fin 64) :
    iblk2 V c 2 t (ix2 p k) = V c main_v19 (ix2 p k) := by
  show V c main_v19 (((cfg2.win 2).blk t).view.emb (ix2 p k)) = V c main_v19 (ix2 p k)
  have hemb : ((cfg2.win 2).blk t).view.emb (ix2 p k) = ix2 p k := by
    obtain ⟨-, -, -, -, e20, e21, e30, e31, e40, e41, e50, e51, -⟩ := idx_facts2 t
    funext a; apply Fin.ext
    match a with
    | ⟨0, _⟩ => show win2_2.index t (0 : Fin 2) * 64 + 1 * p.val = p.val; omega
    | ⟨1, _⟩ => show win2_2.index t (1 : Fin 2) * 64 + 1 * k.val = k.val; omega
  rw [hemb]

/-- Parameter window 3's block is its whole array at every point. -/
theorem iblk2_3_apply (c : Dev nD) (t : Fin cfg2.N) (p : Fin 64) (k : Fin 64) :
    iblk2 V c 3 t (ix2 p k) = V c main_v21 (ix2 p k) := by
  show V c main_v21 (((cfg2.win 3).blk t).view.emb (ix2 p k)) = V c main_v21 (ix2 p k)
  have hemb : ((cfg2.win 3).blk t).view.emb (ix2 p k) = ix2 p k := by
    obtain ⟨-, -, -, -, e20, e21, e30, e31, e40, e41, e50, e51, -⟩ := idx_facts2 t
    funext a; apply Fin.ext
    match a with
    | ⟨0, _⟩ => show win2_3.index t (0 : Fin 2) * 64 + 1 * p.val = p.val; omega
    | ⟨1, _⟩ => show win2_3.index t (1 : Fin 2) * 64 + 1 * k.val = k.val; omega
  rw [hemb]

/-- The bias row's block is its whole array at every point. -/
theorem iblk2_4_apply (c : Dev nD) (t : Fin cfg2.N) (p : Fin 1) (k : Fin 64) :
    iblk2 V c 4 t (ix2 p k) = V c main_v22 (ix2 p k) := by
  show V c main_v22 (((cfg2.win 4).blk t).view.emb (ix2 p k)) = V c main_v22 (ix2 p k)
  have hemb : ((cfg2.win 4).blk t).view.emb (ix2 p k) = ix2 p k := by
    obtain ⟨-, -, -, -, e20, e21, e30, e31, e40, e41, e50, e51, -⟩ := idx_facts2 t
    funext a; apply Fin.ext
    match a with
    | ⟨0, _⟩ => show win2_4.index t (0 : Fin 2) * 1 + 1 * p.val = p.val; omega
    | ⟨1, _⟩ => show win2_4.index t (1 : Fin 2) * 64 + 1 * k.val = k.val; omega
  rw [hemb]

/-- The last weight column's block is its whole array at every point. -/
theorem iblk2_5_apply (c : Dev nD) (t : Fin cfg2.N) (p : Fin 64) (k : Fin 1) :
    iblk2 V c 5 t (ix2 p k) = V c main_v23 (ix2 p k) := by
  show V c main_v23 (((cfg2.win 5).blk t).view.emb (ix2 p k)) = V c main_v23 (ix2 p k)
  have hemb : ((cfg2.win 5).blk t).view.emb (ix2 p k) = ix2 p k := by
    obtain ⟨-, -, -, -, e20, e21, e30, e31, e40, e41, e50, e51, -⟩ := idx_facts2 t
    funext a; apply Fin.ext
    match a with
    | ⟨0, _⟩ => show win2_5.index t (0 : Fin 2) * 64 + 1 * p.val = p.val; omega
    | ⟨1, _⟩ => show win2_5.index t (1 : Fin 2) * 1 + 1 * k.val = k.val; omega
  rw [hemb]

/-! ## What a point writes back -/

/-- Point `t` writes back block `t` of the scores of the operand arrays as the region finds them: row `p` of the
    stored block is the score of the rows `8192 t + p` of the two feature arrays. -/
theorem flushed2_6_eq (c : Dev nD) (t : Fin cfg2.N) :
    (dat2 (F := Ideal) V c).flushed 6 t
      = ((cfg2.win 6).blk t).view.read (Elt Ideal) (scoreK (V c main_v10) (V c main_v17) (V c main_v19) (V c main_v21) (V c main_v22) (V c main_v23)) := by
  show (cfg2.win 6).cut (grid2.coords t) ((dat2 V c).after 6 t) = _
  rw [after2_6]
  funext y
  have hy0 : (y 0).val < 8192 := (y 0).isLt
  have hy1 : (y 1).val < 1 := (y 1).isLt
  obtain ⟨-, -, -, -, -, -, -, -, -, -, -, -, e60, e61⟩ := idx_facts2 t
  have hz : (cfg2.win 6).xinj (grid2.coords t) y = ix2 (⟨(y 0).val, hy0⟩ : Fin 8192) (0 : Fin 1) := by
    funext a; apply Fin.ext
    match a with
    | ⟨0, _⟩ => rfl
    | ⟨1, _⟩ => show (y 1).val = 0; omega
  have hrow : ((((cfg2.win 6).blk t).view.emb y) 0).val = t.val * 8192 + (y 0).val := by
    show win2_6.index t (0 : Fin 2) * 8192 + 1 * (y 0).val = _; omega
  show out2_6 (iblk2 V c 0 t) (iblk2 V c 1 t) (iblk2 V c 2 t) (iblk2 V c 3 t) (iblk2 V c 4 t) (iblk2 V c 5 t) ((cfg2.win 6).xinj (grid2.coords t) y)
    = scoreK (V c main_v10) (V c main_v17) (V c main_v19) (V c main_v21) (V c main_v22) (V c main_v23) (((cfg2.win 6).blk t).view.emb y)
  rw [hz]
  refine (out2_6_apply (iblk2 V c 0 t) (iblk2 V c 1 t) (iblk2 V c 2 t) (iblk2 V c 3 t) (iblk2 V c 4 t) (iblk2 V c 5 t) ⟨(y 0).val, hy0⟩).trans ?_
  unfold scoreK
  refine Finset.sum_congr rfl fun j _ => ?_
  rw [iblk2_4_apply V c t (0 : Fin 1) j, iblk2_5_apply V c t j (0 : Fin 1)]
  have h0 : ∀ k : Fin 64, (iblk2 V c 0 t (ix2 (⟨(y 0).val, hy0⟩ : Fin 8192) k) : EReal)
      = V c main_v10 (ix2 (⟨((((cfg2.win 6).blk t).view.emb y) 0).val, ((((cfg2.win 6).blk t).view.emb y) 0).isLt⟩ : Fin 1048576) k) :=
    fun k => iblk2_0_apply V c t ⟨(y 0).val, hy0⟩ k ⟨((((cfg2.win 6).blk t).view.emb y) 0).val, ((((cfg2.win 6).blk t).view.emb y) 0).isLt⟩ hrow
  have h1 : ∀ k : Fin 64, (iblk2 V c 1 t (ix2 (⟨(y 0).val, hy0⟩ : Fin 8192) k) : EReal)
      = V c main_v17 (ix2 (⟨((((cfg2.win 6).blk t).view.emb y) 0).val, ((((cfg2.win 6).blk t).view.emb y) 0).isLt⟩ : Fin 1048576) k) :=
    fun k => iblk2_1_apply V c t ⟨(y 0).val, hy0⟩ k ⟨((((cfg2.win 6).blk t).view.emb y) 0).val, ((((cfg2.win 6).blk t).view.emb y) 0).isLt⟩ hrow
  have h2 : ∀ k : Fin 64, (iblk2 V c 2 t (ix2 k j) : EReal) = V c main_v19 (ix2 k j) := fun k => iblk2_2_apply V c t k j
  have h3 : ∀ k : Fin 64, (iblk2 V c 3 t (ix2 k j) : EReal) = V c main_v21 (ix2 k j) := fun k => iblk2_3_apply V c t k j
  simp only [h0, h1, h2, h3]

/-! ## The blocks tile the score array -/

/-- An index of the score array is in point `t`'s block iff each coordinate is in the block's range on its axis. -/
theorem mem_blk2_6 (t : Fin cfg2.N) (i : S1048576x1.Idx) :
    i ∈ ((cfg2.win 6).blk t).view.set ↔ ∀ a : Fin 2, win2_6.index t a * S8192x1.size a ≤ (i a).val ∧ (i a).val < win2_6.index t a * S8192x1.size a + S8192x1.size a := by
  show i ∈ ((View.whole main_v24).slice (win2_6.rect t)).set ↔ _
  rw [View.set_slice_whole, Rect.mem_set_unit]
  exact Iff.rfl

/-- Every edge's score is written back by some point: edge `n` by point `n / 8192`. -/
theorem covered2_6 (i : S1048576x1.Idx) :
    ∃ t : Fin cfg2.N, (cfg2.win 6).flush t = true ∧ i ∈ ((cfg2.win 6).blk t).view.set := by
  have hi0 : (i 0).val < 1048576 := (i 0).isLt
  have hi1 : (i 1).val < 1 := (i 1).isLt
  have hlt : (i 0).val / 8192 < cfg2.N := by rw [show cfg2.N = 128 from N_2]; omega
  refine ⟨⟨(i 0).val / 8192, hlt⟩, flush2_6 _, ?_⟩
  rw [mem_blk2_6]
  obtain ⟨-, -, -, -, -, -, -, -, -, -, -, -, e60, e61⟩ := idx_facts2 ⟨(i 0).val / 8192, hlt⟩
  have e60' : win2_6.index ⟨(i 0).val / 8192, hlt⟩ (0 : Fin 2) = (i 0).val / 8192 := e60
  intro a
  match a with
  | ⟨0, _⟩ =>
    show win2_6.index ⟨(i 0).val / 8192, hlt⟩ (0 : Fin 2) * 8192 ≤ (i 0).val ∧ (i 0).val < win2_6.index ⟨(i 0).val / 8192, hlt⟩ (0 : Fin 2) * 8192 + 8192
    omega
  | ⟨1, _⟩ =>
    show win2_6.index ⟨(i 0).val / 8192, hlt⟩ (1 : Fin 2) * 1 ≤ (i 1).val ∧ (i 1).val < win2_6.index ⟨(i 0).val / 8192, hlt⟩ (1 : Fin 2) * 1 + 1
    omega

/-! ## The score array after the run -/

/-- After the last point the score array holds the scores of the operand arrays as the region found them. -/
theorem final2 (c : Dev nD) :
    (dat2 (F := Ideal) V c).arrAt 6 cfg2.N = scoreK (V c main_v10) (V c main_v17) (V c main_v19) (V c main_v21) (V c main_v22) (V c main_v23) :=
  (dat2 (F := Ideal) V c).arrAt_eq_of_cover 6 (scoreK (V c main_v10) (V c main_v17) (V c main_v19) (V c main_v21) (V c main_v22) (V c main_v23))
    (fun t _ => flushed2_6_eq V c t) covered2_6

end Regions

end Cert.KernelIdeal.Hand

end
-- ==== Proof.Ideal.ScorerSpec.lean ====
/-
  The kernel's scorer against the specification. The kernel is handed four small operands the host program made
  from the arguments — the two transposed halves of the first weight matrix, the bias as a row, the last weight row
  as a column — and computes, edge by edge, the sum over hidden units of the squashed pre-activation times the last
  weight: entry by entry this is the specification's score array.
-/
import proofs.«142809_j11622181503541_2_alg».proof.Proof.Ideal.ScorerArray
import proofs.«142809_j11622181503541_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window BodyObligation cellOf)
open Cert.KernelIdeal Cert.KernelIdeal.Gen

/-! ## The kernel's scorer is the specification's

The four small operands are host rearrangements of the arguments: the two weight halves are the transposes of the
left and right 64 columns of the first weight matrix, the bias row is the bias vector with a unit axis in front, the
last weight column is the transpose of the last weight row. Read at an index, each is an entry of its argument. -/

/-- The transposed left half of the first weight matrix at (k, j) is the matrix at (j, k). -/
theorem w1s_apply (W1 : (⟨S64x128, .f32⟩ : BufTy).Contents (Elt Ideal)) (k j : Fin 64) :
    transpose S64x64 [1, 0] (extractStridedSlice S64x64 ![0, 0] W1 slices_S64x128_S64x64_0_0) transposes_S64x64_S64x64_1_0 (ix2 k j)
      = W1 (ix2 j (⟨k.val, by omega⟩ : Fin 128)) := by
  refine (transpose_ix2_apply _ transposes_S64x64_S64x64_1_0 k j).trans ?_
  refine extractStridedSlice_apply _ W1 slices_S64x128_S64x64_0_0 (ix2 j k) (ix2 j (⟨k.val, by omega⟩ : Fin 128)) fun a => ?_
  match a with
  | ⟨0, _⟩ => show j.val = 0 + j.val; omega
  | ⟨1, _⟩ => show k.val = 0 + k.val; omega

/-- The transposed right half of the first weight matrix at (k, j) is the matrix at (j, 64 + k). -/
theorem w1d_apply (W1 : (⟨S64x128, .f32⟩ : BufTy).Contents (Elt Ideal)) (k j : Fin 64) :
    transpose S64x64 [1, 0] (extractStridedSlice S64x64 ![0, 64] W1 slices_S64x128_S64x64_0_64) transposes_S64x64_S64x64_1_0 (ix2 k j)
      = W1 (ix2 j (⟨64 + k.val, by omega⟩ : Fin 128)) := by
  refine (transpose_ix2_apply _ transposes_S64x64_S64x64_1_0 k j).trans ?_
  refine extractStridedSlice_apply _ W1 slices_S64x128_S64x64_0_64 (ix2 j k) (ix2 j (⟨64 + k.val, by omega⟩ : Fin 128)) fun a => ?_
  match a with
  | ⟨0, _⟩ => show j.val = 0 + j.val; omega
  | ⟨1, _⟩ => show 64 + k.val = 64 + k.val; rfl

/-- The kernel's whole-array scorer at the host's rearrangements of the weights is the specification's score array. -/
theorem scoreK_eq_spec (hs hd : S1048576x64.Idx → EReal) (W1 : (⟨S64x128, .f32⟩ : BufTy).Contents (Elt Ideal))
    (b : (⟨S64, .f32⟩ : BufTy).Contents (Elt Ideal)) (W3 : (⟨S1x64, .f32⟩ : BufTy).Contents (Elt Ideal)) :
    scoreK hs hd (transpose S64x64 [1, 0] (extractStridedSlice S64x64 ![0, 0] W1 slices_S64x128_S64x64_0_0) transposes_S64x64_S64x64_1_0)
        (transpose S64x64 [1, 0] (extractStridedSlice S64x64 ![0, 64] W1 slices_S64x128_S64x64_0_64) transposes_S64x64_S64x64_1_0)
        (shapeCast S1x64 b shapeCasts_S64_S1x64)
        (transpose S64x1 [1, 0] W3 transposes_S1x64_S64x1_1_0)
      = Cert.Spec.scoreArr hs hd W1 b W3 := by
  funext i
  unfold scoreK Cert.Spec.scoreArr Cert.Spec.score Cert.Spec.pre
  refine Finset.sum_congr rfl fun j _ => ?_
  rw [transpose_ix2_apply W3 transposes_S1x64_S64x1_1_0 j (0 : Fin 1), shapeCast_a_1a_apply b shapeCasts_S64_S1x64 (0 : Fin 1) j]
  refine congrArg (fun z : EReal => Ideal.logistic z * W3 (ix2 (0 : Fin 1) j)) ?_
  refine congrArg (fun z : EReal => z + b (ix1 j)) ?_
  refine congrArg₂ (fun z z' : EReal => z + z') (Finset.sum_congr rfl fun k _ => ?_) (Finset.sum_congr rfl fun k _ => ?_)
  · exact congrArg (fun z : EReal => hs (ix2 (⟨(i 0).val, (i 0).isLt⟩ : Fin 1048576) k) * z) (w1s_apply W1 k j)
  · exact congrArg (fun z : EReal => hd (ix2 (⟨(i 0).val, (i 0).isLt⟩ : Fin 1048576) k) * z) (w1d_apply W1 k j)

end Cert.KernelIdeal.Hand

end
-- ==== Proof.Ideal.Values.lean ====
/-
  The kernel program's result, at the ideal instance, as the specification's function of the launch contents:
  the first layer's array is layer(A, X, W₁), the second's layer(A, that, W₃) — each region's write-backs assemble
  the whole-array function, and a stretch in between only transposes weights —, the rows the endpoints name are
  gathered from it, and the scorer's array is the specification's score of those rows.
-/
import proofs.«142809_j11622181503541_2_alg».proof.Proof.Ideal.HostReads
import proofs.«142809_j11622181503541_2_alg».proof.Proof.Ideal.Layer0Array
import proofs.«142809_j11622181503541_2_alg».proof.Proof.Ideal.Layer1Array
import proofs.«142809_j11622181503541_2_alg».proof.Proof.Ideal.ScorerSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- A buffer neither layer touches and neither of the first two stretches writes is, at the second layer's exit, as launched. -/
theorem B4_plain (c : Dev nD) (b : Ref sig .tc) (h1 : ∀ w, Pipeline.arrRef spec1 w ≠ b) (h3 : b ∉ hostOps1_W)
    (h0 : ∀ w, Pipeline.arrRef spec0 w ≠ b) (hh : b ∉ hostOps0_W) : B4 m ρ c (Proc.devRef .tc b) = m ((c : Thread nD τ).loc b) :=
  (B4_of_ne m ρ c b h1).trans <| (B3_of m ρ c b h3).trans <| (B2_of_ne m ρ c b h0).trans <| (B1_of m ρ c b hh).trans rfl

/-- The first layer's array after its region. -/
theorem B2_v1 (c : Dev nD) : (B2 m ρ c (Proc.devRef .tc main_v1) : S16384x64.Idx → EReal) = (Cert.Spec.layerArr (m ((c : Thread nD τ).loc main_arg1)) (m ((c : Thread nD τ).loc main_arg0)) (m ((c : Thread nD τ).loc main_arg2))) := by
  refine (B2_arr m ρ c 3).trans ?_
  rw [final0 (E1 m ρ) c]
  have e1 : E1 m ρ c main_arg1 = (m ((c : Thread nD τ).loc main_arg1)) := (B1_of m ρ c main_arg1 (by decide)).trans rfl
  have e0 : E1 m ρ c main_arg0 = (m ((c : Thread nD τ).loc main_arg0)) := (B1_of m ρ c main_arg0 (by decide)).trans rfl
  have ew : (E1 m ρ c main_v0 : S64x64.Idx → EReal) = transpose S64x64 [1, 0] (m ((c : Thread nD τ).loc main_arg2)) transposes_S64x64_S64x64_1_0 := B1_v0 m ρ c
  rw [e1, e0, ew]
  exact layerK_transpose _ _ _

/-- The second layer's array after its region. -/
theorem B4_v3 (c : Dev nD) : (B4 m ρ c (Proc.devRef .tc main_v3) : S16384x64.Idx → EReal) = (Cert.Spec.layerArr (m ((c : Thread nD τ).loc main_arg1)) (Cert.Spec.layerArr (m ((c : Thread nD τ).loc main_arg1)) (m ((c : Thread nD τ).loc main_arg0)) (m ((c : Thread nD τ).loc main_arg2))) (m ((c : Thread nD τ).loc main_arg3))) := by
  refine (B4_arr m ρ c 3).trans ?_
  rw [final1 (E3 m ρ) c]
  have e1 : E3 m ρ c main_arg1 = (m ((c : Thread nD τ).loc main_arg1)) :=
    (B3_of m ρ c main_arg1 (by decide)).trans <| (B2_in m ρ c 0 rfl).trans <| (B1_of m ρ c main_arg1 (by decide)).trans rfl
  have e0 : (E3 m ρ c main_v1 : S16384x64.Idx → EReal) = (Cert.Spec.layerArr (m ((c : Thread nD τ).loc main_arg1)) (m ((c : Thread nD τ).loc main_arg0)) (m ((c : Thread nD τ).loc main_arg2))) := (B3_of m ρ c main_v1 (by decide)).trans (B2_v1 m ρ c)
  have e3 : B2 m ρ c (Proc.devRef .tc main_arg3) = (m ((c : Thread nD τ).loc main_arg3)) :=
    (B2_of_ne m ρ c main_arg3 (by decide)).trans <| (B1_of m ρ c main_arg3 (by decide)).trans rfl
  have ew : (E3 m ρ c main_v2 : S64x64.Idx → EReal) = transpose S64x64 [1, 0] (m ((c : Thread nD τ).loc main_arg3)) transposes_S64x64_S64x64_1_0 :=
    (B3_v2 m ρ c).trans (by rw [e3])
  rw [e1, e0, ew]
  exact layerK_transpose _ _ _

/-- The scorer's array after its region. -/
theorem B6_v24 (c : Dev nD) : (B6 m ρ c (Proc.devRef .tc main_v24) : S1048576x1.Idx → EReal) = Cert.Spec.scoreArr (gatherRowsK (Cert.Spec.layerArr (m ((c : Thread nD τ).loc main_arg1)) (Cert.Spec.layerArr (m ((c : Thread nD τ).loc main_arg1)) (m ((c : Thread nD τ).loc main_arg0)) (m ((c : Thread nD τ).loc main_arg2))) (m ((c : Thread nD τ).loc main_arg3))) (m ((c : Thread nD τ).loc main_arg7))) (gatherRowsK (Cert.Spec.layerArr (m ((c : Thread nD τ).loc main_arg1)) (Cert.Spec.layerArr (m ((c : Thread nD τ).loc main_arg1)) (m ((c : Thread nD τ).loc main_arg0)) (m ((c : Thread nD τ).loc main_arg2))) (m ((c : Thread nD τ).loc main_arg3))) (m ((c : Thread nD τ).loc main_arg8))) (m ((c : Thread nD τ).loc main_arg4)) (m ((c : Thread nD τ).loc main_arg5)) (m ((c : Thread nD τ).loc main_arg6)) := by
  refine (B6_arr m ρ c 6).trans ?_
  rw [final2 (E5 m ρ) c]
  have a4 : B4 m ρ c (Proc.devRef .tc main_arg4) = (m ((c : Thread nD τ).loc main_arg4)) := B4_plain m ρ c main_arg4 (by decide) (by decide) (by decide) (by decide)
  have a5 : B4 m ρ c (Proc.devRef .tc main_arg5) = (m ((c : Thread nD τ).loc main_arg5)) := B4_plain m ρ c main_arg5 (by decide) (by decide) (by decide) (by decide)
  have a6 : B4 m ρ c (Proc.devRef .tc main_arg6) = (m ((c : Thread nD τ).loc main_arg6)) := B4_plain m ρ c main_arg6 (by decide) (by decide) (by decide) (by decide)
  have a7 : B4 m ρ c (Proc.devRef .tc main_arg7) = (m ((c : Thread nD τ).loc main_arg7)) := B4_plain m ρ c main_arg7 (by decide) (by decide) (by decide) (by decide)
  have a8 : B4 m ρ c (Proc.devRef .tc main_arg8) = (m ((c : Thread nD τ).loc main_arg8)) := B4_plain m ρ c main_arg8 (by decide) (by decide) (by decide) (by decide)
  have e10 : (E5 m ρ c main_v10 : S1048576x64.Idx → EReal) = gatherRowsK (Cert.Spec.layerArr (m ((c : Thread nD τ).loc main_arg1)) (Cert.Spec.layerArr (m ((c : Thread nD τ).loc main_arg1)) (m ((c : Thread nD τ).loc main_arg0)) (m ((c : Thread nD τ).loc main_arg2))) (m ((c : Thread nD τ).loc main_arg3))) (m ((c : Thread nD τ).loc main_arg7)) := by
    refine (B5_v10 m ρ c).trans ?_; rw [B4_v3 m ρ c, a7]
  have e17 : (E5 m ρ c main_v17 : S1048576x64.Idx → EReal) = gatherRowsK (Cert.Spec.layerArr (m ((c : Thread nD τ).loc main_arg1)) (Cert.Spec.layerArr (m ((c : Thread nD τ).loc main_arg1)) (m ((c : Thread nD τ).loc main_arg0)) (m ((c : Thread nD τ).loc main_arg2))) (m ((c : Thread nD τ).loc main_arg3))) (m ((c : Thread nD τ).loc main_arg8)) := by
    refine (B5_v17 m ρ c).trans ?_; rw [B4_v3 m ρ c, a8]
  have e19 : (E5 m ρ c main_v19 : S64x64.Idx → EReal) = transpose S64x64 [1, 0] (extractStridedSlice S64x64 ![0, 0] (m ((c : Thread nD τ).loc main_arg4)) slices_S64x128_S64x64_0_0) transposes_S64x64_S64x64_1_0 := by
    refine (B5_v19 m ρ c).trans ?_; rw [a4]
  have e21 : (E5 m ρ c main_v21 : S64x64.Idx → EReal) = transpose S64x64 [1, 0] (extractStridedSlice S64x64 ![0, 64] (m ((c : Thread nD τ).loc main_arg4)) slices_S64x128_S64x64_0_64) transposes_S64x64_S64x64_1_0 := by
    refine (B5_v21 m ρ c).trans ?_; rw [a4]
  have e22 : (E5 m ρ c main_v22 : S1x64.Idx → EReal) = shapeCast S1x64 (m ((c : Thread nD τ).loc main_arg5)) shapeCasts_S64_S1x64 := by
    refine (B5_v22 m ρ c).trans ?_; rw [a5]
  have e23 : (E5 m ρ c main_v23 : S64x1.Idx → EReal) = transpose S64x1 [1, 0] (m ((c : Thread nD τ).loc main_arg6)) transposes_S1x64_S64x1_1_0 := by
    refine (B5_v23 m ρ c).trans ?_; rw [a6]
  rw [e10, e17, e19, e21, e22, e23]
  exact scoreK_eq_spec _ _ _ _ _

/-- THE KERNEL PROGRAM'S RUN, read: every weakly fair execution terminates with the score array at the
    specification's function of the launch contents, the adjacency returned as launched, the scalar result zero,
    and every argument unchanged. -/
theorem kernel_run : θ_run defs (onTc (τ := τ) (main (F := Ideal))) ⟨m, fun _ => 0, ρ⟩ (fun r => ∀ c : Dev nD,
      r.2.mem ((c.tc : Thread nD τ).loc main_v24) = Cert.Spec.scoreArr (gatherRowsK (Cert.Spec.layerArr (m ((c.tc : Thread nD τ).loc main_arg1)) (Cert.Spec.layerArr (m ((c.tc : Thread nD τ).loc main_arg1)) (m ((c.tc : Thread nD τ).loc main_arg0)) (m ((c.tc : Thread nD τ).loc main_arg2))) (m ((c.tc : Thread nD τ).loc main_arg3))) (m ((c.tc : Thread nD τ).loc main_arg7))) (gatherRowsK (Cert.Spec.layerArr (m ((c.tc : Thread nD τ).loc main_arg1)) (Cert.Spec.layerArr (m ((c.tc : Thread nD τ).loc main_arg1)) (m ((c.tc : Thread nD τ).loc main_arg0)) (m ((c.tc : Thread nD τ).loc main_arg2))) (m ((c.tc : Thread nD τ).loc main_arg3))) (m ((c.tc : Thread nD τ).loc main_arg8))) (m ((c.tc : Thread nD τ).loc main_arg4)) (m ((c.tc : Thread nD τ).loc main_arg5)) (m ((c.tc : Thread nD τ).loc main_arg6))
      ∧ r.2.mem ((c.tc : Thread nD τ).loc main_arg1) = m ((c.tc : Thread nD τ).loc main_arg1)
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v24 (by decide))).trans ((B7_of m ρ c main_v24 (by decide)).trans (B6_v24 m ρ c)),
     (h c _ (mem_uc main_arg1 (by decide))).trans (B7_main_arg1 m ρ c),
     (h c _ (mem_uc main_cst (by decide))).trans (B7_cst m ρ c),
     (h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c),
     (h c _ (mem_uc main_arg6 (by decide))).trans (B7_main_arg6 m ρ c),
     (h c _ (mem_uc main_arg7 (by decide))).trans (B7_main_arg7 m ρ c),
     (h c _ (mem_uc main_arg8 (by decide))).trans (B7_main_arg8 m ρ c)⟩)
    (run_all m ρ)

end Cert.KernelIdeal.Hand

end
-- ==== Proof.RefLayers.lean ====
/-
  The two propagation layers of the reference program, read at an index.

  A layer takes node features Y, multiplies by the adjacency A, multiplies by the transposed weight W and takes the
  larger of the result and 0. Read at (n, o) this is max(Σ_d (Σ_j A(n,j)·Y(j,d))·W(o,d), 0): the specification's layer.
  The second layer is the first one's operations again, applied to the first layer's result.
-/
import proofs.«142809_j11622181503541_2_alg».proof.Proof.Gen.ReferenceIdeal.Read
import proofs.«142809_j11622181503541_2_alg».proof.Proof.Spec

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- A rank-2 index with coordinates `a` and `b` is `ix2 a b`. -/
theorem ix2_of {n0 n1 : Nat} (f : (⟨2, ![n0, n1]⟩ : Shape).Idx) (a : Fin n0) (b : Fin n1) (h0 : f 0 = a) (h1 : f 1 = b) :
    f = ix2 a b := by
  funext c
  match c with
  | ⟨0, _⟩ => exact h0
  | ⟨1, _⟩ => exact h1

/-- One layer as the reference spells it — (A·Y)·Wᵀ, then the maximum with a broadcast zero — is the specification's
    layer, entry by entry. -/
theorem layer_ref (Y : (⟨S16384x64, .f32⟩ : BufTy).Contents (Elt Ideal)) (A : (⟨S16384x16384, .f32⟩ : BufTy).Contents (Elt Ideal))
    (W : (⟨S64x64, .f32⟩ : BufTy).Contents (Elt Ideal)) :
    val_main_v3 (F := Ideal) Y A W = Cert.Spec.layerArr A Y W := by
  funext i
  rw [val_main_v3_apply, val_main_v2_apply, val_main_call0_v0_apply, val_main_call0_cst_apply]
  simp only [val_main_v0_apply, val_main_v1_apply]
  rw [Ideal.maximumf_def, Ideal.ofBits_def, Ideal.ofBits_zero_f32]
  show _ = max (∑ d : Fin 64, (∑ j : Fin 16384, A (ix2 (⟨(i 0).val, (i 0).isLt⟩ : Fin 16384) j) * Y (ix2 j d))
      * W (ix2 (⟨(i 1).val, (i 1).isLt⟩ : Fin 64) d)) 0
  refine congrArg (fun s => max s (0 : EReal)) (Finset.sum_congr rfl fun k _ => ?_)
  rw [show idx_main_v1 (ridx_main_v2 i k) = ix2 (⟨(i 1).val, (i 1).isLt⟩ : Fin 64) k from ix2_of _ _ _ rfl rfl]
  refine congrArg (· * W (ix2 (⟨(i 1).val, (i 1).isLt⟩ : Fin 64) k)) (Finset.sum_congr rfl fun j _ => ?_)
  rw [show lidx_main_v0 (lidx_main_v2 i k) j = ix2 (⟨(i 0).val, (i 0).isLt⟩ : Fin 16384) j from ix2_of _ _ _ rfl rfl,
    show ridx_main_v0 (lidx_main_v2 i k) j = ix2 j k from ix2_of _ _ _ rfl rfl]

/-- The second layer's operations are the first layer's, applied to the first layer's result. -/
theorem v7_eq_layer_layer (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) :
    val_main_v7 (F := Ideal) x0 x1 x2 x3 = val_main_v3 (F := Ideal) (val_main_v3 (F := Ideal) x0 x1 x2) x1 x3 := rfl

/-- The node features after both layers are the specification's two layers composed. -/
theorem features_ref (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) :
    val_main_v7 (F := Ideal) x0 x1 x2 x3 = Cert.Spec.layerArr x1 (Cert.Spec.layerArr x1 x0 x2) x3 := by
  rw [v7_eq_layer_layer, layer_ref, layer_ref]

end Cert.RefSide

end
-- ==== Proof.LibRowLayout.lean ====
/-
  Layout operations of matrices read at an index `(p, k)`, in the forms a row-blocked matrix kernel needs: a column
  `[a, 1]` broadcast along its rows to `[a, b]` by a vector broadcast, a vector `[a]` cast to the column `[a, 1]`,
  and two matrices with the same rows set side by side along the column axis, read on the left part and on the right
  part. Each reads the operand at the evident index; stated over generic extents.
-/
import Idealize.ShloMosaic.Lib.Pipeline.Value
import Idealize.ShloMosaic.Lib.ValueIdx

noncomputable section

open Idealize.ShloMosaic Idealize.ShloMosaic.ValueIdx

namespace RowLayout

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- `[x₁ | x₂]` read at a column of the left part is `x₁` there. -/
theorem concat_cols_left {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : k.val < b₁) :
    concatenate ⟨2, ![a, b]⟩ 1 [⟨⟨2, ![a, b₁]⟩, x₁⟩, ⟨⟨2, ![a, b₂]⟩, x₂⟩] h (ix2 p k) = x₁ (ix2 p ⟨k.val, hk⟩) :=
  concatenate_pair_apply_left 1 x₁ x₂ h (ix2 p k) rfl (ix2 p ⟨k.val, hk⟩) fun c => by
    match c with
    | ⟨0, _⟩ => rfl
    | ⟨1, _⟩ => rfl

/-- `[x₁ | x₂]` read at a column of the right part is `x₂` at that column less the left part's width. -/
theorem concat_cols_right {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : b₁ ≤ k.val)
    (hk₂ : k.val - b₁ < b₂) :
    concatenate ⟨2, ![a, b]⟩ 1 [⟨⟨2, ![a, b₁]⟩, x₁⟩, ⟨⟨2, ![a, b₂]⟩, x₂⟩] h (ix2 p k) = x₂ (ix2 p ⟨k.val - b₁, hk₂⟩) :=
  concatenate_pair_apply_right 1 x₁ x₂ h (ix2 p k) rfl rfl (ix2 p ⟨k.val - b₁, hk₂⟩)
    (fun c hc => by
      match c with
      | ⟨0, _⟩ => rfl
      | ⟨1, _⟩ => exact absurd rfl hc)
    (by show k.val - b₁ + b₁ = k.val; omega)

end RowLayout

end
-- ==== Proof.LibLogistic.lean ====
/-
  The logistic function on the extended reals, in the two spellings float programs use:
      ½·(tanh(½·v) + 1)      (one transcendental, no division)     and     1 / (1 + e^{-v}),
  with the literals `0.5` and `1.0` as f32 patterns. They are ONE function on every extended real: at +∞ both are 1,
  at −∞ both are 0 (tanh(±∞) = ±1, e^{-∞} = 0, 1/(+∞) = 0), and on the reals it is the identity
  tanh(r/2) = (1 − e^{-r})/(1 + e^{-r}). The second spelling is the ideal instance's own `logistic`.
-/
import Idealize.ShloMosaic.PureOps.Ideal

noncomputable section

namespace Logistic

open Idealize.ShloMosaic

/-! ## The two float literals of the spelling through the hyperbolic tangent -/

/-- The pattern of `0.5`. -/
abbrev cHalf : EReal := Ideal.ofBits .f32 0x3F000000#32
/-- The pattern of `1.0`. -/
abbrev cOne : EReal := Ideal.ofBits .f32 0x3F800000#32

/-- `0.5` denotes the real one half. -/
theorem cHalf_val : cHalf = ((1 / 2 : ℝ) : EReal) := by
  show Ideal.ofBits .f32 0x3F000000#32 = _
  simp [Ideal.ofBits, Ideal.ieee, -EReal.coe_mul]; norm_num

/-- `1.0` denotes one. -/
theorem cOne_val : cOne = 1 := by
  show Ideal.ofBits .f32 0x3F800000#32 = _
  simp [Ideal.ofBits, Ideal.ieee, -EReal.coe_mul]; norm_num

/-! ## The logistic function, twice -/

/-- The logistic function through the hyperbolic tangent: ½·(tanh(½·v) + 1). -/
def sigT (v : EReal) : EReal := cHalf * (Ideal.tanh (cHalf * v) + cOne)

/-- The logistic function through the exponential: 1 / (1 + e^{-v}). -/
def sigE (v : EReal) : EReal := Ideal.div cOne (cOne + Ideal.exp (-v))

/-- On the reals: ½·(tanh(r/2) + 1) = 1/(1 + e^{-r}). With b = e^{-r/2}, tanh(r/2) = (b⁻¹ − b)/(b⁻¹ + b) and
    e^{-r} = b². -/
theorem real_sigmoid (r : ℝ) : (1 / 2 : ℝ) * (Real.tanh ((1 / 2 : ℝ) * r) + 1) = (1 + Real.exp (-r))⁻¹ := by
  have hb : 0 < Real.exp (-((1 / 2 : ℝ) * r)) := Real.exp_pos _
  have hab : Real.exp ((1 / 2 : ℝ) * r) * Real.exp (-((1 / 2 : ℝ) * r)) = 1 := by
    rw [← Real.exp_add, add_neg_cancel, Real.exp_zero]
  have hb2 : Real.exp (-r) = Real.exp (-((1 / 2 : ℝ) * r)) * Real.exp (-((1 / 2 : ℝ) * r)) := by
    rw [← Real.exp_add]; congr 1; ring
  rw [Real.tanh_eq_sinh_div_cosh, Real.sinh_eq, Real.cosh_eq, hb2]
  generalize Real.exp (-((1 / 2 : ℝ) * r)) = b at *
  have ha : Real.exp ((1 / 2 : ℝ) * r) = b⁻¹ := eq_inv_of_mul_eq_one_left hab
  rw [ha]
  have h1 : b ≠ 0 := hb.ne'
  have h2 : (1 + b * b) ≠ 0 := by positivity
  have h3 : b⁻¹ + b ≠ 0 := by positivity
  field_simp
  ring

/-- The two spellings are one function on every extended real. -/
theorem sigT_eq_sigE (v : EReal) : sigT v = sigE v := by
  have hE : sigE v = Ideal.logistic v := by
    unfold sigE; rw [cOne_val]; rfl
  rw [hE]; unfold sigT; rw [cHalf_val, cOne_val]
  induction v using EReal.rec
  · -- −∞: ½·(tanh(−∞) + 1) = ½·(−1 + 1) = 0
    rw [EReal.coe_mul_bot_of_pos (by norm_num), Ideal.tanh_bot, Ideal.logistic_bot]
    have h0 : (-1 : EReal) + 1 = 0 := by
      rw [show (-1 : EReal) = ((-1 : ℝ) : EReal) by norm_num, ← EReal.coe_one, ← EReal.coe_add]; norm_num
    rw [h0, mul_zero]
  · -- a real
    rename_i r
    rw [← EReal.coe_mul, Ideal.tanh_coe, Ideal.logistic_coe, ← EReal.coe_one, ← EReal.coe_add, ← EReal.coe_mul,
      real_sigmoid]
  · -- +∞: ½·(tanh(+∞) + 1) = ½·2 = 1
    rw [EReal.coe_mul_top_of_pos (by norm_num), Ideal.tanh_top, Ideal.logistic_top]
    rw [← EReal.coe_one, ← EReal.coe_add, ← EReal.coe_mul]; norm_num

/-- The spelling through the exponential is the ideal instance's `logistic`. -/
theorem sigE_eq_logistic (v : EReal) : sigE v = Ideal.logistic v := by
  unfold sigE; rw [cOne_val]; rfl

end Logistic

end
-- ==== Proof.RefScore.lean ====
/-
  The edge scorer of the reference program, read at an index.

  The two gathered feature arrays hs, hd are set side by side along the column axis and multiplied by the transposed
  first weight W₁: the sum over the 128 joined columns is the sum over hs's 64 columns against W₁'s columns 0..63 plus
  the sum over hd's 64 columns against W₁'s columns 64..127. Adding the bias gives the pre-activation s(e, j);
  1/(1 + exp(−s)) is the logistic function of s; the last contraction against W₃'s one row gives the score.
-/
import proofs.«142809_j11622181503541_2_alg».proof.Proof.RefLayers
import proofs.«142809_j11622181503541_2_alg».proof.Proof.LibRowLayout
import proofs.«142809_j11622181503541_2_alg».proof.Proof.LibLogistic

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The contraction of `[hs | hd]` with W₁ᵀ at (e, j): the sum over the joined 128 columns splits into hs's columns
    against W₁(j, 0..63) and hd's columns against W₁(j, 64..127). -/
theorem concat_dot (hs hd : (⟨S1048576x64, .f32⟩ : BufTy).Contents (Elt Ideal)) (W1 : (⟨S64x128, .f32⟩ : BufTy).Contents (Elt Ideal))
    (i : S1048576x64.Idx) :
    (∑ k : Fin 128, concatenate S1048576x128 1 [⟨S1048576x64, hs⟩, ⟨S1048576x64, hd⟩] concatenates_S1048576x64_S1048576x64_S1048576x128_d1
        (lidx_main_v24 i k) * W1 (idx_main_v23 (ridx_main_v24 i k)))
      = (∑ k : Fin 64, hs (ix2 (⟨(i 0).val, (i 0).isLt⟩ : Fin 1048576) k) * W1 (ix2 (⟨(i 1).val, (i 1).isLt⟩ : Fin 64) (⟨k.val, by omega⟩ : Fin 128)))
        + (∑ k : Fin 64, hd (ix2 (⟨(i 0).val, (i 0).isLt⟩ : Fin 1048576) k) * W1 (ix2 (⟨(i 1).val, (i 1).isLt⟩ : Fin 64) (⟨64 + k.val, by omega⟩ : Fin 128))) := by
  have hsplit := Fin.sum_univ_add (a := 64) (b := 64) (fun k : Fin (64 + 64) =>
    concatenate S1048576x128 1 [⟨S1048576x64, hs⟩, ⟨S1048576x64, hd⟩] concatenates_S1048576x64_S1048576x64_S1048576x128_d1
        (lidx_main_v24 i k) * W1 (idx_main_v23 (ridx_main_v24 i k)))
  refine hsplit.trans ?_
  refine congrArg₂ (· + ·) (Finset.sum_congr rfl fun k _ => ?_) (Finset.sum_congr rfl fun k _ => ?_)
  · have hk : k.val < 128 := by omega
    have hl : lidx_main_v24 i (Fin.castAdd 64 k) = ix2 (⟨(i 0).val, (i 0).isLt⟩ : Fin 1048576) (⟨k.val, hk⟩ : Fin 128) :=
      ix2_of _ _ _ rfl rfl
    have hr : idx_main_v23 (ridx_main_v24 i (Fin.castAdd 64 k)) = ix2 (⟨(i 1).val, (i 1).isLt⟩ : Fin 64) (⟨k.val, hk⟩ : Fin 128) :=
      ix2_of _ _ _ rfl rfl
    show concatenate S1048576x128 1 [⟨S1048576x64, hs⟩, ⟨S1048576x64, hd⟩] concatenates_S1048576x64_S1048576x64_S1048576x128_d1
        (lidx_main_v24 i (Fin.castAdd 64 k)) * W1 (idx_main_v23 (ridx_main_v24 i (Fin.castAdd 64 k))) = _
    rw [hl, hr]
    rw [RowLayout.concat_cols_left (a := 1048576) (b₁ := 64) (b₂ := 64) (b := 128) hs hd
      concatenates_S1048576x64_S1048576x64_S1048576x128_d1 (⟨(i 0).val, (i 0).isLt⟩ : Fin 1048576) (⟨k.val, hk⟩ : Fin 128) k.isLt]
  · have hk : 64 + k.val < 128 := by omega
    have hl : lidx_main_v24 i (Fin.natAdd 64 k) = ix2 (⟨(i 0).val, (i 0).isLt⟩ : Fin 1048576) (⟨64 + k.val, hk⟩ : Fin 128) :=
      ix2_of _ _ _ rfl rfl
    have hr : idx_main_v23 (ridx_main_v24 i (Fin.natAdd 64 k)) = ix2 (⟨(i 1).val, (i 1).isLt⟩ : Fin 64) (⟨64 + k.val, hk⟩ : Fin 128) :=
      ix2_of _ _ _ rfl rfl
    show concatenate S1048576x128 1 [⟨S1048576x64, hs⟩, ⟨S1048576x64, hd⟩] concatenates_S1048576x64_S1048576x64_S1048576x128_d1
        (lidx_main_v24 i (Fin.natAdd 64 k)) * W1 (idx_main_v23 (ridx_main_v24 i (Fin.natAdd 64 k))) = _
    rw [hl, hr]
    rw [RowLayout.concat_cols_right (a := 1048576) (b₁ := 64) (b₂ := 64) (b := 128) hs hd
      concatenates_S1048576x64_S1048576x64_S1048576x128_d1 (⟨(i 0).val, (i 0).isLt⟩ : Fin 1048576) (⟨64 + k.val, hk⟩ : Fin 128)
      (Nat.le_add_right 64 k.val) (by show 64 + k.val - 64 < 64; omega)]
    have hidx : (⟨64 + k.val - 64, by omega⟩ : Fin 64) = k := Fin.ext (by show 64 + k.val - 64 = k.val; omega)
    show hd (ix2 (⟨(i 0).val, (i 0).isLt⟩ : Fin 1048576) (⟨64 + k.val - 64, _⟩ : Fin 64)) * _ = _
    rw [hidx]

/-- The pre-activation the reference computes — the contraction of the joined gathered rows with W₁ᵀ plus the
    broadcast bias — is the specification's s(e, j), the gathered arrays kept as they are. -/
theorem pre_ref (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x4 : (⟨S64x128, .f32⟩ : BufTy).Contents (Elt Ideal))
    (x5 : (⟨S64, .f32⟩ : BufTy).Contents (Elt Ideal)) (x7 x8 : (⟨S1048576, .i32⟩ : BufTy).Contents (Elt Ideal)) (i : S1048576x64.Idx) :
    val_main_v27 (F := Ideal) x0 x1 x2 x3 x4 x5 x7 x8 i
      = Cert.Spec.pre (val_main_v14 (F := Ideal) x0 x1 x2 x3 x7) (val_main_v21 (F := Ideal) x0 x1 x2 x3 x8) x4 x5
          ⟨(i 0).val, (i 0).isLt⟩ ⟨(i 1).val, (i 1).isLt⟩ := by
  rw [val_main_v27_apply, val_main_v24_apply, val_main_v26_apply, val_main_v25_apply]
  simp only [val_main_v23_apply]
  unfold val_main_v22
  generalize val_main_v14 (F := Ideal) x0 x1 x2 x3 x7 = hs
  generalize val_main_v21 (F := Ideal) x0 x1 x2 x3 x8 = hd
  rw [Ideal.addf_def, concat_dot]
  have hb : idx_main_v25 (idx_main_v26 i) = ix1 (⟨(i 1).val, (i 1).isLt⟩ : Fin 64) := by
    funext c
    match c with
    | ⟨0, _⟩ => rfl
  rw [hb]
  rfl

/-- The hidden activation 1/(1 + exp(−s)) is the logistic function of the pre-activation. -/
theorem hidden_ref (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x4 : (⟨S64x128, .f32⟩ : BufTy).Contents (Elt Ideal))
    (x5 : (⟨S64, .f32⟩ : BufTy).Contents (Elt Ideal)) (x7 x8 : (⟨S1048576, .i32⟩ : BufTy).Contents (Elt Ideal)) (i : S1048576x64.Idx) :
    val_main_v33 (F := Ideal) x0 x1 x2 x3 x4 x5 x7 x8 i = Ideal.logistic (val_main_v27 (F := Ideal) x0 x1 x2 x3 x4 x5 x7 x8 i) := by
  rw [val_main_v33_apply, val_main_v32_apply, val_main_cst_3_apply, val_main_v31_apply, val_main_v30_apply, val_main_cst_apply,
    val_main_v29_apply, val_main_v28_apply]
  rw [Ideal.hostDivf_def, Ideal.addf_def, Ideal.hostUnary_exp_def, Ideal.hostNegf_def, Ideal.negf_def, Ideal.ofBits_def]
  exact Logistic.sigE_eq_logistic _

/-- The reference's result is the specification's score of the two gathered arrays. -/
theorem score_ref (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x4 : (⟨S64x128, .f32⟩ : BufTy).Contents (Elt Ideal))
    (x5 : (⟨S64, .f32⟩ : BufTy).Contents (Elt Ideal)) (x6 : (⟨S1x64, .f32⟩ : BufTy).Contents (Elt Ideal))
    (x7 x8 : (⟨S1048576, .i32⟩ : BufTy).Contents (Elt Ideal)) :
    val_main_v35 (F := Ideal) x0 x1 x2 x3 x4 x5 x6 x7 x8
      = Cert.Spec.scoreArr (val_main_v14 (F := Ideal) x0 x1 x2 x3 x7) (val_main_v21 (F := Ideal) x0 x1 x2 x3 x8) x4 x5 x6 := by
  funext i
  rw [val_main_v35_apply]
  simp only [val_main_v34_apply, hidden_ref, pre_ref]
  show _ = ∑ j : Fin 64, Ideal.logistic (Cert.Spec.pre (val_main_v14 (F := Ideal) x0 x1 x2 x3 x7) (val_main_v21 (F := Ideal) x0 x1 x2 x3 x8) x4 x5
      ⟨(i 0).val, (i 0).isLt⟩ j) * x6 (ix2 (0 : Fin 1) j)
  refine Finset.sum_congr rfl fun k _ => ?_
  rw [show idx_main_v34 (ridx_main_v35 i k) = ix2 (0 : Fin 1) k from
    ix2_of _ _ _ (Fin.ext (by show (i 1).val = 0; have := idx2_lt1 i; omega)) rfl]

end Cert.RefSide

end
-- ==== Proof.RefSide.lean ====
/-
  The reference program's result, in the specification's words.

  The reference gathers rows of the two-layer node features at the wrapped source and destination edge indices; which
  row an index selects is left to the gather operation itself (`gatherRows`, the same function on both sides of a
  comparison). In terms of it the result is the specification's score array of the two gathered arrays, and every
  terminating run of the reference ends with that array in the result buffer.
-/
import proofs.«142809_j11622181503541_2_alg».proof.Proof.RefScore

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The gathered rows, as the reference spells them: the gather of the feature array `H` at the edge indices `e`, an
    index below zero first wrapped by adding the number of rows. -/
def gatherRows (H : (⟨S16384x64, .f32⟩ : BufTy).Contents (Elt Ideal)) (e : (⟨S1048576, .i32⟩ : BufTy).Contents (Elt Ideal)) :
    (⟨S1048576x64, .f32⟩ : BufTy).Contents (Elt Ideal) :=
  Host.gather gather_S16384x64_S1048576x1_S1048576x64_1_0_n_n_0_1_164 H
    (broadcastInDim S1048576x1 ![0] bcast_S1048576_S1048576x1_0
      (select (cmpi .slt e (broadcastInDim S1048576 ![] bcast_S_S1048576 (constantI S_ 32 0#32)))
        (addi e (broadcastInDim S1048576 ![] bcast_S_S1048576 (constantI S_ 32 16384#32))) e))

/-- The source-side gather of the reference is `gatherRows` of the second layer's features. -/
theorem v14_eq_gatherRows (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x7 : (⟨S1048576, .i32⟩ : BufTy).Contents (Elt Ideal)) :
    val_main_v14 (F := Ideal) x0 x1 x2 x3 x7 = gatherRows (val_main_v7 (F := Ideal) x0 x1 x2 x3) x7 := rfl

/-- The destination-side gather of the reference is `gatherRows` of the second layer's features. -/
theorem v21_eq_gatherRows (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x8 : (⟨S1048576, .i32⟩ : BufTy).Contents (Elt Ideal)) :
    val_main_v21 (F := Ideal) x0 x1 x2 x3 x8 = gatherRows (val_main_v7 (F := Ideal) x0 x1 x2 x3) x8 := rfl

/-- The reference's result array is the specification's score array of the rows of the two-layer features gathered at
    the source and at the destination indices. -/
theorem result_eq (a0 : (⟨S16384x64, .f32⟩ : BufTy).Contents (Elt Ideal)) (a1 : (⟨S16384x16384, .f32⟩ : BufTy).Contents (Elt Ideal))
    (a2 a3 : (⟨S64x64, .f32⟩ : BufTy).Contents (Elt Ideal)) (a4 : (⟨S64x128, .f32⟩ : BufTy).Contents (Elt Ideal))
    (a5 : (⟨S64, .f32⟩ : BufTy).Contents (Elt Ideal)) (a6 : (⟨S1x64, .f32⟩ : BufTy).Contents (Elt Ideal))
    (a7 a8 : (⟨S1048576, .i32⟩ : BufTy).Contents (Elt Ideal)) :
    val_main_v35 (F := Ideal) a0 a1 a2 a3 a4 a5 a6 a7 a8
      = Cert.Spec.scoreArr (gatherRows (Cert.Spec.layerArr a1 (Cert.Spec.layerArr a1 a0 a2) a3) a7)
          (gatherRows (Cert.Spec.layerArr a1 (Cert.Spec.layerArr a1 a0 a2) a3) a8) a4 a5 a6 := by
  rw [score_ref, v14_eq_gatherRows, v21_eq_gatherRows, features_ref]

/-- Every weakly fair run of the reference from any memory terminates with the result buffer holding the
    specification's score array of the gathered two-layer features, the arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v35)
        = Cert.Spec.scoreArr (gatherRows (Cert.Spec.layerArr (m' ((c.tc : Thread nD τ).loc main_arg1)) (Cert.Spec.layerArr (m' ((c.tc : Thread nD τ).loc main_arg1)) (m' ((c.tc : Thread nD τ).loc main_arg0)) (m' ((c.tc : Thread nD τ).loc main_arg2))) (m' ((c.tc : Thread nD τ).loc main_arg3))) (m' ((c.tc : Thread nD τ).loc main_arg7)))
            (gatherRows (Cert.Spec.layerArr (m' ((c.tc : Thread nD τ).loc main_arg1)) (Cert.Spec.layerArr (m' ((c.tc : Thread nD τ).loc main_arg1)) (m' ((c.tc : Thread nD τ).loc main_arg0)) (m' ((c.tc : Thread nD τ).loc main_arg2))) (m' ((c.tc : Thread nD τ).loc main_arg3))) (m' ((c.tc : Thread nD τ).loc main_arg8))) (m' ((c.tc : Thread nD τ).loc main_arg4)) (m' ((c.tc : Thread nD τ).loc main_arg5)) (m' ((c.tc : Thread nD τ).loc main_arg6))
      ∧ r.2.mem ((c.tc : Thread nD τ).loc main_arg1) = m' ((c.tc : Thread nD τ).loc main_arg1)
      ∧ r.2.mem ((c.tc : Thread nD τ).loc main_cst_4) = constant (F := Ideal) S_ .f32 0x00000000#32
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8) :=
  (θ_run defs _ _).mono (fun _ h c => ⟨(h c).1.trans ((val_main_v35_eq (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))).trans
      (result_eq _ _ _ _ _ _ _ _ _)), (h c).2⟩)
    (Cert.ReferenceIdeal.Value.run (F := Ideal) m' ρ')

end Cert.RefSide

end
-- ==== Proof.GatherBridge.lean ====
/-
  The two programs name the same things. Each printed program carries its own copy of the shapes and of the
  gather's dimension numbers; the copies are the same literals, so the rows the kernel's program gathers at the edge
  endpoints are the rows the reference gathers, and the zero scalar each leaves behind is the same constant.
-/
import proofs.«142809_j11622181503541_2_alg».proof.Proof.RefSide
import proofs.«142809_j11622181503541_2_alg».proof.Proof.Ideal.HostReads

set_option maxRecDepth 16384

noncomputable section

namespace Cert.Bridge

open Idealize.ShloMosaic

/-- The two programs' gather records carry the same dimension numbers. -/
theorem gatherDims_eq :
    Cert.KernelIdeal.gather_S16384x64_S1048576x1_S1048576x64_1_0_n_n_0_1_164
      = Cert.ReferenceIdeal.gather_S16384x64_S1048576x1_S1048576x64_1_0_n_n_0_1_164 := rfl

/-- Both programs gather the same rows: the same gather, of the same array, at the same wrapped indices. -/
theorem gather_eq (H : (⟨Cert.KernelIdeal.S16384x64, .f32⟩ : BufTy).Contents (Elt Ideal))
    (e : (⟨Cert.KernelIdeal.S1048576, .i32⟩ : BufTy).Contents (Elt Ideal)) :
    Cert.KernelIdeal.Hand.gatherRowsK H e = Cert.RefSide.gatherRows H e := by
  unfold Cert.KernelIdeal.Hand.gatherRowsK Cert.RefSide.gatherRows
  rw [gatherDims_eq]

/-- Both programs' zero scalar is the same constant. -/
theorem zero_eq : (constant (F := Ideal) Cert.KernelIdeal.S_ .f32 0x00000000#32) = (constant (F := Ideal) Cert.ReferenceIdeal.S_ .f32 0x00000000#32) := rfl

end Cert.Bridge

end
-- ==== Proof.lean ====
/-
  The certificate: a two-layer graph network with an edge scorer, as three tiled kernels around host gathers,
  against its plain reference. Over the extended reals both programs compute the same function of the inputs:
  a layer's column-block sums add up to the whole product A·Y (addition of extended reals is commutative and
  associative, so the blocking is immaterial), the matrix unit's products into a zero accumulator are the host's
  dot products, the weight matrix's two halves against the two gathered arrays are the concatenated array against the
  whole matrix, and the logistic function is the quotient 1/(1+e⁻ˣ) the reference spells. No finiteness is needed:
  the precondition is not opened.

  Frames: each kernel region is run point by point — a layer's running sum is carried from point to point by the
  region's invariant —, the regions and the stretches of host operations between them compose in order, and no
  argument array is ever written.
-/
import proofs.«142809_j11622181503541_2_alg».proof.Defs
import proofs.«142809_j11622181503541_2_alg».proof.Proof.Gen.Kernel
import proofs.«142809_j11622181503541_2_alg».proof.Proof.Gen.KernelIdeal
import proofs.«142809_j11622181503541_2_alg».proof.Proof.Gen.ReferenceIdeal
import proofs.«142809_j11622181503541_2_alg».proof.Proof.Gen.Pre_finite_inputs
import proofs.«142809_j11622181503541_2_alg».proof.Proof.Bits.Frame
import proofs.«142809_j11622181503541_2_alg».proof.Proof.Ideal.Values
import proofs.«142809_j11622181503541_2_alg».proof.Proof.RefSide
import proofs.«142809_j11622181503541_2_alg».proof.Proof.GatherBridge

noncomputable section

namespace Cert.Proof

open Idealize.ShloMosaic Idealize.ShloMosaic.TcCoe Idealize.SL.Sem

/-- The word-level kernel program runs and leaves its arguments alone. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories agreeing on the arguments both idealized programs end with the specification's scores of the
    same gathered rows, the adjacency as launched and a zero scalar. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, Cert.KernelIdeal.Hand.kernel_run m ρ, ?_⟩
  refine (θ_run Cert.ReferenceIdeal.defs _ _).mono (fun _ h c => ⟨(h c).1.trans ?_, (h c).2.1.trans ?_, (h c).2.2.1.trans ?_, (h c).2.2.2⟩)
    (Cert.RefSide.ref_run m' ρ')
  · obtain ⟨e0, e1, e2, e3, e4, e5, e6, e7, e8⟩ := hagree c
    rw [e0, e1, e2, e3, e4, e5, e6, e7, e8]
    simp only [Cert.Bridge.gather_eq]
  · exact (hagree c).2.1
  · exact Cert.Bridge.zero_eq.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
